-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x2048x1 : S_.BroadcastsInDim S16384x2048x1 (![] : Fin 0 → Fin S16384x2048x1.rank)
  reducesTo_S16384x2048x1_S_d0_1_2 : S16384x2048x1.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S2048 .f32) (main_arg15 : FVec F S2048x2048 .f32) (main_arg16 : FVec F S2048 .f32) (main_arg17 : FVec F S1 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S4096x2048 .f32 := Host.absf main_arg11
  let main_cst_20 : FVec F S_ .f32 := constant S_ .f32 0x7F800000#32
  let main_v55 : FVec F S4096x2048 .f32 := broadcastInDim S4096x2048 ![] bcast_S_S4096x2048 main_cst_20
  let main_v56 : IVec S4096x2048 1 := cmpf .olt main_v54 main_v55
  let main_c_21 : IVec S_ 1 := constantI S_ 1 1#1
  let main_v57 : IVec S_ 1 := (fun x v => Host.reduce IntOp.andi x v reducesTo_S4096x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S4096x2048 .f32 := Host.absf main_arg13
  let main_cst_24 : FVec F S_ .f32 := constant S_ .f32 0x7F800000#32
  let main_v65 : FVec F S4096x2048 .f32 := broadcastInDim S4096x2048 ![] bcast_S_S4096x2048 main_cst_24
  let main_v66 : IVec S4096x2048 1 := cmpf .olt main_v64 main_v65
  let main_c_25 : IVec S_ 1 := constantI S_ 1 1#1
  let main_v67 : IVec S_ 1 := (fun x v => Host.reduce IntOp.andi x v reducesTo_S4096x2048_S_d0_1 h_S_) main_v66 main_c_25
  fn_part4 (F := F) main_arg14 main_arg15 main_arg16 main_arg17 main_v63 main_v67

def fn_part2 {F : FTy → Type} [FloatOps F] (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_v48 main_v49 main_v50

def fn_part1 {F : FTy → Type} [FloatOps F] (main_arg4 : FVec F S16384x2048x1 .f32) (main_arg5 : FVec F S1024x2048 .f32) (main_arg6 : FVec F S2048 .f32) (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S16384x2048x1 .f32 := Host.absf main_arg4
  let main_cst_6 : FVec F S_ .f32 := constant S_ .f32 0x7F800000#32
  let main_v20 : FVec F S16384x2048x1 .f32 := broadcastInDim S16384x2048x1 ![] bcast_S_S16384x2048x1 main_cst_6
  let main_v21 : IVec S16384x2048x1 1 := cmpf .olt main_v19 main_v20
  let main_c_7 : IVec S_ 1 := constantI S_ 1 1#1
  let main_v22 : IVec S_ 1 := (fun x v => Host.reduce IntOp.andi x v reducesTo_S16384x2048x1_S_d0_1_2 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x1024 .f32) (main_arg1 : FVec F S16384x2048 .f32) (main_arg2 : FVec F S16384x2048 .f32) (main_arg3 : FVec F S16384x2048 .f32) (main_arg4 : FVec F S16384x2048x1 .f32) (main_arg5 : FVec F S1024x2048 .f32) (main_arg6 : FVec F S2048 .f32) (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S1x2048 : Shape := ⟨2, ![1, 2048]⟩
abbrev S1x1 : Shape := ⟨2, ![1, 1]⟩
abbrev S512x1024 : Shape := ⟨2, ![512, 1024]⟩
abbrev S512x2048 : Shape := ⟨2, ![512, 2048]⟩
abbrev S512x256 : Shape := ⟨2, ![512, 256]⟩
abbrev S2048x256 : Shape := ⟨2, ![2048, 256]⟩
abbrev S1x256 : Shape := ⟨2, ![1, 256]⟩

abbrev nBuf : Space → Nat
  | .hbm => 37
  | .vmem => 49
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048x1, .f32⟩
  | .hbm, ⟨5, _⟩ => ⟨S1024x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S2048, .f32⟩
  | .hbm, ⟨13, _⟩ => ⟨S4096x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S1, .f32⟩
  | .hbm, ⟨18, _⟩ => ⟨S1024x2048, .bf16⟩
  | .hbm, ⟨19, _⟩ => ⟨S2048x2048, .bf16⟩
  | .hbm, ⟨20, _⟩ => ⟨S4096x2048, .bf16⟩
  | .hbm, ⟨21, _⟩ => ⟨S4096x2048, .bf16⟩
  | .hbm, ⟨22, _⟩ => ⟨S4096x2048, .bf16⟩
  | .hbm, ⟨23, _⟩ => ⟨S4096x2048, .bf16⟩
  | .hbm, ⟨24, _⟩ => ⟨S16384x2048, .bf16⟩
  | .hbm, ⟨25, _⟩ => ⟨S16384x2048, .bf16⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x1, .f32⟩
  | .hbm, ⟨33, _⟩ => ⟨S16384x2048, .f32⟩
  | .hbm, ⟨34, _⟩ => ⟨S16384x2048, .bf16⟩
  | .hbm, ⟨35, _⟩ => ⟨S16384x2048, .f32⟩
  | .hbm, ⟨36, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S1x1, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x256, .f32⟩
  | .local _ .vmem, ⟨12, _⟩ => ⟨S512x256, .f32⟩
  | .local _ .vmem, ⟨13, _⟩ => ⟨S512x2048, .bf16⟩
  | .local _ .vmem, ⟨14, _⟩ => ⟨S512x2048, .bf16⟩
  | .local _ .vmem, ⟨15, _⟩ => ⟨S512x256, .f32⟩
  | .local _ .vmem, ⟨16, _⟩ => ⟨S512x256, .f32⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S512x256, .f32⟩
  | .local _ .vmem, ⟨46, _⟩ => ⟨S512x256, .f32⟩
  | .local _ .vmem, ⟨47, _⟩ => ⟨S512x256, .f32⟩
  | .local _ .vmem, ⟨48, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc1_stg17_0 : Ref sig .tc := ⟨.vmem, 39, rfl⟩
abbrev cc1_stg17_1 : Ref sig .tc := ⟨.vmem, 40, rfl⟩
abbrev cc1_stg18_0 : Ref sig .tc := ⟨.vmem, 41, rfl⟩
abbrev cc1_stg18_1 : Ref sig .tc := ⟨.vmem, 42, rfl⟩
abbrev cc1_stg19_0 : Ref sig .tc := ⟨.vmem, 43, rfl⟩
abbrev cc1_stg19_1 : Ref sig .tc := ⟨.vmem, 44, rfl⟩
abbrev cc1_stg20_0 : Ref sig .tc := ⟨.vmem, 45, rfl⟩
abbrev cc1_stg20_1 : Ref sig .tc := ⟨.vmem, 46, rfl⟩
abbrev cc1_stg21_0 : Ref sig .tc := ⟨.vmem, 47, rfl⟩
abbrev cc1_stg21_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38
abbrev cc1_sem17_0 : DmaSem sig := 39
abbrev cc1_sem17_1 : DmaSem sig := 40
abbrev cc1_sem18_0 : DmaSem sig := 41
abbrev cc1_sem18_1 : DmaSem sig := 42
abbrev cc1_sem19_0 : DmaSem sig := 43
abbrev cc1_sem19_1 : DmaSem sig := 44
abbrev cc1_sem20_0 : DmaSem sig := 45
abbrev cc1_sem20_1 : DmaSem sig := 46
abbrev cc1_sem21_0 : DmaSem sig := 47
abbrev cc1_sem21_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_13 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_21 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S2048x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S2048x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![false, true]

abbrev stage1_12 : Fin 2 → Memref sig .tc .vmem S2048x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![false, true]

abbrev stage1_13 : Fin 2 → Memref sig .tc .vmem S2048x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![false, true]

abbrev stage1_14 : Fin 2 → Memref sig .tc .vmem S2048x256 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![false, true]

abbrev stage1_15 : Fin 2 → Memref sig .tc .vmem S1x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![false, true]

abbrev stage1_16 : Fin 2 → Memref sig .tc .vmem S1x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![false, true]

abbrev stage1_17 : Fin 2 → Memref sig .tc .vmem S1x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![false, true]

abbrev stage1_18 : Fin 2 → Memref sig .tc .vmem S1x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![false, true]

abbrev stage1_19 : Fin 2 → Memref sig .tc .vmem S1x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![false, true]

abbrev stage1_20 : Fin 2 → Memref sig .tc .vmem S512x256 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]

abbrev stage1_21 : Fin 2 → Memref sig .tc .vmem S512x256 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, true]

class Facts₀ : Prop where
  bitsLt_bf16_f32 : FTy.bits .bf16 < FTy.bits .f32
  shapeCasts_S2048_S1x2048 : S2048.ShapeCasts S1x2048
  shapeCasts_S1_S1x1 : S1.ShapeCasts S1x1
  shapeCasts_S16384x2048x1_S16384x2048 : S16384x2048x1.ShapeCasts S16384x2048
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x256 : S1x1.Broadcasts S512x256
  dot_S512x1024_S1024x2048_S512x2048_1_0_0_1_n_n_wf : DotDims.WF S512x1024 S1024x2048 S512x2048 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .bf16 = 32 ∨ (Rect.block (s := S16384x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .bf16 = 32 ∨ (Rect.block (s := S16384x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S16384x2048.size a
  hwx1_2 : ∀ i : grid1.Coords, EltTy.bits .bf16 = 32 ∨ (Rect.block (s := S16384x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S16384x2048.size a
  hwx1_3 : ∀ i : grid1.Coords, EltTy.bits .f32 = 32 ∨ (Rect.block (s := S16384x2048) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S16384x2048.size a
  hwx1_4 : ∀ i : grid1.Coords, EltTy.bits .bf16 = 32 ∨ (Rect.block (s := S16384x2048) S512x2048.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S16384x2048.size a
  hwx1_5 : ∀ i : grid1.Coords, EltTy.bits .f32 = 32 ∨ (Rect.block (s := S16384x2048) S512x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S4096x2048.size a
  hwx1_6 : ∀ i : grid1.Coords, EltTy.bits .bf16 = 32 ∨ (Rect.block (s := S4096x2048) S2048x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S4096x2048.size a
  hwx1_7 : ∀ i : grid1.Coords, EltTy.bits .bf16 = 32 ∨ (Rect.block (s := S4096x2048) S2048x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x256.size a ≤ S4096x2048.size a
  hwx1_8 : ∀ i : grid1.Coords, EltTy.bits .bf16 = 32 ∨ (Rect.block (s := S4096x2048) S2048x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x256.size a ≤ S4096x2048.size a
  hwx1_9 : ∀ i : grid1.Coords, EltTy.bits .bf16 = 32 ∨ (Rect.block (s := S4096x2048) S2048x256.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x256.size a ≤ S4096x2048.size a
  hwx1_10 : ∀ i : grid1.Coords, EltTy.bits .bf16 = 32 ∨ (Rect.block (s := S4096x2048) S2048x256.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x256.size a ≤ S4096x2048.size a
  hwx1_11 : ∀ i : grid1.Coords, EltTy.bits .bf16 = 32 ∨ (Rect.block (s := S4096x2048) S2048x256.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2048x256.size a ≤ S4096x2048.size a
  hwx1_12 : ∀ i : grid1.Coords, EltTy.bits .bf16 = 32 ∨ (Rect.block (s := S4096x2048) S2048x256.size (cc1_transform_12 i) (hinb1_12 i)).WholeWords (EltTy.packing .bf16)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2048x256.size a ≤ S4096x2048.size a
  hwx1_13 : ∀ i : grid1.Coords, EltTy.bits .bf16 = 32 ∨ (Rect.block (s := S4096x2048) S2048x256.size (cc1_transform_13 i) (hinb1_13 i)).WholeWords (EltTy.packing .bf16)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2048x256.size a ≤ S2048x2048.size a
  hwx1_14 : ∀ i : grid1.Coords, EltTy.bits .bf16 = 32 ∨ (Rect.block (s := S2048x2048) S2048x256.size (cc1_transform_14 i) (hinb1_14 i)).WholeWords (EltTy.packing .bf16)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x2048.size a
  hwx1_15 : ∀ i : grid1.Coords, EltTy.bits .f32 = 32 ∨ (Rect.block (s := S1x2048) S1x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x256.size a ≤ S1x2048.size a
  hwx1_16 : ∀ i : grid1.Coords, EltTy.bits .f32 = 32 ∨ (Rect.block (s := S1x2048) S1x256.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1x256.size a ≤ S1x2048.size a
  hwx1_17 : ∀ i : grid1.Coords, EltTy.bits .f32 = 32 ∨ (Rect.block (s := S1x2048) S1x256.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S1x256.size a ≤ S1x2048.size a
  hwx1_18 : ∀ i : grid1.Coords, EltTy.bits .f32 = 32 ∨ (Rect.block (s := S1x2048) S1x256.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S1x256.size a ≤ S1x2048.size a
  hwx1_19 : ∀ i : grid1.Coords, EltTy.bits .f32 = 32 ∨ (Rect.block (s := S1x2048) S1x256.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S512x256.size a ≤ S16384x2048.size a
  hwx1_20 : ∀ i : grid1.Coords, EltTy.bits .f32 = 32 ∨ (Rect.block (s := S16384x2048) S512x256.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S512x256.size a ≤ S16384x2048.size a
  hwx1_21 : ∀ i : grid1.Coords, EltTy.bits .f32 = 32 ∨ (Rect.block (s := S16384x2048) S512x256.size (cc1_transform_21 i) (hinb1_21 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S512x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S2048x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2) S2048x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3) S2048x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v3) S2048x256.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v4) S2048x256.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v4) S2048x256.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5) S2048x256.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v5) S2048x256.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v1) S2048x256.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v10) S1x256.size cc1_transform_15 reads1_15 false false 2 stage1_15 sem1_15
    hrank1 hreads1_15 hinb1_15 nbuf1_15 (Memref.isWhole_whole _) hwx1_15 hstage1_15

abbrev win1_16 : Pipeline.Window sig grid1 :=
  Pipeline.Window.ofSpec (Memref.whole main_v11) S1x256.size cc1_transform_16 reads1_16 false false 2 stage1_16 sem1_16
    hrank1 hreads1_16 hinb1_16 nbuf1_16 (Memref.isWhole_whole _) hwx1_16 hstage1_16

abbrev win1_17 : Pipeline.Window sig grid1 :=
  Pipeline.Window.ofSpec (Memref.whole main_v12) S1x256.size cc1_transform_17 reads1_17 false false 2 stage1_17 sem1_17
    hrank1 hreads1_17 hinb1_17 nbuf1_17 (Memref.isWhole_whole _) hwx1_17 hstage1_17

abbrev win1_18 : Pipeline.Window sig grid1 :=
  Pipeline.Window.ofSpec (Memref.whole main_v13) S1x256.size cc1_transform_18 reads1_18 false false 2 stage1_18 sem1_18
    hrank1 hreads1_18 hinb1_18 nbuf1_18 (Memref.isWhole_whole _) hwx1_18 hstage1_18

abbrev win1_19 : Pipeline.Window sig grid1 :=
  Pipeline.Window.ofSpec (Memref.whole main_v9) S1x256.size cc1_transform_19 reads1_19 false false 2 stage1_19 sem1_19
    hrank1 hreads1_19 hinb1_19 nbuf1_19 (Memref.isWhole_whole _) hwx1_19 hstage1_19

abbrev win1_20 : Pipeline.Window sig grid1 :=
  Pipeline.Window.ofSpec (Memref.whole main_v17_0) S512x256.size cc1_transform_20 reads1_20 true false 2 stage1_20 sem1_20
    hrank1 hreads1_20 hinb1_20 nbuf1_20 (Memref.isWhole_whole _) hwx1_20 hstage1_20

abbrev win1_21 : Pipeline.Window sig grid1 :=
  Pipeline.Window.ofSpec (Memref.whole main_v17_1) S512x256.size cc1_transform_21 reads1_21 true false 2 stage1_21 sem1_21
    hrank1 hreads1_21 hinb1_21 nbuf1_21 (Memref.isWhole_whole _) hwx1_21 hstage1_21

abbrev win1 : Fin 22 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | ⟨_ + 22, h⟩ => absurd h (Nat.not_lt.2 (Nat.le_add_left _ _))
abbrev spec1 : Fin 22 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S1x2048 : Shape := ⟨2, ![1, 2048]⟩
abbrev S16384x4096 : Shape := ⟨2, ![16384, 4096]⟩
abbrev S4096x8192 : Shape := ⟨2, ![4096, 8192]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048x1, .f32⟩
  | .hbm, ⟨5, _⟩ => ⟨S1024x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S2048, .f32⟩
  | .hbm, ⟨13, _⟩ => ⟨S4096x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S1, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x4096, .f32⟩
  | .hbm, ⟨23, _⟩ => ⟨S4096x8192, .f32⟩
  | .hbm, ⟨24, _⟩ => ⟨S8192, .f32⟩
  | .hbm, ⟨25, _⟩ => ⟨S16384x8192, .f32⟩
  | .hbm, ⟨26, _⟩ => ⟨S1x8192, .f32⟩
  | .hbm, ⟨27, _⟩ => ⟨S16384x8192, .f32⟩
  | .hbm, ⟨28, _⟩ => ⟨S16384x8192, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S1x1, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  concatenates_S16384x2048_S16384x2048_S16384x4096_d1 : Shape.Concatenates [S16384x2048, S16384x2048] S16384x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  slices_S16384x8192_S16384x2048_0_0 : S16384x8192.Slices ![0, 0] S16384x2048
  slices_S16384x8192_S16384x2048_0_2048 : S16384x8192.Slices ![0, 2048] S16384x2048
  slices_S16384x8192_S16384x2048_0_4096 : S16384x8192.Slices ![0, 4096] S16384x2048
  slices_S16384x8192_S16384x2048_0_6144 : S16384x8192.Slices ![0, 6144] S16384x2048
  bcast_S_S16384x2048 : S_.BroadcastsInDim S16384x2048 (![] : Fin 0 → Fin S16384x2048.rank)
  shapeCasts_S16384x2048x1_S16384x2048 : S16384x2048x1.ShapeCasts S16384x2048
  bcast_S1_S1x1_1 : S1.BroadcastsInDim S1x1 (![1] : Fin 1 → Fin S1x1.rank)
  bcast_S1x1_S16384x2048_0_1 : S1x1.BroadcastsInDim S16384x2048 (![0, 1] : Fin 2 → Fin S16384x2048.rank)
  dot_S16384x1024_S1024x2048_S16384x2048_1_0_0_1_n_n_wf : DotDims.WF S16384x1024 S1024x2048 S16384x2048 [1] [0] [0] [1] [] []
  dot_S16384x4096_S4096x8192_S16384x8192_1_0_0_1_n_n_wf : DotDims.WF S16384x4096 S4096x8192 S16384x8192 [1] [0] [0] [1] [] []
  dot_S16384x2048_S2048x2048_S16384x2048_1_0_0_1_n_n_wf : DotDims.WF S16384x2048 S2048x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x4096_S4096x8192_S16384x8192_1_0_0_1_n_n : DotDims S16384x4096 S4096x8192 S16384x8192 where
  lhsContracting := [1]
  rhsContracting := [0]
  lhsNonContracting := [0]
  rhsNonContracting := [1]
  lhsBatch := []
  rhsBatch := []
  wf := dot_S16384x4096_S4096x8192_S16384x8192_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.KernelRegion0.lean ====
/-
  The first kernel region (the input projection), read at a parameter `V`: the contents of the core's buffers when the
  region is entered.  At grid point t (one of 32 row tiles) the body is handed the t-th block of 512 rows of the
  input, the whole projection matrix and the bias row, and leaves in the output window's buffer one function of
  those three blocks (`out0_3`: the body's single store laid over the buffer, which it covers).  The proof data
  say exactly that; the body's triple is by symbolic execution of the body over the named payload.
-/
import proofs.«149773_j65532611002879_2_alg».proof.Proof.Gen.Kernel.Launch
import proofs.«149773_j65532611002879_2_alg».proof.Proof.Gen.Kernel.Skeleton
import proofs.«149773_j65532611002879_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether the pipeline fetched it there or
    not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether the pipeline fetched it there or
    not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- What the body leaves in the output window's buffer, from the three input blocks: its one store, as a piece. -/
def out0_3 (x0 : Vec F S512x1024 .f32) (x1 : Vec F S1024x2048 .bf16) (x2 : Vec F S1x2048 .f32) : Vec F S512x2048 .bf16 :=
  View.canon [⟨rO, k0_pay1 (View.ld x0 rX) (View.ld x1 rW) (View.ld x2 rB)⟩]

/-- The store's rectangle is the whole buffer, so it covers it. -/
theorem cover0_3 (p0 : Vec F S512x2048 .bf16) (y : S512x2048.Idx) :
    ∃ pc ∈ ([⟨rO, p0⟩] : List (View.Piece (Elt F) S512x2048 .bf16)), y ∈ pc.1.set :=
  View.cover_of_tiled [⟨rO, p0⟩] S512x2048.size (by rfl) y

set_option maxHeartbeats 1000000 in
/-- The body on whole staging buffers, the inputs' at read contents `x0 x1 x2` and the output's at anything, runs to its
    continuation with the inputs as they were and the output at `out0_3` of them. -/
theorem sound_kernel0 (c : Dev nD) (E : Set ℕ) (i : grid0.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of the first pipeline on core `c`: the arrays as the region finds them; after the body at point `t`
    each input's buffer at its block and the output's at `out0_3` of the input blocks; the invariant is the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelRegion1.lean ====
/-
  The second kernel region (the four gates, the attention-like term and the cell update), read at a parameter `V`: the
  contents of the core's buffers when the region is entered.  At grid point t = (row tile, column tile) the body is
  handed twenty input blocks — the scale, the row tiles of the projection, the hidden state and the error signal, the
  (row, column) tiles of the old cell state and of the uncertainty, for each gate the column tile of the upper and of
  the lower half of its weight matrix, the column tile of the fifth weight matrix, and five bias tiles — and leaves in
  its two output windows' buffers two functions of those blocks (`out1_20`, the new hidden tile; `out1_21`, the new
  cell tile): each is the body's single store into that buffer, which covers it.  Two windows of a gate read one array
  (its upper and its lower rows); the proof data hold that array at one half share for each, which is all a fetch needs.
-/
import proofs.«149773_j65532611002879_2_alg».proof.Proof.Gen.Kernel.Launch
import proofs.«149773_j65532611002879_2_alg».proof.Proof.Gen.Kernel.Skeleton
import proofs.«149773_j65532611002879_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through, one per block shape. -/
abbrev r1T : Rect S1x1 := Rect.unit (s := S1x1) ![0, 0] S1x1.size inb_S1x1_S1x1_0_0
abbrev r1A : Rect S512x2048 := Rect.unit (s := S512x2048) ![0, 0] S512x2048.size inb_S512x2048_S512x2048_0_0
abbrev r1C : Rect S512x256 := Rect.unit (s := S512x256) ![0, 0] S512x256.size inb_S512x256_S512x256_0_0
abbrev r1W : Rect S2048x256 := Rect.unit (s := S2048x256) ![0, 0] S2048x256.size inb_S2048x256_S2048x256_0_0
abbrev r1B : Rect S1x256 := Rect.unit (s := S1x256) ![0, 0] S1x256.size inb_S1x256_S1x256_0_0

/-- The new hidden tile as the body computes it from the twenty input blocks (the payload of its store into window 20). -/
def hidPay (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : FVec F S512x256 .f32 :=
  k1_pay2 (k1_pay6 (View.ld x1 r1A) (View.ld x2 r1A) (View.ld x6 r1W) (View.ld x7 r1W) (View.ld x15 r1B)) (k1_pay9 (k1_pay4 (View.ld x2 r1A)) (k1_pay8 (View.ld x1 r1A) (View.ld x10 r1W)) (View.ld x11 r1W) (View.ld x17 r1B)) (k1_pay10 (k1_pay3 (View.ld x1 r1A)) (k1_pay4 (View.ld x2 r1A)) (View.ld x12 r1W) (View.ld x13 r1W) (View.ld x18 r1B)) (k1_pay11 (k1_pay5 (View.ld x4 r1A)) (View.ld x14 r1W) (View.ld x19 r1B)) (k1_pay13 (k1_pay7 (View.ld x1 r1A) (View.ld x2 r1A) (View.ld x8 r1W) (View.ld x9 r1W) (View.ld x16 r1B)) (View.ld x5 r1C)) (k1_pay14 (View.ld x5 r1C)) (k1_pay15 (F := F)) (View.ld x3 r1C) (View.ld x0 r1T)

/-- The new cell tile as the body computes it from the input blocks (the payload of its store into window 21). -/
def cellPay (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : FVec F S512x256 .f32 :=
  k1_pay1 (k1_pay6 (View.ld x1 r1A) (View.ld x2 r1A) (View.ld x6 r1W) (View.ld x7 r1W) (View.ld x15 r1B)) (k1_pay9 (k1_pay4 (View.ld x2 r1A)) (k1_pay8 (View.ld x1 r1A) (View.ld x10 r1W)) (View.ld x11 r1W) (View.ld x17 r1B)) (k1_pay11 (k1_pay5 (View.ld x4 r1A)) (View.ld x14 r1W) (View.ld x19 r1B)) (k1_pay13 (k1_pay7 (View.ld x1 r1A) (View.ld x2 r1A) (View.ld x8 r1W) (View.ld x9 r1W) (View.ld x16 r1B)) (View.ld x5 r1C)) (k1_pay14 (View.ld x5 r1C)) (k1_pay15 (F := F)) (View.ld x3 r1C) (View.ld x0 r1T)

/-- What the body leaves in the two output windows' buffers: its one store into each, as a piece. -/
def out1_20 (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : Vec F S512x256 .f32 :=
  View.canon [⟨r1C, hidPay x0 x1 x2 x3 x4 x5 x6 x7 x8 x9 x10 x11 x12 x13 x14 x15 x16 x17 x18 x19⟩]
def out1_21 (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : Vec F S512x256 .f32 :=
  View.canon [⟨r1C, cellPay x0 x1 x2 x3 x4 x5 x6 x7 x8 x9 x10 x11 x12 x13 x14 x15 x16 x17 x18 x19⟩]

/-- The store's rectangle is the whole buffer, so it covers it. -/
theorem cover1 (p0 : Vec F S512x256 .f32) (y : S512x256.Idx) :
    ∃ pc ∈ ([⟨r1C, p0⟩] : List (View.Piece (Elt F) S512x256 .f32)), y ∈ pc.1.set :=
  View.cover_of_tiled [⟨r1C, p0⟩] S512x256.size (by rfl) y

set_option maxHeartbeats 4000000 in
/-- The body on whole staging buffers, the inputs' at read contents `x0 … x19` and the outputs' at anything, runs to its
    continuation with the inputs as they were and the outputs at `out1_20`, `out1_21` of them. -/
theorem sound_kernel1 (c : Dev nD) (E : Set ℕ) (i : grid1.Coords)
    (arg2 : Memref sig .tc .vmem S1x1 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x256 .f32) (harg5 : arg5.IsWhole) (arg6 : Memref sig .tc .vmem S512x2048 .bf16) (harg6 : arg6.IsWhole) (arg7 : Memref sig .tc .vmem S512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x256 .f32) (harg22 : arg22.IsWhole) (arg23 : Memref sig .tc .vmem S512x256 .f32) (harg23 : arg23.IsWhole)
    (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19
        ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19
            ∗ owns (c : Thread nD τ) arg22 fullShare (out1_20 x0 x1 x2 x3 x4 x5 x6 x7 x8 x9 x10 x11 x12 x13 x14 x15 x16 x17 x18 x19) ∗ owns (c : Thread nD τ) arg23 fullShare (out1_21 x0 x1 x2 x3 x4 x5 x6 x7 x8 x9 x10 x11 x12 x13 x14 x15 x16 x17 x18 x19)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__fused_kernel_eq_skeleton]; unfold cc1__fused_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    try dsimp only
    exact View.read_writes_eq_canon _ _ _ (cover1 _)
  iexists _; isplitr
  swap; · iexact H21
  ipureintro
  try dsimp only
  exact View.read_writes_eq_canon _ _ _ (cover1 _)

/-- The share of its array each input window holds: the two windows of one gate's weight matrix a half each. -/
def q1 : Fin cfg1.W → PosShare TreeShare
  | ⟨0, _⟩ => fullShare
  | ⟨1, _⟩ => fullShare
  | ⟨2, _⟩ => fullShare
  | ⟨3, _⟩ => fullShare
  | ⟨4, _⟩ => fullShare
  | ⟨5, _⟩ => fullShare
  | ⟨6, _⟩ => PosShare.left fullShare
  | ⟨7, _⟩ => PosShare.right fullShare
  | ⟨8, _⟩ => PosShare.left fullShare
  | ⟨9, _⟩ => PosShare.right fullShare
  | ⟨10, _⟩ => PosShare.left fullShare
  | ⟨11, _⟩ => PosShare.right fullShare
  | ⟨12, _⟩ => PosShare.left fullShare
  | ⟨13, _⟩ => PosShare.right fullShare
  | ⟨14, _⟩ => fullShare
  | ⟨15, _⟩ => fullShare
  | ⟨16, _⟩ => fullShare
  | ⟨17, _⟩ => fullShare
  | ⟨18, _⟩ => fullShare
  | ⟨19, _⟩ => fullShare
  | ⟨20, _⟩ => fullShare
  | ⟨21, _⟩ => fullShare
  | ⟨_ + 22, h⟩ => absurd h (Nat.not_lt.2 (Nat.le_add_left _ _))

/-- The proof data of the second pipeline on core `c`: the arrays as the region finds them; after the body at point `t`
    each input's buffer at its block and the two outputs' at `out1_20`, `out1_21` of the input blocks; the invariant is
    the untouched scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)
    | ⟨21, _⟩ => out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)
    | ⟨_ + 22, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) := by dsimp only [dat1]
theorem after1_21 (c : Dev nD) (t : Fin cfg1.N) : (dat1 V c).after 21 t = out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel1 c Set.univ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.LibSharedArrays.lean ====
/-
  When several input windows of a pipeline read ONE array, the pipeline's proof data hold that array once per window,
  each at the window's own share (`Dat.share`).  This file restates `Dat.arrays` window by window at those shares for
  whole-buffer arrays — the general form of the library's `arrays_eq`, which asks every share to be the full one — so
  that a certificate can deal an array's full points-to among the windows that read it (`pointsTo_share`) at a
  region's entry and gather it again at its exit.
-/
import Idealize.ShloMosaic.Lib.Pipeline.Launch

noncomputable section

namespace Idealize.ShloMosaic

open Idealize.SL
open Idealize.SL.BI (sProp bigSep bigSep_congr)
open scoped Idealize.SL.BI
open Idealize.SL.BI.BIBase Idealize.SL.BI.Laws Idealize.SL.Sem
open Idealize.SL.RA
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

variable {Λ₀ : SL.Sem.Labels}

/-- The windowed arrays, every one a whole buffer, are held window by window: window `w`'s buffer whole at the share
    `dat.share w` at its contents `F w` — whatever the shares are. -/
theorem Dat.arrays_eq_shares {cfg : Cfg sig Λ₀} {c : Dev nD} (dat : Dat τ Val Ix Name U Lvl cfg c)
    (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

end Pipeline

end Idealize.ShloMosaic

end
-- ==== Proof.KernelShared.lean ====
/-
  The second region hands each gate's weight matrix to two windows (its upper and its lower rows).  Here the full
  points-to of each such matrix is dealt between its two windows, a half share each, at the region's entry, and the
  two halves are gathered again at its exit; every other array goes to its one window whole.
-/
import proofs.«149773_j65532611002879_2_alg».proof.Proof.Gen.Kernel.Launch
import proofs.«149773_j65532611002879_2_alg».proof.Proof.Gen.Kernel.Skeleton
import proofs.«149773_j65532611002879_2_alg».proof.Proof.Gen.Kernel.Points
import proofs.«149773_j65532611002879_2_alg».proof.Proof.KernelRegion1
import proofs.«149773_j65532611002879_2_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shared

/-- The eighteen distinct buffers behind the second region's twenty-two windows. -/
abbrev refs1 : List (Ref sig .tc) := [main_v14, main_v16, main_v6, main_arg2, main_v7, main_v15, main_v2, main_v3, main_v4, main_v5, main_v1, main_v10, main_v11, main_v12, main_v13, main_v9, main_v17_0, main_v17_1]
theorem refs1_eq : Finset.univ.image (Pipeline.arrRef spec1) = refs1.toFinset := by decide
theorem refs1_nodup : refs1.Nodup := by decide

theorem q1_0 : q1 (0 : Fin cfg1.W) = fullShare := rfl
theorem q1_1 : q1 (1 : Fin cfg1.W) = fullShare := rfl
theorem q1_2 : q1 (2 : Fin cfg1.W) = fullShare := rfl
theorem q1_3 : q1 (3 : Fin cfg1.W) = fullShare := rfl
theorem q1_4 : q1 (4 : Fin cfg1.W) = fullShare := rfl
theorem q1_5 : q1 (5 : Fin cfg1.W) = fullShare := rfl
theorem q1_6 : q1 (6 : Fin cfg1.W) = PosShare.left fullShare := rfl
theorem q1_7 : q1 (7 : Fin cfg1.W) = PosShare.right fullShare := rfl
theorem q1_8 : q1 (8 : Fin cfg1.W) = PosShare.left fullShare := rfl
theorem q1_9 : q1 (9 : Fin cfg1.W) = PosShare.right fullShare := rfl
theorem q1_10 : q1 (10 : Fin cfg1.W) = PosShare.left fullShare := rfl
theorem q1_11 : q1 (11 : Fin cfg1.W) = PosShare.right fullShare := rfl
theorem q1_12 : q1 (12 : Fin cfg1.W) = PosShare.left fullShare := rfl
theorem q1_13 : q1 (13 : Fin cfg1.W) = PosShare.right fullShare := rfl
theorem q1_14 : q1 (14 : Fin cfg1.W) = fullShare := rfl
theorem q1_15 : q1 (15 : Fin cfg1.W) = fullShare := rfl
theorem q1_16 : q1 (16 : Fin cfg1.W) = fullShare := rfl
theorem q1_17 : q1 (17 : Fin cfg1.W) = fullShare := rfl
theorem q1_18 : q1 (18 : Fin cfg1.W) = fullShare := rfl
theorem q1_19 : q1 (19 : Fin cfg1.W) = fullShare := rfl
theorem q1_20 : q1 (20 : Fin cfg1.W) = fullShare := rfl
theorem q1_21 : q1 (21 : Fin cfg1.W) = fullShare := rfl

variable {c : Dev nD} (dat : Dat τ (Elt F) Unit ℕ (UR sig nD τ) ℕ cfg1 c) (hs : ∀ w, dat.share w = q1 w)
  (V' : (b : Ref sig .tc) → Buf (Elt F) ((c : Thread nD τ).loc b))
  (Fw : (w : Fin cfg1.W) → Buf (Elt F) ((cfg1.win w).arr.view.loc (c.tc : Thread nD τ)))
  (hF : ∀ w, Fw w = V' (Pipeline.arrRef spec1 w))

/-- The distinct buffers behind the windows, one by one. -/
theorem arrBufs1_eq : (Pipeline.arrBufs spec1 c V' : sProp 𝕄)
    = iprop((((c : Thread nD τ).loc main_v14) ↦{fullShare} V' main_v14) ∗ (((c : Thread nD τ).loc main_v16) ↦{fullShare} V' main_v16) ∗ (((c : Thread nD τ).loc main_v6) ↦{fullShare} V' main_v6) ∗ (((c : Thread nD τ).loc main_arg2) ↦{fullShare} V' main_arg2) ∗ (((c : Thread nD τ).loc main_v7) ↦{fullShare} V' main_v7) ∗ (((c : Thread nD τ).loc main_v15) ↦{fullShare} V' main_v15) ∗ (((c : Thread nD τ).loc main_v2) ↦{fullShare} V' main_v2) ∗ (((c : Thread nD τ).loc main_v3) ↦{fullShare} V' main_v3) ∗ (((c : Thread nD τ).loc main_v4) ↦{fullShare} V' main_v4) ∗ (((c : Thread nD τ).loc main_v5) ↦{fullShare} V' main_v5) ∗ (((c : Thread nD τ).loc main_v1) ↦{fullShare} V' main_v1) ∗ (((c : Thread nD τ).loc main_v10) ↦{fullShare} V' main_v10) ∗ (((c : Thread nD τ).loc main_v11) ↦{fullShare} V' main_v11) ∗ (((c : Thread nD τ).loc main_v12) ↦{fullShare} V' main_v12) ∗ (((c : Thread nD τ).loc main_v13) ↦{fullShare} V' main_v13) ∗ (((c : Thread nD τ).loc main_v9) ↦{fullShare} V' main_v9) ∗ (((c : Thread nD τ).loc main_v17_0) ↦{fullShare} V' main_v17_0) ∗ (((c : Thread nD τ).loc main_v17_1) ↦{fullShare} V' main_v17_1)) := by
  unfold Pipeline.arrBufs
  exact bigSep_eq_bigSepL_of_eq refs1 refs1_eq refs1_nodup _

include hs hF in
/-- The windows' arrays at contents read off `V'`, window by window at the shares `q1`. -/
theorem arrays1_chain :
    dat.arrays Fw = bigSep Finset.univ fun w : Fin cfg1.W =>
      (((c.tc : Thread nD τ).loc (Pipeline.arrRef spec1 w)) ↦{q1 w} V' (Pipeline.arrRef spec1 w) : sProp 𝕄) := by
  rw [Pipeline.Dat.arrays_eq_shares dat arr_whole1]
  exact bigSep_congr fun w _ => by rw [hs w, hF w]

set_option maxHeartbeats 4000000 in
include hs hF in
/-- ENTRY: the distinct buffers, each whole at the full share, are the windows' arrays: a matrix read through two
    windows is split into its two halves. -/
theorem arrays1_of_bufs : (Pipeline.arrBufs spec1 c V' : sProp 𝕄) ⊢ dat.arrays Fw := by
  rw [arrays1_chain dat hs V' Fw hF, bigSep_W1]
  simp only [q1_0, q1_1, q1_2, q1_3, q1_4, q1_5, q1_6, q1_7, q1_8, q1_9, q1_10, q1_11, q1_12, q1_13, q1_14, q1_15, q1_16, q1_17, q1_18, q1_19, q1_20, q1_21]
  rw [arrBufs1_eq V']
  iintro ⟨H_main_v14, H_main_v16, H_main_v6, H_main_arg2, H_main_v7, H_main_v15, H_main_v2, H_main_v3, H_main_v4, H_main_v5, H_main_v1, H_main_v10, H_main_v11, H_main_v12, H_main_v13, H_main_v9, H_main_v17_0, H_main_v17_1⟩
  ihave H_main_v2' := (pointsTo_share (PosShare.mem_left_op_right fullShare)).1 $$ H_main_v2
  icases H_main_v2' with ⟨H_main_v2a, H_main_v2b⟩
  ihave H_main_v3' := (pointsTo_share (PosShare.mem_left_op_right fullShare)).1 $$ H_main_v3
  icases H_main_v3' with ⟨H_main_v3a, H_main_v3b⟩
  ihave H_main_v4' := (pointsTo_share (PosShare.mem_left_op_right fullShare)).1 $$ H_main_v4
  icases H_main_v4' with ⟨H_main_v4a, H_main_v4b⟩
  ihave H_main_v5' := (pointsTo_share (PosShare.mem_left_op_right fullShare)).1 $$ H_main_v5
  icases H_main_v5' with ⟨H_main_v5a, H_main_v5b⟩
  isplitl [H_main_v14]; · iexact H_main_v14
  isplitl [H_main_v16]; · iexact H_main_v16
  isplitl [H_main_v6]; · iexact H_main_v6
  isplitl [H_main_arg2]; · iexact H_main_arg2
  isplitl [H_main_v7]; · iexact H_main_v7
  isplitl [H_main_v15]; · iexact H_main_v15
  isplitl [H_main_v2a]; · iexact H_main_v2a
  isplitl [H_main_v2b]; · iexact H_main_v2b
  isplitl [H_main_v3a]; · iexact H_main_v3a
  isplitl [H_main_v3b]; · iexact H_main_v3b
  isplitl [H_main_v4a]; · iexact H_main_v4a
  isplitl [H_main_v4b]; · iexact H_main_v4b
  isplitl [H_main_v5a]; · iexact H_main_v5a
  isplitl [H_main_v5b]; · iexact H_main_v5b
  isplitl [H_main_v1]; · iexact H_main_v1
  isplitl [H_main_v10]; · iexact H_main_v10
  isplitl [H_main_v11]; · iexact H_main_v11
  isplitl [H_main_v12]; · iexact H_main_v12
  isplitl [H_main_v13]; · iexact H_main_v13
  isplitl [H_main_v9]; · iexact H_main_v9
  isplitl [H_main_v17_0]; · iexact H_main_v17_0
  iexact H_main_v17_1

set_option maxHeartbeats 4000000 in
include hs hF in
/-- EXIT: the windows' arrays are the distinct buffers, each whole at the full share: the two halves of a matrix read
    through two windows are joined. -/
theorem bufs_of_arrays1 : dat.arrays Fw ⊢ (Pipeline.arrBufs spec1 c V' : sProp 𝕄) := by
  rw [arrays1_chain dat hs V' Fw hF, bigSep_W1]
  simp only [q1_0, q1_1, q1_2, q1_3, q1_4, q1_5, q1_6, q1_7, q1_8, q1_9, q1_10, q1_11, q1_12, q1_13, q1_14, q1_15, q1_16, q1_17, q1_18, q1_19, q1_20, q1_21]
  rw [arrBufs1_eq V']
  iintro ⟨G0, G1, G2, G3, G4, G5, G6, G7, G8, G9, G10, G11, G12, G13, G14, G15, G16, G17, G18, G19, G20, G21⟩
  ihave H_main_v2 := (pointsTo_share (PosShare.mem_left_op_right fullShare)).2 $$ [G6 G7]
  · isplitl [G6] <;> iassumption
  ihave H_main_v3 := (pointsTo_share (PosShare.mem_left_op_right fullShare)).2 $$ [G8 G9]
  · isplitl [G8] <;> iassumption
  ihave H_main_v4 := (pointsTo_share (PosShare.mem_left_op_right fullShare)).2 $$ [G10 G11]
  · isplitl [G10] <;> iassumption
  ihave H_main_v5 := (pointsTo_share (PosShare.mem_left_op_right fullShare)).2 $$ [G12 G13]
  · isplitl [G12] <;> iassumption
  isplitl [G0]; · iexact G0
  isplitl [G1]; · iexact G1
  isplitl [G2]; · iexact G2
  isplitl [G3]; · iexact G3
  isplitl [G4]; · iexact G4
  isplitl [G5]; · iexact G5
  isplitl [H_main_v2]; · iexact H_main_v2
  isplitl [H_main_v3]; · iexact H_main_v3
  isplitl [H_main_v4]; · iexact H_main_v4
  isplitl [H_main_v5]; · iexact H_main_v5
  isplitl [G14]; · iexact G14
  isplitl [G15]; · iexact G15
  isplitl [G16]; · iexact G16
  isplitl [G17]; · iexact G17
  isplitl [G18]; · iexact G18
  isplitl [G19]; · iexact G19
  isplitl [G20]; · iexact G20
  iexact G21

end Shared

end Cert.Kernel.Hand

end
-- ==== Proof.KernelRun.lean ====
/-
  The run of the whole program: sixteen host operations (format changes and reshapes of the arguments), the first
  kernel region, the second kernel region.  The contents of the core's buffers are followed from boundary to boundary:
  at launch (`Wa0`), after the host operations (`Wa1`), after the first region (`Wa2`: its output array at what the
  region's write-backs leave, everything else untouched) and after the second (`Wa3`: its two output arrays likewise).
  Every weakly fair execution terminates and ends with every buffer at `Wa3` (`run_all`); the arguments are no
  operation's and no region's output, so they end as launched (`frame`).
-/
import proofs.«149773_j65532611002879_2_alg».proof.Proof.Gen.Kernel.Launch
import proofs.«149773_j65532611002879_2_alg».proof.Proof.Gen.Kernel.Skeleton
import proofs.«149773_j65532611002879_2_alg».proof.Proof.Gen.Kernel.Points
import proofs.«149773_j65532611002879_2_alg».proof.Proof.KernelRegion0
import proofs.«149773_j65532611002879_2_alg».proof.Proof.KernelRegion1
import proofs.«149773_j65532611002879_2_alg».proof.Proof.KernelShared
import proofs.«149773_j65532611002879_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => m (c, b)
/-- After the host operations (the first region's entry). -/
abbrev Wa1 : Dev nD → Valuation τ sig (Elt F) := fun c => StableHlo.after hostOps0 (Wa0 m c)
abbrev Va1 : (c : Dev nD) → (b : Ref sig .tc) → Buf (Elt F) ((c : Thread nD τ).loc b) := fun c b => Wa1 m c b
/-- At the first region's exit: its arrays at what the pipeline leaves, every other buffer as entered. -/
def Wa2 (c : Dev nD) : Valuation τ sig (Elt F) :=
  Pipeline.withArrays spec0 c (Wa1 m c) fun w => (dat0 (Va1 m) c).arrAt w cfg0.N
theorem Wa2_arr (c : Dev nD) (w : Fin cfg0.W) :
    Wa2 m c (Proc.devRef .tc (Pipeline.arrRef spec0 w)) = (dat0 (Va1 m) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m c (Proc.devRef .tc b) = Wa1 m c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m c b
theorem hF0 (c : Dev nD) (w : Fin cfg0.W) : (dat0 (Va1 m) c).arrAt w cfg0.N = Va2 m c (Pipeline.arrRef spec0 w) :=
  (Wa2_arr m c w).symm
theorem hrest0 (c : Dev nD) : ∀ b, b ∉ Finset.univ.image (Pipeline.arrRef spec0) → Va2 m c b = Va1 m c b :=
  fun b hb => Wa2_of_ne m c b fun w e => hb (Finset.mem_image.mpr ⟨w, Finset.mem_univ _, e⟩)

/-- At the second region's exit: its two output arrays at what the pipeline leaves, every other buffer as entered
    (its input arrays are read, never written). -/
def Wa3 (c : Dev nD) : Valuation τ sig (Elt F) :=
  Function.update (Function.update (Wa2 m c) main_v17_0 ((dat1 (Va2 m) c).arrAt 20 cfg1.N)) main_v17_1 ((dat1 (Va2 m) c).arrAt 21 cfg1.N)
abbrev Va3 : (c : Dev nD) → (b : Ref sig .tc) → Buf (Elt F) ((c : Thread nD τ).loc b) := fun c b => Wa3 m c b
theorem Wa3_of (c : Dev nD) (r : Ref sig .tc) (h : r ∉ ([main_v17_0, main_v17_1] : List (Ref sig .tc))) : Wa3 m c r = Wa2 m c r := by
  simp only [Wa3, Function.update_of_ne (StableHlo.devRef_ne_of_ne (List.ne_of_not_mem_cons h) : (Proc.devRef .tc r : DevRef τ sig) ≠ Proc.devRef .tc main_v17_0), Function.update_of_ne (StableHlo.devRef_ne_of_ne (List.ne_of_not_mem_cons (List.not_mem_of_not_mem_cons h)) : (Proc.devRef .tc r : DevRef τ sig) ≠ Proc.devRef .tc main_v17_1)]
theorem Wa3_out1 (c : Dev nD) : Wa3 m c main_v17_1 = (dat1 (Va2 m) c).arrAt 21 cfg1.N := by
  unfold Wa3; exact Function.update_self ..
theorem Wa3_out0 (c : Dev nD) : Wa3 m c main_v17_0 = (dat1 (Va2 m) c).arrAt 20 cfg1.N := by
  unfold Wa3
  rw [Function.update_of_ne (StableHlo.devRef_ne_of_ne (by decide) : (Proc.devRef .tc main_v17_0 : DevRef τ sig) ≠ Proc.devRef .tc main_v17_1)]
  exact Function.update_self ..

/-- An input window's array ends the region as it entered it. -/
theorem hF1_in (c : Dev nD) (w : Fin cfg1.W) (hin : (cfg1.win w).isOut = false)
    (h : Pipeline.arrRef spec1 w ∉ ([main_v17_0, main_v17_1] : List (Ref sig .tc))) :
    (dat1 (Va2 m) c).arrAt w cfg1.N = Va3 m c (Pipeline.arrRef spec1 w) :=
  (((dat1 (Va2 m) c).arrAt_in w hin _).trans (A_eq1 (Va2 m) c w)).trans (Wa3_of m c _ h).symm

set_option maxHeartbeats 4000000 in
theorem hF1 (c : Dev nD) : ∀ w : Fin cfg1.W, (dat1 (Va2 m) c).arrAt w cfg1.N = Va3 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => hF1_in m c 8 rfl (by decide)
  | ⟨9, _⟩ => hF1_in m c 9 rfl (by decide)
  | ⟨10, _⟩ => hF1_in m c 10 rfl (by decide)
  | ⟨11, _⟩ => hF1_in m c 11 rfl (by decide)
  | ⟨12, _⟩ => hF1_in m c 12 rfl (by decide)
  | ⟨13, _⟩ => hF1_in m c 13 rfl (by decide)
  | ⟨14, _⟩ => hF1_in m c 14 rfl (by decide)
  | ⟨15, _⟩ => hF1_in m c 15 rfl (by decide)
  | ⟨16, _⟩ => hF1_in m c 16 rfl (by decide)
  | ⟨17, _⟩ => hF1_in m c 17 rfl (by decide)
  | ⟨18, _⟩ => hF1_in m c 18 rfl (by decide)
  | ⟨19, _⟩ => hF1_in m c 19 rfl (by decide)
  | ⟨20, _⟩ => (Wa3_out0 m c).symm
  | ⟨21, _⟩ => (Wa3_out1 m c).symm
  | ⟨_ + 22, h⟩ => absurd h (Nat.not_lt.2 (Nat.le_add_left _ _))

theorem hrest1 (c : Dev nD) (b : Ref sig .tc) (hb : b ∉ Finset.univ.image (Pipeline.arrRef spec1)) : Va3 m c b = Va2 m c b := by
  refine Wa3_of m c b fun h => hb ?_
  rcases List.mem_cons.mp h with rfl | h
  · exact Finset.mem_image.mpr ⟨20, Finset.mem_univ _, rfl⟩
  · rcases List.mem_cons.mp h with rfl | h
    · exact Finset.mem_image.mpr ⟨21, Finset.mem_univ _, rfl⟩
    · exact absurd h List.not_mem_nil

/-! ### The arguments end as launched -/

/-- A buffer that no region writes back and no host operation writes holds its launch contents at the end. -/
theorem Wa3_kept (c : Dev nD) (r : Ref sig .tc) (h3 : r ∉ ([main_v17_0, main_v17_1] : List (Ref sig .tc)))
    (h0 : ∀ w, Pipeline.arrRef spec0 w ≠ r) (h1 : r ∉ hostOps0_W) : Wa3 m c r = m ((c : Thread nD τ).loc r) :=
  (Wa3_of m c r h3).trans <| (Wa2_of_ne m c r h0).trans <| (V1_of m c r h1).trans rfl

/-- The first region's input array `main_arg0` ends it as it entered it. -/
theorem Wa3_main_arg0 (c : Dev nD) : Wa3 m c main_arg0 = m ((c : Thread nD τ).loc main_arg0) :=
  (Wa3_of m c main_arg0 (by decide)).trans <| (Wa2_arr m c 0).trans <|
    (((dat0 (Va1 m) c).arrAt_in 0 rfl _).trans (A_eq0 (Va1 m) c 0)).trans <| (V1_of m c main_arg0 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va2 m) c
/-- No core owes another anything: no level is assigned. -/
abbrev Lz : GSem nD τ sig → Finset Unit := fun _ => ∅
abbrev lvz : GSem nD τ sig → Unit → ℕ := fun _ _ => 0
/-- What rides beside the buffers through every segment: the generator register at some state and nothing owed. -/
abbrev Rid (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rid

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `Wa3`, the generator register at some state. -/
abbrev Tend (c : Dev nD) : sProp 𝕄 := iprop(StableHlo.held (c : Thread nD τ) (Pipeline.ucRefs τ sig) (Wa3 m c) ∗ ∃ r, prngReg c r)

set_option maxHeartbeats 4000000 in
/-- The second pipeline's proof data hold each array at the share `q1` names (an output at the full share). -/
theorem share1 (c : Dev nD) : ∀ w : Fin cfg1.W, (dat1 (Va2 m) c).share w = q1 w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨_ + 22, h⟩ => absurd h (Nat.not_lt.2 (Nat.le_add_left _ _))

/-! ## The regions as segments -/

set_option backward.isDefEq.respectTransparency.types false in
/-- The first region: entered from every unscoped buffer at `Wa1`, left at `Wa2`. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ Lz lvz 0 fun _ _ => rfl
  pre c := iprop(StableHlo.held (c : Thread nD τ) (Pipeline.ucRefs τ sig) (Wa1 m c) ∗ Rid c)
  post c := iprop(StableHlo.held (c : Thread nD τ) (Pipeline.ucRefs τ sig) (Wa2 m c) ∗ Rid c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `Wa2`, left at `Wa3`.  Its arrays are dealt out of the
    unscoped buffers window by window (a gate's weight matrix between its two windows) and gathered back at the exit. -/
def reg1 : Pipeline.RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (Va2 m) c).loose
  hwaits := Pipeline.hwaits_of_owed_zero _ _ _ _ Lz lvz 1 fun _ _ => rfl
  pre c := iprop(StableHlo.held (c : Thread nD τ) (Pipeline.ucRefs τ sig) (Wa2 m c) ∗ Rid c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va2 m c)
  hentry c := by
    rw [Pipeline.ownSems0_none]
    have hsplit : (unscopedBufs c (Va2 m c) : sProp 𝕄)
        ⊢ iprop((pdats m 1 c).arrays ((pdats m 1 c).arrAt · 0) ∗ Pipeline.unscopedRest spec1 c (Va2 m c)) := by
      rw [Pipeline.unscopedBufs_split₀ cfgs 1 winFacts₀1.arr_unscoped c (Va2 m c)]
      exact sep_mono (arrays1_of_bufs (dat1 (Va2 m) c) (share1 m c) (Va2 m c) _ (fun w => A_eq1 (Va2 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Va2 m c))
        ⊢ (unscopedBufs c (Va3 m c) : sProp 𝕄) := by
      rw [Pipeline.unscopedBufs_split₀ cfgs 1 winFacts₀1.arr_unscoped c (Va3 m c)]
      refine sep_mono (bufs_of_arrays1 (dat1 (Va2 m) c) (share1 m c) (Va3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) adm (pdats m) () defs₀ Variants.none Lz lvz) :=
  [ .host (hseg hostOps0 hostOps0_sub hostOps0_fresh (Wa0 m)),
    .region (reg0 m),
    .region (reg1 m) ]
theorem main_run (c : Dev nD) : main (F := F) c = Pipeline.Seg.run (allSegs m) := (main_chain c).trans (by chain_rfl)

set_option backward.isDefEq.respectTransparency.types false in
/-- From any memory with zero counters every weakly fair execution of @main terminates, nothing faulting, and every
    final state holds every unscoped buffer at `Wa3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa3 m c b) :=
  Pipeline.θ_run_regions_kit (pcfgs (F := F)) adm (pdats m) () cellOf_inj emb₁ defs₀ Variants.none Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ Rid c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa3 m c b)
    (hfin := fun c s' => by
      iintro ⟨⟨Hh, -⟩, HSI⟩
      unfold StableHlo.held
      imodintro
      iapply (pointsTo_read_all (Pipeline.ucRefs τ sig) (fun b => (((c : Thread nD τ)).1, b)) (Wa3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (Wa3_main_arg0 m c),
      (h c _ (mem_uc main_arg1 (by decide))).trans (Wa3_kept m c main_arg1 (by decide) (by decide) (by decide)),
      (h c _ (mem_uc main_arg2 (by decide))).trans (Wa3_kept m c main_arg2 (by decide) (by decide) (by decide)),
      (h c _ (mem_uc main_arg3 (by decide))).trans (Wa3_kept m c main_arg3 (by decide) (by decide) (by decide)),
      (h c _ (mem_uc main_arg4 (by decide))).trans (Wa3_kept m c main_arg4 (by decide) (by decide) (by decide)),
      (h c _ (mem_uc main_arg5 (by decide))).trans (Wa3_kept m c main_arg5 (by decide) (by decide) (by decide)),
      (h c _ (mem_uc main_arg6 (by decide))).trans (Wa3_kept m c main_arg6 (by decide) (by decide) (by decide)),
      (h c _ (mem_uc main_arg7 (by decide))).trans (Wa3_kept m c main_arg7 (by decide) (by decide) (by decide)),
      (h c _ (mem_uc main_arg8 (by decide))).trans (Wa3_kept m c main_arg8 (by decide) (by decide) (by decide)),
      (h c _ (mem_uc main_arg9 (by decide))).trans (Wa3_kept m c main_arg9 (by decide) (by decide) (by decide)),
      (h c _ (mem_uc main_arg10 (by decide))).trans (Wa3_kept m c main_arg10 (by decide) (by decide) (by decide)),
      (h c _ (mem_uc main_arg11 (by decide))).trans (Wa3_kept m c main_arg11 (by decide) (by decide) (by decide)),
      (h c _ (mem_uc main_arg12 (by decide))).trans (Wa3_kept m c main_arg12 (by decide) (by decide) (by decide)),
      (h c _ (mem_uc main_arg13 (by decide))).trans (Wa3_kept m c main_arg13 (by decide) (by decide) (by decide)),
      (h c _ (mem_uc main_arg14 (by decide))).trans (Wa3_kept m c main_arg14 (by decide) (by decide) (by decide)),
      (h c _ (mem_uc main_arg15 (by decide))).trans (Wa3_kept m c main_arg15 (by decide) (by decide) (by decide)),
      (h c _ (mem_uc main_arg16 (by decide))).trans (Wa3_kept m c main_arg16 (by decide) (by decide) (by decide)),
      (h c _ (mem_uc main_arg17 (by decide))).trans (Wa3_kept m c main_arg17 (by decide) (by decide) (by decide))⟩)
    (run_all m ρ)

end Cert.Kernel.Hand

end
-- ==== Proof.KernelIdealRegion0.lean ====
/-
  The first kernel region (the input projection), read at a parameter `V`: the contents of the core's buffers when the
  region is entered.  At grid point t (one of 32 row tiles) the body is handed the t-th block of 512 rows of the
  input, the whole projection matrix and the bias row, and leaves in the output window's buffer one function of
  those three blocks (`out0_3`: the body's single store laid over the buffer, which it covers).  The proof data
  say exactly that; the body's triple is by symbolic execution of the body over the named payload.
-/
import proofs.«149773_j65532611002879_2_alg».proof.Proof.Gen.KernelIdeal.Launch
import proofs.«149773_j65532611002879_2_alg».proof.Proof.Gen.KernelIdeal.Skeleton
import proofs.«149773_j65532611002879_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether the pipeline fetched it there or
    not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether the pipeline fetched it there or
    not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0
abbrev rO : Rect S512x2048 := Rect.unit (s := S512x2048) ![0, 0] S512x2048.size inb_S512x2048_S512x2048_0_0

/-- What the body leaves in the output window's buffer, from the three input blocks: its one store, as a piece. -/
def out0_3 (x0 : Vec F S512x1024 .f32) (x1 : Vec F S1024x2048 .bf16) (x2 : Vec F S1x2048 .f32) : Vec F S512x2048 .bf16 :=
  View.canon [⟨rO, k0_pay1 (View.ld x0 rX) (View.ld x1 rW) (View.ld x2 rB)⟩]

/-- The store's rectangle is the whole buffer, so it covers it. -/
theorem cover0_3 (p0 : Vec F S512x2048 .bf16) (y : S512x2048.Idx) :
    ∃ pc ∈ ([⟨rO, p0⟩] : List (View.Piece (Elt F) S512x2048 .bf16)), y ∈ pc.1.set :=
  View.cover_of_tiled [⟨rO, p0⟩] S512x2048.size (by rfl) y

set_option maxHeartbeats 1000000 in
/-- The body on whole staging buffers, the inputs' at read contents `x0 x1 x2` and the output's at anything, runs to its
    continuation with the inputs as they were and the output at `out0_3` of them. -/
theorem sound_kernel0 (c : Dev nD) (E : Set ℕ) (i : grid0.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of the first pipeline on core `c`: the arrays as the region finds them; after the body at point `t`
    each input's buffer at its block and the output's at `out0_3` of the input blocks; the invariant is the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdealRegion1.lean ====
/-
  The second kernel region (the four gates, the attention-like term and the cell update), read at a parameter `V`: the
  contents of the core's buffers when the region is entered.  At grid point t = (row tile, column tile) the body is
  handed twenty input blocks — the scale, the row tiles of the projection, the hidden state and the error signal, the
  (row, column) tiles of the old cell state and of the uncertainty, for each gate the column tile of the upper and of
  the lower half of its weight matrix, the column tile of the fifth weight matrix, and five bias tiles — and leaves in
  its two output windows' buffers two functions of those blocks (`out1_20`, the new hidden tile; `out1_21`, the new
  cell tile): each is the body's single store into that buffer, which covers it.  Two windows of a gate read one array
  (its upper and its lower rows); the proof data hold that array at one half share for each, which is all a fetch needs.
-/
import proofs.«149773_j65532611002879_2_alg».proof.Proof.Gen.KernelIdeal.Launch
import proofs.«149773_j65532611002879_2_alg».proof.Proof.Gen.KernelIdeal.Skeleton
import proofs.«149773_j65532611002879_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through, one per block shape. -/
abbrev r1T : Rect S1x1 := Rect.unit (s := S1x1) ![0, 0] S1x1.size inb_S1x1_S1x1_0_0
abbrev r1A : Rect S512x2048 := Rect.unit (s := S512x2048) ![0, 0] S512x2048.size inb_S512x2048_S512x2048_0_0
abbrev r1C : Rect S512x256 := Rect.unit (s := S512x256) ![0, 0] S512x256.size inb_S512x256_S512x256_0_0
abbrev r1W : Rect S2048x256 := Rect.unit (s := S2048x256) ![0, 0] S2048x256.size inb_S2048x256_S2048x256_0_0
abbrev r1B : Rect S1x256 := Rect.unit (s := S1x256) ![0, 0] S1x256.size inb_S1x256_S1x256_0_0

/-- The new hidden tile as the body computes it from the twenty input blocks (the payload of its store into window 20). -/
def hidPay (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : FVec F S512x256 .f32 :=
  k1_pay2 (k1_pay6 (View.ld x1 r1A) (View.ld x2 r1A) (View.ld x6 r1W) (View.ld x7 r1W) (View.ld x15 r1B)) (k1_pay9 (k1_pay4 (View.ld x2 r1A)) (k1_pay8 (View.ld x1 r1A) (View.ld x10 r1W)) (View.ld x11 r1W) (View.ld x17 r1B)) (k1_pay10 (k1_pay3 (View.ld x1 r1A)) (k1_pay4 (View.ld x2 r1A)) (View.ld x12 r1W) (View.ld x13 r1W) (View.ld x18 r1B)) (k1_pay11 (k1_pay5 (View.ld x4 r1A)) (View.ld x14 r1W) (View.ld x19 r1B)) (k1_pay13 (k1_pay7 (View.ld x1 r1A) (View.ld x2 r1A) (View.ld x8 r1W) (View.ld x9 r1W) (View.ld x16 r1B)) (View.ld x5 r1C)) (k1_pay14 (View.ld x5 r1C)) (k1_pay15 (F := F)) (View.ld x3 r1C) (View.ld x0 r1T)

/-- The new cell tile as the body computes it from the input blocks (the payload of its store into window 21). -/
def cellPay (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : FVec F S512x256 .f32 :=
  k1_pay1 (k1_pay6 (View.ld x1 r1A) (View.ld x2 r1A) (View.ld x6 r1W) (View.ld x7 r1W) (View.ld x15 r1B)) (k1_pay9 (k1_pay4 (View.ld x2 r1A)) (k1_pay8 (View.ld x1 r1A) (View.ld x10 r1W)) (View.ld x11 r1W) (View.ld x17 r1B)) (k1_pay11 (k1_pay5 (View.ld x4 r1A)) (View.ld x14 r1W) (View.ld x19 r1B)) (k1_pay13 (k1_pay7 (View.ld x1 r1A) (View.ld x2 r1A) (View.ld x8 r1W) (View.ld x9 r1W) (View.ld x16 r1B)) (View.ld x5 r1C)) (k1_pay14 (View.ld x5 r1C)) (k1_pay15 (F := F)) (View.ld x3 r1C) (View.ld x0 r1T)

/-- What the body leaves in the two output windows' buffers: its one store into each, as a piece. -/
def out1_20 (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : Vec F S512x256 .f32 :=
  View.canon [⟨r1C, hidPay x0 x1 x2 x3 x4 x5 x6 x7 x8 x9 x10 x11 x12 x13 x14 x15 x16 x17 x18 x19⟩]
def out1_21 (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) : Vec F S512x256 .f32 :=
  View.canon [⟨r1C, cellPay x0 x1 x2 x3 x4 x5 x6 x7 x8 x9 x10 x11 x12 x13 x14 x15 x16 x17 x18 x19⟩]

/-- The store's rectangle is the whole buffer, so it covers it. -/
theorem cover1 (p0 : Vec F S512x256 .f32) (y : S512x256.Idx) :
    ∃ pc ∈ ([⟨r1C, p0⟩] : List (View.Piece (Elt F) S512x256 .f32)), y ∈ pc.1.set :=
  View.cover_of_tiled [⟨r1C, p0⟩] S512x256.size (by rfl) y

set_option maxHeartbeats 4000000 in
/-- The body on whole staging buffers, the inputs' at read contents `x0 … x19` and the outputs' at anything, runs to its
    continuation with the inputs as they were and the outputs at `out1_20`, `out1_21` of them. -/
theorem sound_kernel1 (c : Dev nD) (E : Set ℕ) (i : grid1.Coords)
    (arg2 : Memref sig .tc .vmem S1x1 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x256 .f32) (harg5 : arg5.IsWhole) (arg6 : Memref sig .tc .vmem S512x2048 .bf16) (harg6 : arg6.IsWhole) (arg7 : Memref sig .tc .vmem S512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x256 .f32) (harg22 : arg22.IsWhole) (arg23 : Memref sig .tc .vmem S512x256 .f32) (harg23 : arg23.IsWhole)
    (x0 : Vec F S1x1 .f32) (x1 : Vec F S512x2048 .bf16) (x2 : Vec F S512x2048 .bf16) (x3 : Vec F S512x256 .f32) (x4 : Vec F S512x2048 .bf16) (x5 : Vec F S512x256 .f32) (x6 : Vec F S2048x256 .bf16) (x7 : Vec F S2048x256 .bf16) (x8 : Vec F S2048x256 .bf16) (x9 : Vec F S2048x256 .bf16) (x10 : Vec F S2048x256 .bf16) (x11 : Vec F S2048x256 .bf16) (x12 : Vec F S2048x256 .bf16) (x13 : Vec F S2048x256 .bf16) (x14 : Vec F S2048x256 .bf16) (x15 : Vec F S1x256 .f32) (x16 : Vec F S1x256 .f32) (x17 : Vec F S1x256 .f32) (x18 : Vec F S1x256 .f32) (x19 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19
        ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19
            ∗ owns (c : Thread nD τ) arg22 fullShare (out1_20 x0 x1 x2 x3 x4 x5 x6 x7 x8 x9 x10 x11 x12 x13 x14 x15 x16 x17 x18 x19) ∗ owns (c : Thread nD τ) arg23 fullShare (out1_21 x0 x1 x2 x3 x4 x5 x6 x7 x8 x9 x10 x11 x12 x13 x14 x15 x16 x17 x18 x19)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__fused_kernel_eq_skeleton]; unfold cc1__fused_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    try dsimp only
    exact View.read_writes_eq_canon _ _ _ (cover1 _)
  iexists _; isplitr
  swap; · iexact H21
  ipureintro
  try dsimp only
  exact View.read_writes_eq_canon _ _ _ (cover1 _)

/-- The share of its array each input window holds: the two windows of one gate's weight matrix a half each. -/
def q1 : Fin cfg1.W → PosShare TreeShare
  | ⟨0, _⟩ => fullShare
  | ⟨1, _⟩ => fullShare
  | ⟨2, _⟩ => fullShare
  | ⟨3, _⟩ => fullShare
  | ⟨4, _⟩ => fullShare
  | ⟨5, _⟩ => fullShare
  | ⟨6, _⟩ => PosShare.left fullShare
  | ⟨7, _⟩ => PosShare.right fullShare
  | ⟨8, _⟩ => PosShare.left fullShare
  | ⟨9, _⟩ => PosShare.right fullShare
  | ⟨10, _⟩ => PosShare.left fullShare
  | ⟨11, _⟩ => PosShare.right fullShare
  | ⟨12, _⟩ => PosShare.left fullShare
  | ⟨13, _⟩ => PosShare.right fullShare
  | ⟨14, _⟩ => fullShare
  | ⟨15, _⟩ => fullShare
  | ⟨16, _⟩ => fullShare
  | ⟨17, _⟩ => fullShare
  | ⟨18, _⟩ => fullShare
  | ⟨19, _⟩ => fullShare
  | ⟨20, _⟩ => fullShare
  | ⟨21, _⟩ => fullShare
  | ⟨_ + 22, h⟩ => absurd h (Nat.not_lt.2 (Nat.le_add_left _ _))

/-- The proof data of the second pipeline on core `c`: the arrays as the region finds them; after the body at point `t`
    each input's buffer at its block and the two outputs' at `out1_20`, `out1_21` of the input blocks; the invariant is
    the untouched scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)
    | ⟨21, _⟩ => out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)
    | ⟨_ + 22, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) := by dsimp only [dat1]
theorem after1_21 (c : Dev nD) (t : Fin cfg1.N) : (dat1 V c).after 21 t = out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel1 c Set.univ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdealShared.lean ====
/-
  The second region hands each gate's weight matrix to two windows (its upper and its lower rows).  Here the full
  points-to of each such matrix is dealt between its two windows, a half share each, at the region's entry, and the
  two halves are gathered again at its exit; every other array goes to its one window whole.
-/
import proofs.«149773_j65532611002879_2_alg».proof.Proof.Gen.KernelIdeal.Launch
import proofs.«149773_j65532611002879_2_alg».proof.Proof.Gen.KernelIdeal.Skeleton
import proofs.«149773_j65532611002879_2_alg».proof.Proof.Gen.KernelIdeal.Points
import proofs.«149773_j65532611002879_2_alg».proof.Proof.KernelIdealRegion1
import proofs.«149773_j65532611002879_2_alg».proof.Proof.LibSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shared

/-- The eighteen distinct buffers behind the second region's twenty-two windows. -/
abbrev refs1 : List (Ref sig .tc) := [main_v14, main_v16, main_v6, main_arg2, main_v7, main_v15, main_v2, main_v3, main_v4, main_v5, main_v1, main_v10, main_v11, main_v12, main_v13, main_v9, main_v17_0, main_v17_1]
theorem refs1_eq : Finset.univ.image (Pipeline.arrRef spec1) = refs1.toFinset := by decide
theorem refs1_nodup : refs1.Nodup := by decide

theorem q1_0 : q1 (0 : Fin cfg1.W) = fullShare := rfl
theorem q1_1 : q1 (1 : Fin cfg1.W) = fullShare := rfl
theorem q1_2 : q1 (2 : Fin cfg1.W) = fullShare := rfl
theorem q1_3 : q1 (3 : Fin cfg1.W) = fullShare := rfl
theorem q1_4 : q1 (4 : Fin cfg1.W) = fullShare := rfl
theorem q1_5 : q1 (5 : Fin cfg1.W) = fullShare := rfl
theorem q1_6 : q1 (6 : Fin cfg1.W) = PosShare.left fullShare := rfl
theorem q1_7 : q1 (7 : Fin cfg1.W) = PosShare.right fullShare := rfl
theorem q1_8 : q1 (8 : Fin cfg1.W) = PosShare.left fullShare := rfl
theorem q1_9 : q1 (9 : Fin cfg1.W) = PosShare.right fullShare := rfl
theorem q1_10 : q1 (10 : Fin cfg1.W) = PosShare.left fullShare := rfl
theorem q1_11 : q1 (11 : Fin cfg1.W) = PosShare.right fullShare := rfl
theorem q1_12 : q1 (12 : Fin cfg1.W) = PosShare.left fullShare := rfl
theorem q1_13 : q1 (13 : Fin cfg1.W) = PosShare.right fullShare := rfl
theorem q1_14 : q1 (14 : Fin cfg1.W) = fullShare := rfl
theorem q1_15 : q1 (15 : Fin cfg1.W) = fullShare := rfl
theorem q1_16 : q1 (16 : Fin cfg1.W) = fullShare := rfl
theorem q1_17 : q1 (17 : Fin cfg1.W) = fullShare := rfl
theorem q1_18 : q1 (18 : Fin cfg1.W) = fullShare := rfl
theorem q1_19 : q1 (19 : Fin cfg1.W) = fullShare := rfl
theorem q1_20 : q1 (20 : Fin cfg1.W) = fullShare := rfl
theorem q1_21 : q1 (21 : Fin cfg1.W) = fullShare := rfl

variable {c : Dev nD} (dat : Dat τ (Elt F) Unit ℕ (UR sig nD τ) ℕ cfg1 c) (hs : ∀ w, dat.share w = q1 w)
  (V' : (b : Ref sig .tc) → Buf (Elt F) ((c : Thread nD τ).loc b))
  (Fw : (w : Fin cfg1.W) → Buf (Elt F) ((cfg1.win w).arr.view.loc (c.tc : Thread nD τ)))
  (hF : ∀ w, Fw w = V' (Pipeline.arrRef spec1 w))

/-- The distinct buffers behind the windows, one by one. -/
theorem arrBufs1_eq : (Pipeline.arrBufs spec1 c V' : sProp 𝕄)
    = iprop((((c : Thread nD τ).loc main_v14) ↦{fullShare} V' main_v14) ∗ (((c : Thread nD τ).loc main_v16) ↦{fullShare} V' main_v16) ∗ (((c : Thread nD τ).loc main_v6) ↦{fullShare} V' main_v6) ∗ (((c : Thread nD τ).loc main_arg2) ↦{fullShare} V' main_arg2) ∗ (((c : Thread nD τ).loc main_v7) ↦{fullShare} V' main_v7) ∗ (((c : Thread nD τ).loc main_v15) ↦{fullShare} V' main_v15) ∗ (((c : Thread nD τ).loc main_v2) ↦{fullShare} V' main_v2) ∗ (((c : Thread nD τ).loc main_v3) ↦{fullShare} V' main_v3) ∗ (((c : Thread nD τ).loc main_v4) ↦{fullShare} V' main_v4) ∗ (((c : Thread nD τ).loc main_v5) ↦{fullShare} V' main_v5) ∗ (((c : Thread nD τ).loc main_v1) ↦{fullShare} V' main_v1) ∗ (((c : Thread nD τ).loc main_v10) ↦{fullShare} V' main_v10) ∗ (((c : Thread nD τ).loc main_v11) ↦{fullShare} V' main_v11) ∗ (((c : Thread nD τ).loc main_v12) ↦{fullShare} V' main_v12) ∗ (((c : Thread nD τ).loc main_v13) ↦{fullShare} V' main_v13) ∗ (((c : Thread nD τ).loc main_v9) ↦{fullShare} V' main_v9) ∗ (((c : Thread nD τ).loc main_v17_0) ↦{fullShare} V' main_v17_0) ∗ (((c : Thread nD τ).loc main_v17_1) ↦{fullShare} V' main_v17_1)) := by
  unfold Pipeline.arrBufs
  exact bigSep_eq_bigSepL_of_eq refs1 refs1_eq refs1_nodup _

include hs hF in
/-- The windows' arrays at contents read off `V'`, window by window at the shares `q1`. -/
theorem arrays1_chain :
    dat.arrays Fw = bigSep Finset.univ fun w : Fin cfg1.W =>
      (((c.tc : Thread nD τ).loc (Pipeline.arrRef spec1 w)) ↦{q1 w} V' (Pipeline.arrRef spec1 w) : sProp 𝕄) := by
  rw [Pipeline.Dat.arrays_eq_shares dat arr_whole1]
  exact bigSep_congr fun w _ => by rw [hs w, hF w]

set_option maxHeartbeats 4000000 in
include hs hF in
/-- ENTRY: the distinct buffers, each whole at the full share, are the windows' arrays: a matrix read through two
    windows is split into its two halves. -/
theorem arrays1_of_bufs : (Pipeline.arrBufs spec1 c V' : sProp 𝕄) ⊢ dat.arrays Fw := by
  rw [arrays1_chain dat hs V' Fw hF, bigSep_W1]
  simp only [q1_0, q1_1, q1_2, q1_3, q1_4, q1_5, q1_6, q1_7, q1_8, q1_9, q1_10, q1_11, q1_12, q1_13, q1_14, q1_15, q1_16, q1_17, q1_18, q1_19, q1_20, q1_21]
  rw [arrBufs1_eq V']
  iintro ⟨H_main_v14, H_main_v16, H_main_v6, H_main_arg2, H_main_v7, H_main_v15, H_main_v2, H_main_v3, H_main_v4, H_main_v5, H_main_v1, H_main_v10, H_main_v11, H_main_v12, H_main_v13, H_main_v9, H_main_v17_0, H_main_v17_1⟩
  ihave H_main_v2' := (pointsTo_share (PosShare.mem_left_op_right fullShare)).1 $$ H_main_v2
  icases H_main_v2' with ⟨H_main_v2a, H_main_v2b⟩
  ihave H_main_v3' := (pointsTo_share (PosShare.mem_left_op_right fullShare)).1 $$ H_main_v3
  icases H_main_v3' with ⟨H_main_v3a, H_main_v3b⟩
  ihave H_main_v4' := (pointsTo_share (PosShare.mem_left_op_right fullShare)).1 $$ H_main_v4
  icases H_main_v4' with ⟨H_main_v4a, H_main_v4b⟩
  ihave H_main_v5' := (pointsTo_share (PosShare.mem_left_op_right fullShare)).1 $$ H_main_v5
  icases H_main_v5' with ⟨H_main_v5a, H_main_v5b⟩
  isplitl [H_main_v14]; · iexact H_main_v14
  isplitl [H_main_v16]; · iexact H_main_v16
  isplitl [H_main_v6]; · iexact H_main_v6
  isplitl [H_main_arg2]; · iexact H_main_arg2
  isplitl [H_main_v7]; · iexact H_main_v7
  isplitl [H_main_v15]; · iexact H_main_v15
  isplitl [H_main_v2a]; · iexact H_main_v2a
  isplitl [H_main_v2b]; · iexact H_main_v2b
  isplitl [H_main_v3a]; · iexact H_main_v3a
  isplitl [H_main_v3b]; · iexact H_main_v3b
  isplitl [H_main_v4a]; · iexact H_main_v4a
  isplitl [H_main_v4b]; · iexact H_main_v4b
  isplitl [H_main_v5a]; · iexact H_main_v5a
  isplitl [H_main_v5b]; · iexact H_main_v5b
  isplitl [H_main_v1]; · iexact H_main_v1
  isplitl [H_main_v10]; · iexact H_main_v10
  isplitl [H_main_v11]; · iexact H_main_v11
  isplitl [H_main_v12]; · iexact H_main_v12
  isplitl [H_main_v13]; · iexact H_main_v13
  isplitl [H_main_v9]; · iexact H_main_v9
  isplitl [H_main_v17_0]; · iexact H_main_v17_0
  iexact H_main_v17_1

set_option maxHeartbeats 4000000 in
include hs hF in
/-- EXIT: the windows' arrays are the distinct buffers, each whole at the full share: the two halves of a matrix read
    through two windows are joined. -/
theorem bufs_of_arrays1 : dat.arrays Fw ⊢ (Pipeline.arrBufs spec1 c V' : sProp 𝕄) := by
  rw [arrays1_chain dat hs V' Fw hF, bigSep_W1]
  simp only [q1_0, q1_1, q1_2, q1_3, q1_4, q1_5, q1_6, q1_7, q1_8, q1_9, q1_10, q1_11, q1_12, q1_13, q1_14, q1_15, q1_16, q1_17, q1_18, q1_19, q1_20, q1_21]
  rw [arrBufs1_eq V']
  iintro ⟨G0, G1, G2, G3, G4, G5, G6, G7, G8, G9, G10, G11, G12, G13, G14, G15, G16, G17, G18, G19, G20, G21⟩
  ihave H_main_v2 := (pointsTo_share (PosShare.mem_left_op_right fullShare)).2 $$ [G6 G7]
  · isplitl [G6] <;> iassumption
  ihave H_main_v3 := (pointsTo_share (PosShare.mem_left_op_right fullShare)).2 $$ [G8 G9]
  · isplitl [G8] <;> iassumption
  ihave H_main_v4 := (pointsTo_share (PosShare.mem_left_op_right fullShare)).2 $$ [G10 G11]
  · isplitl [G10] <;> iassumption
  ihave H_main_v5 := (pointsTo_share (PosShare.mem_left_op_right fullShare)).2 $$ [G12 G13]
  · isplitl [G12] <;> iassumption
  isplitl [G0]; · iexact G0
  isplitl [G1]; · iexact G1
  isplitl [G2]; · iexact G2
  isplitl [G3]; · iexact G3
  isplitl [G4]; · iexact G4
  isplitl [G5]; · iexact G5
  isplitl [H_main_v2]; · iexact H_main_v2
  isplitl [H_main_v3]; · iexact H_main_v3
  isplitl [H_main_v4]; · iexact H_main_v4
  isplitl [H_main_v5]; · iexact H_main_v5
  isplitl [G14]; · iexact G14
  isplitl [G15]; · iexact G15
  isplitl [G16]; · iexact G16
  isplitl [G17]; · iexact G17
  isplitl [G18]; · iexact G18
  isplitl [G19]; · iexact G19
  isplitl [G20]; · iexact G20
  iexact G21

end Shared

end Cert.KernelIdeal.Hand

end
-- ==== Proof.KernelIdealRun.lean ====
/-
  The run of the whole program: sixteen host operations (format changes and reshapes of the arguments), the first
  kernel region, the second kernel region.  The contents of the core's buffers are followed from boundary to boundary:
  at launch (`Wa0`), after the host operations (`Wa1`), after the first region (`Wa2`: its output array at what the
  region's write-backs leave, everything else untouched) and after the second (`Wa3`: its two output arrays likewise).
  Every weakly fair execution terminates and ends with every buffer at `Wa3` (`run_all`); the arguments are no
  operation's and no region's output, so they end as launched (`frame`).
-/
import proofs.«149773_j65532611002879_2_alg».proof.Proof.Gen.KernelIdeal.Launch
import proofs.«149773_j65532611002879_2_alg».proof.Proof.Gen.KernelIdeal.Skeleton
import proofs.«149773_j65532611002879_2_alg».proof.Proof.Gen.KernelIdeal.Points
import proofs.«149773_j65532611002879_2_alg».proof.Proof.KernelIdealRegion0
import proofs.«149773_j65532611002879_2_alg».proof.Proof.KernelIdealRegion1
import proofs.«149773_j65532611002879_2_alg».proof.Proof.KernelIdealShared
import proofs.«149773_j65532611002879_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => m (c, b)
/-- After the host operations (the first region's entry). -/
abbrev Wa1 : Dev nD → Valuation τ sig (Elt F) := fun c => StableHlo.after hostOps0 (Wa0 m c)
abbrev Va1 : (c : Dev nD) → (b : Ref sig .tc) → Buf (Elt F) ((c : Thread nD τ).loc b) := fun c b => Wa1 m c b
/-- At the first region's exit: its arrays at what the pipeline leaves, every other buffer as entered. -/
def Wa2 (c : Dev nD) : Valuation τ sig (Elt F) :=
  Pipeline.withArrays spec0 c (Wa1 m c) fun w => (dat0 (Va1 m) c).arrAt w cfg0.N
theorem Wa2_arr (c : Dev nD) (w : Fin cfg0.W) :
    Wa2 m c (Proc.devRef .tc (Pipeline.arrRef spec0 w)) = (dat0 (Va1 m) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m c (Proc.devRef .tc b) = Wa1 m c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m c b
theorem hF0 (c : Dev nD) (w : Fin cfg0.W) : (dat0 (Va1 m) c).arrAt w cfg0.N = Va2 m c (Pipeline.arrRef spec0 w) :=
  (Wa2_arr m c w).symm
theorem hrest0 (c : Dev nD) : ∀ b, b ∉ Finset.univ.image (Pipeline.arrRef spec0) → Va2 m c b = Va1 m c b :=
  fun b hb => Wa2_of_ne m c b fun w e => hb (Finset.mem_image.mpr ⟨w, Finset.mem_univ _, e⟩)

/-- At the second region's exit: its two output arrays at what the pipeline leaves, every other buffer as entered
    (its input arrays are read, never written). -/
def Wa3 (c : Dev nD) : Valuation τ sig (Elt F) :=
  Function.update (Function.update (Wa2 m c) main_v17_0 ((dat1 (Va2 m) c).arrAt 20 cfg1.N)) main_v17_1 ((dat1 (Va2 m) c).arrAt 21 cfg1.N)
abbrev Va3 : (c : Dev nD) → (b : Ref sig .tc) → Buf (Elt F) ((c : Thread nD τ).loc b) := fun c b => Wa3 m c b
theorem Wa3_of (c : Dev nD) (r : Ref sig .tc) (h : r ∉ ([main_v17_0, main_v17_1] : List (Ref sig .tc))) : Wa3 m c r = Wa2 m c r := by
  simp only [Wa3, Function.update_of_ne (StableHlo.devRef_ne_of_ne (List.ne_of_not_mem_cons h) : (Proc.devRef .tc r : DevRef τ sig) ≠ Proc.devRef .tc main_v17_0), Function.update_of_ne (StableHlo.devRef_ne_of_ne (List.ne_of_not_mem_cons (List.not_mem_of_not_mem_cons h)) : (Proc.devRef .tc r : DevRef τ sig) ≠ Proc.devRef .tc main_v17_1)]
theorem Wa3_out1 (c : Dev nD) : Wa3 m c main_v17_1 = (dat1 (Va2 m) c).arrAt 21 cfg1.N := by
  unfold Wa3; exact Function.update_self ..
theorem Wa3_out0 (c : Dev nD) : Wa3 m c main_v17_0 = (dat1 (Va2 m) c).arrAt 20 cfg1.N := by
  unfold Wa3
  rw [Function.update_of_ne (StableHlo.devRef_ne_of_ne (by decide) : (Proc.devRef .tc main_v17_0 : DevRef τ sig) ≠ Proc.devRef .tc main_v17_1)]
  exact Function.update_self ..

/-- An input window's array ends the region as it entered it. -/
theorem hF1_in (c : Dev nD) (w : Fin cfg1.W) (hin : (cfg1.win w).isOut = false)
    (h : Pipeline.arrRef spec1 w ∉ ([main_v17_0, main_v17_1] : List (Ref sig .tc))) :
    (dat1 (Va2 m) c).arrAt w cfg1.N = Va3 m c (Pipeline.arrRef spec1 w) :=
  (((dat1 (Va2 m) c).arrAt_in w hin _).trans (A_eq1 (Va2 m) c w)).trans (Wa3_of m c _ h).symm

set_option maxHeartbeats 4000000 in
theorem hF1 (c : Dev nD) : ∀ w : Fin cfg1.W, (dat1 (Va2 m) c).arrAt w cfg1.N = Va3 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => hF1_in m c 8 rfl (by decide)
  | ⟨9, _⟩ => hF1_in m c 9 rfl (by decide)
  | ⟨10, _⟩ => hF1_in m c 10 rfl (by decide)
  | ⟨11, _⟩ => hF1_in m c 11 rfl (by decide)
  | ⟨12, _⟩ => hF1_in m c 12 rfl (by decide)
  | ⟨13, _⟩ => hF1_in m c 13 rfl (by decide)
  | ⟨14, _⟩ => hF1_in m c 14 rfl (by decide)
  | ⟨15, _⟩ => hF1_in m c 15 rfl (by decide)
  | ⟨16, _⟩ => hF1_in m c 16 rfl (by decide)
  | ⟨17, _⟩ => hF1_in m c 17 rfl (by decide)
  | ⟨18, _⟩ => hF1_in m c 18 rfl (by decide)
  | ⟨19, _⟩ => hF1_in m c 19 rfl (by decide)
  | ⟨20, _⟩ => (Wa3_out0 m c).symm
  | ⟨21, _⟩ => (Wa3_out1 m c).symm
  | ⟨_ + 22, h⟩ => absurd h (Nat.not_lt.2 (Nat.le_add_left _ _))

theorem hrest1 (c : Dev nD) (b : Ref sig .tc) (hb : b ∉ Finset.univ.image (Pipeline.arrRef spec1)) : Va3 m c b = Va2 m c b := by
  refine Wa3_of m c b fun h => hb ?_
  rcases List.mem_cons.mp h with rfl | h
  · exact Finset.mem_image.mpr ⟨20, Finset.mem_univ _, rfl⟩
  · rcases List.mem_cons.mp h with rfl | h
    · exact Finset.mem_image.mpr ⟨21, Finset.mem_univ _, rfl⟩
    · exact absurd h List.not_mem_nil

/-! ### The arguments end as launched -/

/-- A buffer that no region writes back and no host operation writes holds its launch contents at the end. -/
theorem Wa3_kept (c : Dev nD) (r : Ref sig .tc) (h3 : r ∉ ([main_v17_0, main_v17_1] : List (Ref sig .tc)))
    (h0 : ∀ w, Pipeline.arrRef spec0 w ≠ r) (h1 : r ∉ hostOps0_W) : Wa3 m c r = m ((c : Thread nD τ).loc r) :=
  (Wa3_of m c r h3).trans <| (Wa2_of_ne m c r h0).trans <| (V1_of m c r h1).trans rfl

/-- The first region's input array `main_arg0` ends it as it entered it. -/
theorem Wa3_main_arg0 (c : Dev nD) : Wa3 m c main_arg0 = m ((c : Thread nD τ).loc main_arg0) :=
  (Wa3_of m c main_arg0 (by decide)).trans <| (Wa2_arr m c 0).trans <|
    (((dat0 (Va1 m) c).arrAt_in 0 rfl _).trans (A_eq0 (Va1 m) c 0)).trans <| (V1_of m c main_arg0 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va2 m) c
/-- No core owes another anything: no level is assigned. -/
abbrev Lz : GSem nD τ sig → Finset Unit := fun _ => ∅
abbrev lvz : GSem nD τ sig → Unit → ℕ := fun _ _ => 0
/-- What rides beside the buffers through every segment: the generator register at some state and nothing owed. -/
abbrev Rid (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rid

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `Wa3`, the generator register at some state. -/
abbrev Tend (c : Dev nD) : sProp 𝕄 := iprop(StableHlo.held (c : Thread nD τ) (Pipeline.ucRefs τ sig) (Wa3 m c) ∗ ∃ r, prngReg c r)

set_option maxHeartbeats 4000000 in
/-- The second pipeline's proof data hold each array at the share `q1` names (an output at the full share). -/
theorem share1 (c : Dev nD) : ∀ w : Fin cfg1.W, (dat1 (Va2 m) c).share w = q1 w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨_ + 22, h⟩ => absurd h (Nat.not_lt.2 (Nat.le_add_left _ _))

/-! ## The regions as segments -/

set_option backward.isDefEq.respectTransparency.types false in
/-- The first region: entered from every unscoped buffer at `Wa1`, left at `Wa2`. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ Lz lvz 0 fun _ _ => rfl
  pre c := iprop(StableHlo.held (c : Thread nD τ) (Pipeline.ucRefs τ sig) (Wa1 m c) ∗ Rid c)
  post c := iprop(StableHlo.held (c : Thread nD τ) (Pipeline.ucRefs τ sig) (Wa2 m c) ∗ Rid c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `Wa2`, left at `Wa3`.  Its arrays are dealt out of the
    unscoped buffers window by window (a gate's weight matrix between its two windows) and gathered back at the exit. -/
def reg1 : Pipeline.RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (Va2 m) c).loose
  hwaits := Pipeline.hwaits_of_owed_zero _ _ _ _ Lz lvz 1 fun _ _ => rfl
  pre c := iprop(StableHlo.held (c : Thread nD τ) (Pipeline.ucRefs τ sig) (Wa2 m c) ∗ Rid c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va2 m c)
  hentry c := by
    rw [Pipeline.ownSems0_none]
    have hsplit : (unscopedBufs c (Va2 m c) : sProp 𝕄)
        ⊢ iprop((pdats m 1 c).arrays ((pdats m 1 c).arrAt · 0) ∗ Pipeline.unscopedRest spec1 c (Va2 m c)) := by
      rw [Pipeline.unscopedBufs_split₀ cfgs 1 winFacts₀1.arr_unscoped c (Va2 m c)]
      exact sep_mono (arrays1_of_bufs (dat1 (Va2 m) c) (share1 m c) (Va2 m c) _ (fun w => A_eq1 (Va2 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Va2 m c))
        ⊢ (unscopedBufs c (Va3 m c) : sProp 𝕄) := by
      rw [Pipeline.unscopedBufs_split₀ cfgs 1 winFacts₀1.arr_unscoped c (Va3 m c)]
      refine sep_mono (bufs_of_arrays1 (dat1 (Va2 m) c) (share1 m c) (Va3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) adm (pdats m) () defs₀ Variants.none Lz lvz) :=
  [ .host (hseg hostOps0 hostOps0_sub hostOps0_fresh (Wa0 m)),
    .region (reg0 m),
    .region (reg1 m) ]
theorem main_run (c : Dev nD) : main (F := F) c = Pipeline.Seg.run (allSegs m) := (main_chain c).trans (by chain_rfl)

set_option backward.isDefEq.respectTransparency.types false in
/-- From any memory with zero counters every weakly fair execution of @main terminates, nothing faulting, and every
    final state holds every unscoped buffer at `Wa3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa3 m c b) :=
  Pipeline.θ_run_regions_kit (pcfgs (F := F)) adm (pdats m) () cellOf_inj emb₁ defs₀ Variants.none Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ Rid c)) (Tₙ := Tend m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa3 m c b)
    (hfin := fun c s' => by
      iintro ⟨⟨Hh, -⟩, HSI⟩
      unfold StableHlo.held
      imodintro
      iapply (pointsTo_read_all (Pipeline.ucRefs τ sig) (fun b => (((c : Thread nD τ)).1, b)) (Wa3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (Wa3_main_arg0 m c),
      (h c _ (mem_uc main_arg1 (by decide))).trans (Wa3_kept m c main_arg1 (by decide) (by decide) (by decide)),
      (h c _ (mem_uc main_arg2 (by decide))).trans (Wa3_kept m c main_arg2 (by decide) (by decide) (by decide)),
      (h c _ (mem_uc main_arg3 (by decide))).trans (Wa3_kept m c main_arg3 (by decide) (by decide) (by decide)),
      (h c _ (mem_uc main_arg4 (by decide))).trans (Wa3_kept m c main_arg4 (by decide) (by decide) (by decide)),
      (h c _ (mem_uc main_arg5 (by decide))).trans (Wa3_kept m c main_arg5 (by decide) (by decide) (by decide)),
      (h c _ (mem_uc main_arg6 (by decide))).trans (Wa3_kept m c main_arg6 (by decide) (by decide) (by decide)),
      (h c _ (mem_uc main_arg7 (by decide))).trans (Wa3_kept m c main_arg7 (by decide) (by decide) (by decide)),
      (h c _ (mem_uc main_arg8 (by decide))).trans (Wa3_kept m c main_arg8 (by decide) (by decide) (by decide)),
      (h c _ (mem_uc main_arg9 (by decide))).trans (Wa3_kept m c main_arg9 (by decide) (by decide) (by decide)),
      (h c _ (mem_uc main_arg10 (by decide))).trans (Wa3_kept m c main_arg10 (by decide) (by decide) (by decide)),
      (h c _ (mem_uc main_arg11 (by decide))).trans (Wa3_kept m c main_arg11 (by decide) (by decide) (by decide)),
      (h c _ (mem_uc main_arg12 (by decide))).trans (Wa3_kept m c main_arg12 (by decide) (by decide) (by decide)),
      (h c _ (mem_uc main_arg13 (by decide))).trans (Wa3_kept m c main_arg13 (by decide) (by decide) (by decide)),
      (h c _ (mem_uc main_arg14 (by decide))).trans (Wa3_kept m c main_arg14 (by decide) (by decide) (by decide)),
      (h c _ (mem_uc main_arg15 (by decide))).trans (Wa3_kept m c main_arg15 (by decide) (by decide) (by decide)),
      (h c _ (mem_uc main_arg16 (by decide))).trans (Wa3_kept m c main_arg16 (by decide) (by decide) (by decide)),
      (h c _ (mem_uc main_arg17 (by decide))).trans (Wa3_kept m c main_arg17 (by decide) (by decide) (by decide))⟩)
    (run_all m ρ)

end Cert.KernelIdeal.Hand

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelIdealPay.lean ====
/-
  The two kernel bodies' arithmetic, read at one entry of the output tile, on the extended reals.

  First kernel: entry (p, q) of the projection tile is (∑ k, x[p,k] · W[k,q]) + b[0,q] (a change of float format is
  the identity here).  Second kernel: with S(a, b)[p,q] = ∑ k, a[p,k] · b[k,q], a gate's pre-activation at (p, q) is
  (S(proj, Wtop) + S(hid, Wbot))[p,q] + bias[0,q]; the new cell entry is
  ((σ(gate_f) · (1 − u · 0.1)) · cell + ((σ(gate_i) · (1 + u)) · tanh(gate_c)) · σ(S(err, We) + be)) · ts[0,0]
  and the new hidden entry is σ(gate_o) · tanh(new cell entry).
-/
import proofs.«149773_j65532611002879_2_alg».proof.Proof.Gen.KernelIdeal.Skeleton
import proofs.«149773_j65532611002879_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pay

open Idealize.ShloMosaic Idealize.ShloMosaic.ValueIdx Cert.KernelIdeal Cert.KernelIdeal.Gen

/-- A [1,1] array spread over an [a,b] tile reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The first kernel's product into the zero tile, at (p, q). -/
theorem mm0 (a : FVec Ideal S512x1024 .bf16) (b : FVec Ideal S1024x2048 .bf16) (p : Fin 512) (q : Fin 2048) :
    matmul dot_S512x1024_S1024x2048_S512x2048_1_0_0_1_n_n none a b (constant (F := Ideal) S512x2048 .f32 0x00000000#32) (ix2 p q)
      = ∑ k : Fin 1024, a (ix2 p k) * b (ix2 k q) :=
  PlainDot.matmul_zero_apply 512 1024 2048 none a b p q

/-- The second kernel's products into the zero tile, at (p, q). -/
theorem mm1 (a : FVec Ideal S512x2048 .bf16) (b : FVec Ideal S2048x256 .bf16) (p : Fin 512) (q : Fin 256) :
    matmul dot_S512x2048_S2048x256_S512x256_1_0_0_1_n_n none a b (constant (F := Ideal) S512x256 .f32 0x00000000#32) (ix2 p q)
      = ∑ k : Fin 2048, a (ix2 p k) * b (ix2 k q) :=
  PlainDot.matmul_zero_apply 512 2048 256 none a b p q

/-- The projection tile at (p, q). -/
theorem proj_apply (x0 : Vec Ideal S512x1024 .f32) (x1 : Vec Ideal S1024x2048 .bf16) (x2 : Vec Ideal S1x2048 .f32)
    (p : Fin 512) (q : Fin 2048) :
    k0_pay1 (F := Ideal) x0 x1 x2 (ix2 p q) = (∑ k : Fin 1024, x0 (ix2 p k) * x1 (ix2 k q)) + x2 (ix2 (0 : Fin 1) q) := by
  unfold k0_pay1
  simp only [truncf_apply, addf_apply, shapeCast_self, broadcastTo_1b_ab_apply, mm0]

/-- A gate's pre-activation at (p, q), from the projection tile `a`, the hidden tile `h`, the two weight tiles and the
    bias tile. -/
def gatePre (a h : FVec Ideal S512x2048 .bf16) (wt wb : FVec Ideal S2048x256 .bf16) (b : FVec Ideal S1x256 .f32)
    (p : Fin 512) (q : Fin 256) : EReal :=
  ((∑ k : Fin 2048, a (ix2 p k) * wt (ix2 k q)) + (∑ k : Fin 2048, h (ix2 p k) * wb (ix2 k q))) + b (ix2 (0 : Fin 1) q)

theorem pay3_eq (v0 : Vec Ideal S512x2048 .bf16) : k1_pay3 (F := Ideal) v0 = v0 := by unfold k1_pay3; exact shapeCast_self _ _
theorem pay4_eq (v0 : Vec Ideal S512x2048 .bf16) : k1_pay4 (F := Ideal) v0 = v0 := by unfold k1_pay4; exact shapeCast_self _ _
theorem pay5_eq (v0 : Vec Ideal S512x2048 .bf16) : k1_pay5 (F := Ideal) v0 = v0 := by unfold k1_pay5; exact shapeCast_self _ _
theorem pay12_eq (v0 : Vec Ideal S512x256 .f32) : k1_pay12 (F := Ideal) v0 = v0 := by unfold k1_pay12; exact shapeCast_self _ _

theorem pay6_apply (v0 v2 : Vec Ideal S512x2048 .bf16) (v6 v9 : Vec Ideal S2048x256 .bf16) (v13 : Vec Ideal S1x256 .f32)
    (p : Fin 512) (q : Fin 256) :
    k1_pay6 (F := Ideal) v0 v2 v6 v9 v13 (ix2 p q) = Ideal.logistic (gatePre v0 v2 v6 v9 v13 p q) := by
  unfold k1_pay6 gatePre
  simp only [pay3_eq, pay4_eq, logistic, Ideal.logistic_def, addf_apply, shapeCast_self, broadcastTo_1b_ab_apply, mm1]

theorem pay7_apply (v0 v2 : Vec Ideal S512x2048 .bf16) (v18 v21 : Vec Ideal S2048x256 .bf16) (v25 : Vec Ideal S1x256 .f32)
    (p : Fin 512) (q : Fin 256) :
    k1_pay7 (F := Ideal) v0 v2 v18 v21 v25 (ix2 p q) = Ideal.logistic (gatePre v0 v2 v18 v21 v25 p q) := by
  unfold k1_pay7 gatePre
  simp only [pay3_eq, pay4_eq, logistic, Ideal.logistic_def, addf_apply, shapeCast_self, broadcastTo_1b_ab_apply, mm1]

theorem pay8_apply (v0 : Vec Ideal S512x2048 .bf16) (v30 : Vec Ideal S2048x256 .bf16) (p : Fin 512) (q : Fin 256) :
    k1_pay8 (F := Ideal) v0 v30 (ix2 p q) = ∑ k : Fin 2048, v0 (ix2 p k) * v30 (ix2 k q) := by
  unfold k1_pay8
  simp only [pay3_eq, shapeCast_self, mm1]

theorem pay9_apply (v3 : FVec Ideal S512x2048 .bf16) (v32 : FVec Ideal S512x256 .f32) (v33 : Vec Ideal S2048x256 .bf16)
    (v37 : Vec Ideal S1x256 .f32) (p : Fin 512) (q : Fin 256) :
    k1_pay9 (F := Ideal) v3 v32 v33 v37 (ix2 p q)
      = Ideal.tanh ((v32 (ix2 p q) + ∑ k : Fin 2048, v3 (ix2 p k) * v33 (ix2 k q)) + v37 (ix2 (0 : Fin 1) q)) := by
  unfold k1_pay9
  simp only [tanh, Ideal.tanh_def, addf_apply, shapeCast_self, broadcastTo_1b_ab_apply, mm1]

theorem pay10_apply (v1 v3 : FVec Ideal S512x2048 .bf16) (v42 v45 : Vec Ideal S2048x256 .bf16) (v49 : Vec Ideal S1x256 .f32)
    (p : Fin 512) (q : Fin 256) :
    k1_pay10 (F := Ideal) v1 v3 v42 v45 v49 (ix2 p q) = Ideal.logistic (gatePre v1 v3 v42 v45 v49 p q) := by
  unfold k1_pay10 gatePre
  simp only [logistic, Ideal.logistic_def, addf_apply, shapeCast_self, broadcastTo_1b_ab_apply, mm1]

theorem pay11_apply (v5 : FVec Ideal S512x2048 .bf16) (v54 : Vec Ideal S2048x256 .bf16) (v57 : Vec Ideal S1x256 .f32)
    (p : Fin 512) (q : Fin 256) :
    k1_pay11 (F := Ideal) v5 v54 v57 (ix2 p q)
      = Ideal.logistic ((∑ k : Fin 2048, v5 (ix2 p k) * v54 (ix2 k q)) + v57 (ix2 (0 : Fin 1) q)) := by
  unfold k1_pay11
  simp only [logistic, Ideal.logistic_def, addf_apply, shapeCast_self, broadcastTo_1b_ab_apply, mm1]

theorem pay13_apply (v29 : FVec Ideal S512x256 .f32) (v62 : Vec Ideal S512x256 .f32) (j : S512x256.Idx) :
    k1_pay13 (F := Ideal) v29 v62 j = v29 j * (Ideal.ofBits .f32 0x3F800000#32 + v62 j) := by
  unfold k1_pay13
  simp only [pay12_eq, mulf_apply, addf_apply, broadcast_apply]
  rfl

theorem pay14_apply (v62 : Vec Ideal S512x256 .f32) (j : S512x256.Idx) :
    k1_pay14 (F := Ideal) v62 j = v62 j * Ideal.ofBits .f32 0x3DCCCCCD#32 := by
  unfold k1_pay14
  simp only [pay12_eq, mulf_apply, broadcast_apply]
  rfl

theorem pay15_apply (j : S512x256.Idx) : k1_pay15 (F := Ideal) j = Ideal.ofBits .f32 0x3F800000#32 := rfl

/-- The new cell tile at (p, q), from the values the body has named. -/
theorem pay1_apply (v17 v41 v61 v66 v68 v69 : FVec Ideal S512x256 .f32) (v72 : Vec Ideal S512x256 .f32) (v77 : Vec Ideal S1x1 .f32)
    (p : Fin 512) (q : Fin 256) :
    k1_pay1 (F := Ideal) v17 v41 v61 v66 v68 v69 v72 v77 (ix2 p q)
      = ((v17 (ix2 p q) * (v69 (ix2 p q) - v68 (ix2 p q))) * v72 (ix2 p q) + (v66 (ix2 p q) * v41 (ix2 p q)) * v61 (ix2 p q))
          * v77 (ix2 (0 : Fin 1) (0 : Fin 1)) := by
  unfold k1_pay1
  simp only [mulf_apply, addf_apply, subf_apply, shapeCast_self, broadcastTo_11_ab_apply]

/-- The new hidden tile at (p, q). -/
theorem pay2_apply (v17 v41 v53 v61 v66 v68 v69 : FVec Ideal S512x256 .f32) (v72 : Vec Ideal S512x256 .f32) (v77 : Vec Ideal S1x1 .f32)
    (j : S512x256.Idx) :
    k1_pay2 (F := Ideal) v17 v41 v53 v61 v66 v68 v69 v72 v77 j
      = v53 j * Ideal.tanh (k1_pay1 (F := Ideal) v17 v41 v61 v66 v68 v69 v72 v77 j) := by
  unfold k1_pay2
  simp only [mulf_apply, tanh, Ideal.tanh_def]

end Cert.KernelIdeal.Pay

end
-- ==== Proof.KernelIdealValue0.lean ====
/-
  What the first region leaves in its output array, as ONE function of the arrays it finds: entry (r, q) of the
  projection is (∑ k, x[r,k] · W[k,q]) + b[0,q].  Point t of the grid writes back rows 512·t … 512·t+511 of that
  function (the body's tile, with each input block read where the output's rectangle says), and the 32 row blocks
  cover the array.
-/
import proofs.«149773_j65532611002879_2_alg».proof.Proof.KernelIdealRegion0
import proofs.«149773_j65532611002879_2_alg».proof.Proof.KernelIdealPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The projection as a function of the input array, the weight array and the bias row. -/
def projG (X : S16384x1024.Idx → EReal) (W : S1024x2048.Idx → EReal) (b : S1x2048.Idx → EReal) : S16384x2048.Idx → EReal :=
  fun i => (∑ k : Fin 1024, X (ix2 (i 0) k) * W (ix2 k (i 1))) + b (ix2 (0 : Fin 1) (i 1))

/-- The printed index maps over the 32 points: the input rows move with the output rows, everything else stays at 0. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

theorem iblk0_at_0 (c : Dev nD) (t : Fin cfg0.N) (y : S512x1024.Idx) :
    iblk0 V c 0 t y = V c main_arg0 (((cfg0.win 0).blk t).view.emb y) := rfl
theorem iblk0_at_1 (c : Dev nD) (t : Fin cfg0.N) (y : S1024x2048.Idx) :
    iblk0 V c 1 t y = V c main_v0 (((cfg0.win 1).blk t).view.emb y) := rfl
theorem iblk0_at_2 (c : Dev nD) (t : Fin cfg0.N) (y : S1x2048.Idx) :
    iblk0 V c 2 t y = V c main_v8 (((cfg0.win 2).blk t).view.emb y) := rfl

/-- WHAT POINT `t` WRITES BACK is block `t` of `projG` of the arrays as the region finds them. -/
theorem flushed0_eq (c : Dev nD) (t : Fin cfg0.N) :
    (dat0 V c).flushed 3 t = ((cfg0.win 3).blk t).view.read (Elt Ideal) (projG (V c main_arg0) (V c main_v0) (V c main_v8)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x2048) hz, View.ld_unit_zero (S := S1x2048) hz]
  obtain ⟨e0, e1, e2, e3, e4, e5, e6, e7⟩ := idx_facts0 t
  funext j
  obtain ⟨p, q, rfl⟩ : ∃ (p : Fin 512) (q : Fin 2048), j = ix2 p q := ⟨j 0, j 1, eq_ix2 j⟩
  show k0_pay1 (F := Ideal) (iblk0 V c 0 t) (iblk0 V c 1 t) (iblk0 V c 2 t) (ix2 p q)
    = projG (V c main_arg0) (V c main_v0) (V c main_v8) (((cfg0.win 3).blk t).view.emb (ix2 p q))
  have h0 : ∀ k : Fin 1024, ((cfg0.win 0).blk t).view.emb (ix2 p k) = (ix2 ((((cfg0.win 3).blk t).view.emb (ix2 p q)) 0) k : S16384x1024.Idx) := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have h1 : ∀ k : Fin 1024, ((cfg0.win 1).blk t).view.emb (ix2 k q) = (ix2 k ((((cfg0.win 3).blk t).view.emb (ix2 p q)) 1) : S1024x2048.Idx) := fun k => by
    funext a; apply Fin.ext
    match a with
    | ⟨0, _⟩ => show win0_1.index t (0 : Fin 2) * 1024 + 1 * k.val = k.val; omega
    | ⟨1, _⟩ => show win0_1.index t (1 : Fin 2) * 2048 + 1 * q.val = win0_3.index t (1 : Fin 2) * 2048 + 1 * q.val; omega
  have h2 : ((cfg0.win 2).blk t).view.emb (ix2 (0 : Fin 1) q) = (ix2 (0 : Fin 1) ((((cfg0.win 3).blk t).view.emb (ix2 p q)) 1) : S1x2048.Idx) := by
    funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  rw [proj_apply]
  unfold projG
  simp only [iblk0_at_0, iblk0_at_1, iblk0_at_2]
  simp only [h0, h1, h2]

/-- An index of the array is in point `t`'s block iff each coordinate is in the block's range on its axis. -/
theorem mem_blk0 (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v16).slice (win0_3.rect t)).set ↔ _
  rw [View.set_slice_whole, Rect.mem_set_unit]
  exact Iff.rfl

/-- Every entry of the array is in some point's block: row r in block r / 512. -/
theorem cover0 (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  let t : Fin cfg0.N := ⟨(i 0).val / 512, by show _ < grid0.N; rw [N_0]; omega⟩
  obtain ⟨e0, e1, e2, e3, e4, e5, e6, e7⟩ := idx_facts0 t
  refine ⟨t, flush0_3 t, ?_⟩
  rw [mem_blk0]
  intro a
  have ht : t.val = (i 0).val / 512 := rfl
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE ARRAY after the first region: `projG` of the arrays the region finds. -/
theorem final0 (c : Dev nD) :
    (dat0 V c).arrAt 3 cfg0.N = projG (V c main_arg0) (V c main_v0) (V c main_v8) :=
  (dat0 V c).arrAt_eq_of_cover 3 _ (fun t _ => flushed0_eq V c t) cover0

end Cert.KernelIdeal.HandValue

end
-- ==== Proof.Spec.lean ====
/-
  The mathematics both programs compute, stated once over the argument arrays as extended reals.

  A gated recurrent cell with an attention-like damping term.  With B = 16384 rows, IN = 1024 inputs and H = 2048
  hidden units, for a row p and a hidden unit q:

    proj[p,q]  = (∑ k < IN, x[p,k] · Wp[k,q]) + bp[q]
    gate W b   = ((∑ k < H, proj[p,k] · W[k,q]) + (∑ k < H, hid[p,k] · W[H+k,q])) + b[q]
    f = σ(gate Wf bf),  i = σ(gate Wi bi),  g = tanh(gate Wc bc),  o = σ(gate Wo bo)
    a          = σ((∑ k < H, err[p,k] · We[k,q]) + be[q])
    u          = unc[p,q,0]
    cell'[p,q] = ((f · (1 − u · 0.1)) · cell[p,q] + ((i · (1 + u)) · g) · a) · ts[0]
    hid'[p,q]  = o · tanh(cell'[p,q])

  where σ is the logistic function 1 / (1 + e^(−z)).  The sum over the 2·H rows of a gate's weight matrix against the
  row [proj[p,·], hid[p,·]] is written as the sum over its first H rows plus the sum over its last H rows: on the
  extended reals addition is commutative and associative, so the two arrangements agree with no finiteness
  assumption (`sum_lo_hi` below).  The two literals are kept as the 32-bit words both programs print.
-/
import Idealize.ShloMosaic.PureOps.Ideal
import Idealize.ShloMosaic.Lib.ValueIdx

noncomputable section

open scoped BigOperators

namespace Cert.GatedCell

open Idealize.ShloMosaic Idealize.ShloMosaic.ValueIdx

abbrev SBxI : Shape := ⟨2, ![16384, 1024]⟩
abbrev SBxH : Shape := ⟨2, ![16384, 2048]⟩
abbrev SBxHx1 : Shape := ⟨3, ![16384, 2048, 1]⟩
abbrev SIxH : Shape := ⟨2, ![1024, 2048]⟩
abbrev SH : Shape := ⟨1, ![2048]⟩
abbrev S2HxH : Shape := ⟨2, ![4096, 2048]⟩
abbrev SHxH : Shape := ⟨2, ![2048, 2048]⟩
abbrev SOne : Shape := ⟨1, ![1]⟩

/-- Row k of the upper half of a gate's weight matrix (the rows that meet the projection). -/
def lo (k : Fin 2048) : Fin 4096 := ⟨k.val, by omega⟩
/-- Row H + k: the lower half (the rows that meet the hidden state). -/
def hi (k : Fin 2048) : Fin 4096 := ⟨2048 + k.val, by omega⟩

/-- The word of 1.0 and the word of 0.1 (rounded to f32), read as extended reals. -/
def one : EReal := Ideal.ofBits .f32 0x3F800000#32
def tenth : EReal := Ideal.ofBits .f32 0x3DCCCCCD#32

/-- The input projection. -/
def proj (x : FVec Ideal SBxI .f32) (Wp : FVec Ideal SIxH .f32) (bp : FVec Ideal SH .f32)
    (p : Fin 16384) (q : Fin 2048) : EReal :=
  (∑ k : Fin 1024, x (ix2 p k) * Wp (ix2 k q)) + bp (ix1 q)

/-- A gate's pre-activation: the projection against the upper rows, the hidden state against the lower rows, the bias. -/
def gate (pr : Fin 16384 → Fin 2048 → EReal) (hid : FVec Ideal SBxH .f32) (W : FVec Ideal S2HxH .f32)
    (b : FVec Ideal SH .f32) (p : Fin 16384) (q : Fin 2048) : EReal :=
  ((∑ k : Fin 2048, pr p k * W (ix2 (lo k) q)) + (∑ k : Fin 2048, hid (ix2 p k) * W (ix2 (hi k) q))) + b (ix1 q)

/-- The attention-like term's pre-activation. -/
def errPre (err : FVec Ideal SBxH .f32) (We : FVec Ideal SHxH .f32) (be : FVec Ideal SH .f32)
    (p : Fin 16384) (q : Fin 2048) : EReal :=
  (∑ k : Fin 2048, err (ix2 p k) * We (ix2 k q)) + be (ix1 q)

/-- The new cell state at (p, q). -/
def cellAt (x : FVec Ideal SBxI .f32) (hid cell err : FVec Ideal SBxH .f32) (unc : FVec Ideal SBxHx1 .f32)
    (Wp : FVec Ideal SIxH .f32) (bp : FVec Ideal SH .f32)
    (Wf : FVec Ideal S2HxH .f32) (bf : FVec Ideal SH .f32) (Wi : FVec Ideal S2HxH .f32) (bi : FVec Ideal SH .f32)
    (Wc : FVec Ideal S2HxH .f32) (bc : FVec Ideal SH .f32)
    (We : FVec Ideal SHxH .f32) (be : FVec Ideal SH .f32) (ts : FVec Ideal SOne .f32)
    (p : Fin 16384) (q : Fin 2048) : EReal :=
  ((Ideal.logistic (gate (proj x Wp bp) hid Wf bf p q) * (one - unc (ix3 p q 0) * tenth)) * cell (ix2 p q)
    + ((Ideal.logistic (gate (proj x Wp bp) hid Wi bi p q) * (one + unc (ix3 p q 0)))
        * Ideal.tanh (gate (proj x Wp bp) hid Wc bc p q)) * Ideal.logistic (errPre err We be p q))
    * ts (ix1 0)

/-- The new cell state, as an array. -/
def cellOut (x : FVec Ideal SBxI .f32) (hid cell err : FVec Ideal SBxH .f32) (unc : FVec Ideal SBxHx1 .f32)
    (Wp : FVec Ideal SIxH .f32) (bp : FVec Ideal SH .f32)
    (Wf : FVec Ideal S2HxH .f32) (bf : FVec Ideal SH .f32) (Wi : FVec Ideal S2HxH .f32) (bi : FVec Ideal SH .f32)
    (Wc : FVec Ideal S2HxH .f32) (bc : FVec Ideal SH .f32)
    (We : FVec Ideal SHxH .f32) (be : FVec Ideal SH .f32) (ts : FVec Ideal SOne .f32) : FVec Ideal SBxH .f32 :=
  fun j => cellAt x hid cell err unc Wp bp Wf bf Wi bi Wc bc We be ts (j 0) (j 1)

/-- The new hidden state, as an array: the output gate times tanh of the new cell state. -/
def hiddenOut (x : FVec Ideal SBxI .f32) (hid cell err : FVec Ideal SBxH .f32) (unc : FVec Ideal SBxHx1 .f32)
    (Wp : FVec Ideal SIxH .f32) (bp : FVec Ideal SH .f32)
    (Wf : FVec Ideal S2HxH .f32) (bf : FVec Ideal SH .f32) (Wi : FVec Ideal S2HxH .f32) (bi : FVec Ideal SH .f32)
    (Wc : FVec Ideal S2HxH .f32) (bc : FVec Ideal SH .f32) (Wo : FVec Ideal S2HxH .f32) (bo : FVec Ideal SH .f32)
    (We : FVec Ideal SHxH .f32) (be : FVec Ideal SH .f32) (ts : FVec Ideal SOne .f32) : FVec Ideal SBxH .f32 :=
  fun j => Ideal.logistic (gate (proj x Wp bp) hid Wo bo (j 0) (j 1))
    * Ideal.tanh (cellAt x hid cell err unc Wp bp Wf bf Wi bi Wc bc We be ts (j 0) (j 1))

/-- A sum over the 2·H rows is the sum over the upper H rows plus the sum over the lower H rows: in any commutative
    additive monoid, so in particular on the extended reals with no finiteness assumption. -/
theorem sum_lo_hi {M : Type*} [AddCommMonoid M] (f : Fin 4096 → M) :
    (∑ k : Fin 4096, f k) = (∑ k : Fin 2048, f (lo k)) + (∑ k : Fin 2048, f (hi k)) := by
  have h := Fin.sum_univ_add (a := 2048) (b := 2048) (fun k : Fin (2048 + 2048) => f k)
  refine h.trans ?_
  congr 1

end Cert.GatedCell

end
-- ==== Proof.KernelIdealValue1.lean ====
/-
  What the second region leaves in its two output arrays, as functions of the arrays it finds.  With
  gate(W, b)[r,s] = ((∑ k, P[r,k] · W[k,s]) + (∑ k, H[r,k] · W[2048+k,s])) + b[0,s] (P the projection, H the hidden
  state), the new cell entry is
    ((σ(gate(Wf,bf)) · (1 − U · 0.1)) · C + ((σ(gate(Wi,bi)) · (1 + U)) · tanh(gate(Wc,bc))) · σ((∑ k, E[r,k] · We[k,s]) + be[0,s])) · T[0,0]
  and the new hidden entry σ(gate(Wo,bo)) · tanh(new cell entry).  Point t = 8·b + h of the grid writes back the
  (row tile b, column tile h) of those functions — each input block read where the output's rectangle says: a row
  tile of P, H, E; the same tile of C and U; rows 0…2047 (upper window) or 2048…4095 (lower window) and column tile h
  of a gate's weight matrix; column tile h of We and of every bias row — and the 32 × 8 tiles cover the arrays.
-/
import proofs.«149773_j65532611002879_2_alg».proof.Proof.KernelIdealRegion1
import proofs.«149773_j65532611002879_2_alg».proof.Proof.KernelIdealPay
import proofs.«149773_j65532611002879_2_alg».proof.Proof.KernelIdealValue0
import proofs.«149773_j65532611002879_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay

open Cert

variable (V : (c : Dev nD) → (b : Ref sig .tc) → Buf (Elt Ideal) ((c : Thread nD τ).loc b))

/-- A gate's pre-activation at (r, s) from whole arrays. -/
def gateG (P H : S16384x2048.Idx → EReal) (W : S4096x2048.Idx → EReal) (b : S1x2048.Idx → EReal)
    (r : Fin 16384) (s : Fin 2048) : EReal :=
  ((∑ k : Fin 2048, P (ix2 r k) * W (ix2 (GatedCell.lo k) s)) + (∑ k : Fin 2048, H (ix2 r k) * W (ix2 (GatedCell.hi k) s)))
    + b (ix2 (0 : Fin 1) s)

/-- The new cell state as a function of whole arrays. -/
def cellG (T : S1x1.Idx → EReal) (P H C E U : S16384x2048.Idx → EReal) (Wf Wi Wc : S4096x2048.Idx → EReal)
    (We : S2048x2048.Idx → EReal) (bf bi bc be : S1x2048.Idx → EReal) : S16384x2048.Idx → EReal :=
  fun i => ((Ideal.logistic (gateG P H Wf bf (i 0) (i 1)) * (Ideal.ofBits .f32 0x3F800000#32 - U i * Ideal.ofBits .f32 0x3DCCCCCD#32)) * C i
    + ((Ideal.logistic (gateG P H Wi bi (i 0) (i 1)) * (Ideal.ofBits .f32 0x3F800000#32 + U i)) * Ideal.tanh (gateG P H Wc bc (i 0) (i 1)))
        * Ideal.logistic ((∑ k : Fin 2048, E (ix2 (i 0) k) * We (ix2 k (i 1))) + be (ix2 (0 : Fin 1) (i 1))))
    * T (ix2 (0 : Fin 1) (0 : Fin 1))

/-- The new hidden state as a function of whole arrays. -/
def hidG (T : S1x1.Idx → EReal) (P H C E U : S16384x2048.Idx → EReal) (Wf Wi Wc Wo : S4096x2048.Idx → EReal)
    (We : S2048x2048.Idx → EReal) (bf bi bc bo be : S1x2048.Idx → EReal) : S16384x2048.Idx → EReal :=
  fun i => Ideal.logistic (gateG P H Wo bo (i 0) (i 1)) * Ideal.tanh (cellG T P H C E U Wf Wi Wc We bf bi bc be i)

/-- The body's cell tile at (p, q), from its twenty input blocks. -/
theorem cellPay_apply (x0 : Vec Ideal S1x1 .f32) (x1 : Vec Ideal S512x2048 .bf16) (x2 : Vec Ideal S512x2048 .bf16) (x3 : Vec Ideal S512x256 .f32) (x4 : Vec Ideal S512x2048 .bf16) (x5 : Vec Ideal S512x256 .f32) (x6 : Vec Ideal S2048x256 .bf16) (x7 : Vec Ideal S2048x256 .bf16) (x8 : Vec Ideal S2048x256 .bf16) (x9 : Vec Ideal S2048x256 .bf16) (x10 : Vec Ideal S2048x256 .bf16) (x11 : Vec Ideal S2048x256 .bf16) (x12 : Vec Ideal S2048x256 .bf16) (x13 : Vec Ideal S2048x256 .bf16) (x14 : Vec Ideal S2048x256 .bf16) (x15 : Vec Ideal S1x256 .f32) (x16 : Vec Ideal S1x256 .f32) (x17 : Vec Ideal S1x256 .f32) (x18 : Vec Ideal S1x256 .f32) (x19 : Vec Ideal S1x256 .f32) (p : Fin 512) (q : Fin 256) :
    cellPay (F := Ideal) x0 x1 x2 x3 x4 x5 x6 x7 x8 x9 x10 x11 x12 x13 x14 x15 x16 x17 x18 x19 (ix2 p q)
      = ((Ideal.logistic (gatePre x1 x2 x6 x7 x15 p q) * (Ideal.ofBits .f32 0x3F800000#32 - x5 (ix2 p q) * Ideal.ofBits .f32 0x3DCCCCCD#32)) * x3 (ix2 p q)
        + ((Ideal.logistic (gatePre x1 x2 x8 x9 x16 p q) * (Ideal.ofBits .f32 0x3F800000#32 + x5 (ix2 p q))) * Ideal.tanh (gatePre x1 x2 x10 x11 x17 p q))
            * Ideal.logistic ((∑ k : Fin 2048, x4 (ix2 p k) * x14 (ix2 k q)) + x19 (ix2 (0 : Fin 1) q)))
        * x0 (ix2 (0 : Fin 1) (0 : Fin 1)) := by
  unfold cellPay
  simp only [View.ld_unit_zero (S := S1x1) hz, View.ld_unit_zero (S := S512x2048) hz, View.ld_unit_zero (S := S512x256) hz,
    View.ld_unit_zero (S := S2048x256) hz, View.ld_unit_zero (S := S1x256) hz]
  rw [pay1_apply]
  simp only [pay3_eq, pay4_eq, pay5_eq, pay6_apply, pay7_apply, pay8_apply, pay9_apply, pay11_apply, pay13_apply, pay14_apply, pay15_apply]
  unfold gatePre
  rfl

/-- The body's hidden tile at (p, q): the output gate times tanh of its cell tile there. -/
theorem hidPay_apply (x0 : Vec Ideal S1x1 .f32) (x1 : Vec Ideal S512x2048 .bf16) (x2 : Vec Ideal S512x2048 .bf16) (x3 : Vec Ideal S512x256 .f32) (x4 : Vec Ideal S512x2048 .bf16) (x5 : Vec Ideal S512x256 .f32) (x6 : Vec Ideal S2048x256 .bf16) (x7 : Vec Ideal S2048x256 .bf16) (x8 : Vec Ideal S2048x256 .bf16) (x9 : Vec Ideal S2048x256 .bf16) (x10 : Vec Ideal S2048x256 .bf16) (x11 : Vec Ideal S2048x256 .bf16) (x12 : Vec Ideal S2048x256 .bf16) (x13 : Vec Ideal S2048x256 .bf16) (x14 : Vec Ideal S2048x256 .bf16) (x15 : Vec Ideal S1x256 .f32) (x16 : Vec Ideal S1x256 .f32) (x17 : Vec Ideal S1x256 .f32) (x18 : Vec Ideal S1x256 .f32) (x19 : Vec Ideal S1x256 .f32) (p : Fin 512) (q : Fin 256) :
    hidPay (F := Ideal) x0 x1 x2 x3 x4 x5 x6 x7 x8 x9 x10 x11 x12 x13 x14 x15 x16 x17 x18 x19 (ix2 p q)
      = Ideal.logistic (gatePre x1 x2 x12 x13 x18 p q) * Ideal.tanh (cellPay (F := Ideal) x0 x1 x2 x3 x4 x5 x6 x7 x8 x9 x10 x11 x12 x13 x14 x15 x16 x17 x18 x19 (ix2 p q)) := by
  unfold hidPay cellPay
  rw [pay2_apply]
  simp only [View.ld_unit_zero (S := S512x2048) hz, View.ld_unit_zero (S := S2048x256) hz, View.ld_unit_zero (S := S1x256) hz,
    pay3_eq, pay4_eq, pay10_apply]

theorem iblk1_at_0 (c : Dev nD) (t : Fin cfg1.N) (y : S1x1.Idx) :
    iblk1 V c 0 t y = V c main_v14 (((cfg1.win 0).blk t).view.emb y) := rfl
theorem iblk1_at_1 (c : Dev nD) (t : Fin cfg1.N) (y : S512x2048.Idx) :
    iblk1 V c 1 t y = V c main_v16 (((cfg1.win 1).blk t).view.emb y) := rfl
theorem iblk1_at_2 (c : Dev nD) (t : Fin cfg1.N) (y : S512x2048.Idx) :
    iblk1 V c 2 t y = V c main_v6 (((cfg1.win 2).blk t).view.emb y) := rfl
theorem iblk1_at_3 (c : Dev nD) (t : Fin cfg1.N) (y : S512x256.Idx) :
    iblk1 V c 3 t y = V c main_arg2 (((cfg1.win 3).blk t).view.emb y) := rfl
theorem iblk1_at_4 (c : Dev nD) (t : Fin cfg1.N) (y : S512x2048.Idx) :
    iblk1 V c 4 t y = V c main_v7 (((cfg1.win 4).blk t).view.emb y) := rfl
theorem iblk1_at_5 (c : Dev nD) (t : Fin cfg1.N) (y : S512x256.Idx) :
    iblk1 V c 5 t y = V c main_v15 (((cfg1.win 5).blk t).view.emb y) := rfl
theorem iblk1_at_6 (c : Dev nD) (t : Fin cfg1.N) (y : S2048x256.Idx) :
    iblk1 V c 6 t y = V c main_v2 (((cfg1.win 6).blk t).view.emb y) := rfl
theorem iblk1_at_7 (c : Dev nD) (t : Fin cfg1.N) (y : S2048x256.Idx) :
    iblk1 V c 7 t y = V c main_v2 (((cfg1.win 7).blk t).view.emb y) := rfl
theorem iblk1_at_8 (c : Dev nD) (t : Fin cfg1.N) (y : S2048x256.Idx) :
    iblk1 V c 8 t y = V c main_v3 (((cfg1.win 8).blk t).view.emb y) := rfl
theorem iblk1_at_9 (c : Dev nD) (t : Fin cfg1.N) (y : S2048x256.Idx) :
    iblk1 V c 9 t y = V c main_v3 (((cfg1.win 9).blk t).view.emb y) := rfl
theorem iblk1_at_10 (c : Dev nD) (t : Fin cfg1.N) (y : S2048x256.Idx) :
    iblk1 V c 10 t y = V c main_v4 (((cfg1.win 10).blk t).view.emb y) := rfl
theorem iblk1_at_11 (c : Dev nD) (t : Fin cfg1.N) (y : S2048x256.Idx) :
    iblk1 V c 11 t y = V c main_v4 (((cfg1.win 11).blk t).view.emb y) := rfl
theorem iblk1_at_12 (c : Dev nD) (t : Fin cfg1.N) (y : S2048x256.Idx) :
    iblk1 V c 12 t y = V c main_v5 (((cfg1.win 12).blk t).view.emb y) := rfl
theorem iblk1_at_13 (c : Dev nD) (t : Fin cfg1.N) (y : S2048x256.Idx) :
    iblk1 V c 13 t y = V c main_v5 (((cfg1.win 13).blk t).view.emb y) := rfl
theorem iblk1_at_14 (c : Dev nD) (t : Fin cfg1.N) (y : S2048x256.Idx) :
    iblk1 V c 14 t y = V c main_v1 (((cfg1.win 14).blk t).view.emb y) := rfl
theorem iblk1_at_15 (c : Dev nD) (t : Fin cfg1.N) (y : S1x256.Idx) :
    iblk1 V c 15 t y = V c main_v10 (((cfg1.win 15).blk t).view.emb y) := rfl
theorem iblk1_at_16 (c : Dev nD) (t : Fin cfg1.N) (y : S1x256.Idx) :
    iblk1 V c 16 t y = V c main_v11 (((cfg1.win 16).blk t).view.emb y) := rfl
theorem iblk1_at_17 (c : Dev nD) (t : Fin cfg1.N) (y : S1x256.Idx) :
    iblk1 V c 17 t y = V c main_v12 (((cfg1.win 17).blk t).view.emb y) := rfl
theorem iblk1_at_18 (c : Dev nD) (t : Fin cfg1.N) (y : S1x256.Idx) :
    iblk1 V c 18 t y = V c main_v13 (((cfg1.win 18).blk t).view.emb y) := rfl
theorem iblk1_at_19 (c : Dev nD) (t : Fin cfg1.N) (y : S1x256.Idx) :
    iblk1 V c 19 t y = V c main_v9 (((cfg1.win 19).blk t).view.emb y) := rfl

/-! The printed index maps over the 256 points, window by window, against the output tile's (row tile, column tile);
    where each window's rectangle at a point puts an entry of its block; and each block entry read off its array. -/

theorem idxO : ∀ t : Fin cfg1.N, win1_21.index t (0 : Fin 2) = t.val / 8 ∧ win1_21.index t (1 : Fin 2) = t.val % 8 :=
  (by decide +kernel : ∀ t : Fin grid1.N, _)

theorem idxw_0 : ∀ t : Fin cfg1.N, win1_0.index t (0 : Fin 2) = 0 ∧ win1_0.index t (1 : Fin 2) = 0 :=
  (by decide +kernel : ∀ t : Fin grid1.N, _)
theorem emb1_0 (t : Fin cfg1.N)  :
    ((cfg1.win 0).blk t).view.emb (ix2 (0 : Fin 1) (0 : Fin 1)) = (ix2 (0 : Fin 1) (0 : Fin 1) : S1x1.Idx) := by
  obtain ⟨fa, fb⟩ := idxw_0 t
  funext a; apply Fin.ext
  match a with
  | ⟨0, _⟩ => show win1_0.index t (0 : Fin 2) * 1 + 1 * 0 = 0; omega
  | ⟨1, _⟩ => show win1_0.index t (1 : Fin 2) * 1 + 1 * 0 = 0; omega
theorem blk1_0 (c : Dev nD) (t : Fin cfg1.N)  :
    iblk1 V c 0 t (ix2 (0 : Fin 1) (0 : Fin 1)) = V c main_v14 (ix2 (0 : Fin 1) (0 : Fin 1)) := by
  rw [iblk1_at_0, emb1_0 t ]

theorem idxw_1 : ∀ t : Fin cfg1.N, win1_1.index t (0 : Fin 2) = win1_21.index t (0 : Fin 2) ∧ win1_1.index t (1 : Fin 2) = 0 :=
  (by decide +kernel : ∀ t : Fin grid1.N, _)
theorem emb1_1 (t : Fin cfg1.N) (p : Fin 512) (k : Fin 2048) (r : Fin 16384) (hr : r.val = win1_21.index t (0 : Fin 2) * 512 + p.val) :
    ((cfg1.win 1).blk t).view.emb (ix2 p k) = (ix2 r k : S16384x2048.Idx) := by
  obtain ⟨fa, fb⟩ := idxw_1 t
  funext a; apply Fin.ext
  match a with
  | ⟨0, _⟩ => show win1_1.index t (0 : Fin 2) * 512 + 1 * p.val = r.val; omega
  | ⟨1, _⟩ => show win1_1.index t (1 : Fin 2) * 2048 + 1 * k.val = k.val; omega
theorem blk1_1 (c : Dev nD) (t : Fin cfg1.N) (p : Fin 512) (k : Fin 2048) (r : Fin 16384) (hr : r.val = win1_21.index t (0 : Fin 2) * 512 + p.val) :
    iblk1 V c 1 t (ix2 p k) = V c main_v16 (ix2 r k) := by
  rw [iblk1_at_1, emb1_1 t p k r hr]

theorem idxw_2 : ∀ t : Fin cfg1.N, win1_2.index t (0 : Fin 2) = win1_21.index t (0 : Fin 2) ∧ win1_2.index t (1 : Fin 2) = 0 :=
  (by decide +kernel : ∀ t : Fin grid1.N, _)
theorem emb1_2 (t : Fin cfg1.N) (p : Fin 512) (k : Fin 2048) (r : Fin 16384) (hr : r.val = win1_21.index t (0 : Fin 2) * 512 + p.val) :
    ((cfg1.win 2).blk t).view.emb (ix2 p k) = (ix2 r k : S16384x2048.Idx) := by
  obtain ⟨fa, fb⟩ := idxw_2 t
  funext a; apply Fin.ext
  match a with
  | ⟨0, _⟩ => show win1_2.index t (0 : Fin 2) * 512 + 1 * p.val = r.val; omega
  | ⟨1, _⟩ => show win1_2.index t (1 : Fin 2) * 2048 + 1 * k.val = k.val; omega
theorem blk1_2 (c : Dev nD) (t : Fin cfg1.N) (p : Fin 512) (k : Fin 2048) (r : Fin 16384) (hr : r.val = win1_21.index t (0 : Fin 2) * 512 + p.val) :
    iblk1 V c 2 t (ix2 p k) = V c main_v6 (ix2 r k) := by
  rw [iblk1_at_2, emb1_2 t p k r hr]

theorem idxw_3 : ∀ t : Fin cfg1.N, win1_3.index t (0 : Fin 2) = win1_21.index t (0 : Fin 2) ∧ win1_3.index t (1 : Fin 2) = win1_21.index t (1 : Fin 2) :=
  (by decide +kernel : ∀ t : Fin grid1.N, _)
theorem emb1_3 (t : Fin cfg1.N) (p : Fin 512) (q : Fin 256) (r : Fin 16384) (s : Fin 2048) (hr : r.val = win1_21.index t (0 : Fin 2) * 512 + p.val) (hs : s.val = win1_21.index t (1 : Fin 2) * 256 + q.val) :
    ((cfg1.win 3).blk t).view.emb (ix2 p q) = (ix2 r s : S16384x2048.Idx) := by
  obtain ⟨fa, fb⟩ := idxw_3 t
  funext a; apply Fin.ext
  match a with
  | ⟨0, _⟩ => show win1_3.index t (0 : Fin 2) * 512 + 1 * p.val = r.val; omega
  | ⟨1, _⟩ => show win1_3.index t (1 : Fin 2) * 256 + 1 * q.val = s.val; omega
theorem blk1_3 (c : Dev nD) (t : Fin cfg1.N) (p : Fin 512) (q : Fin 256) (r : Fin 16384) (s : Fin 2048) (hr : r.val = win1_21.index t (0 : Fin 2) * 512 + p.val) (hs : s.val = win1_21.index t (1 : Fin 2) * 256 + q.val) :
    iblk1 V c 3 t (ix2 p q) = V c main_arg2 (ix2 r s) := by
  rw [iblk1_at_3, emb1_3 t p q r s hr hs]

theorem idxw_4 : ∀ t : Fin cfg1.N, win1_4.index t (0 : Fin 2) = win1_21.index t (0 : Fin 2) ∧ win1_4.index t (1 : Fin 2) = 0 :=
  (by decide +kernel : ∀ t : Fin grid1.N, _)
theorem emb1_4 (t : Fin cfg1.N) (p : Fin 512) (k : Fin 2048) (r : Fin 16384) (hr : r.val = win1_21.index t (0 : Fin 2) * 512 + p.val) :
    ((cfg1.win 4).blk t).view.emb (ix2 p k) = (ix2 r k : S16384x2048.Idx) := by
  obtain ⟨fa, fb⟩ := idxw_4 t
  funext a; apply Fin.ext
  match a with
  | ⟨0, _⟩ => show win1_4.index t (0 : Fin 2) * 512 + 1 * p.val = r.val; omega
  | ⟨1, _⟩ => show win1_4.index t (1 : Fin 2) * 2048 + 1 * k.val = k.val; omega
theorem blk1_4 (c : Dev nD) (t : Fin cfg1.N) (p : Fin 512) (k : Fin 2048) (r : Fin 16384) (hr : r.val = win1_21.index t (0 : Fin 2) * 512 + p.val) :
    iblk1 V c 4 t (ix2 p k) = V c main_v7 (ix2 r k) := by
  rw [iblk1_at_4, emb1_4 t p k r hr]

theorem idxw_5 : ∀ t : Fin cfg1.N, win1_5.index t (0 : Fin 2) = win1_21.index t (0 : Fin 2) ∧ win1_5.index t (1 : Fin 2) = win1_21.index t (1 : Fin 2) :=
  (by decide +kernel : ∀ t : Fin grid1.N, _)
theorem emb1_5 (t : Fin cfg1.N) (p : Fin 512) (q : Fin 256) (r : Fin 16384) (s : Fin 2048) (hr : r.val = win1_21.index t (0 : Fin 2) * 512 + p.val) (hs : s.val = win1_21.index t (1 : Fin 2) * 256 + q.val) :
    ((cfg1.win 5).blk t).view.emb (ix2 p q) = (ix2 r s : S16384x2048.Idx) := by
  obtain ⟨fa, fb⟩ := idxw_5 t
  funext a; apply Fin.ext
  match a with
  | ⟨0, _⟩ => show win1_5.index t (0 : Fin 2) * 512 + 1 * p.val = r.val; omega
  | ⟨1, _⟩ => show win1_5.index t (1 : Fin 2) * 256 + 1 * q.val = s.val; omega
theorem blk1_5 (c : Dev nD) (t : Fin cfg1.N) (p : Fin 512) (q : Fin 256) (r : Fin 16384) (s : Fin 2048) (hr : r.val = win1_21.index t (0 : Fin 2) * 512 + p.val) (hs : s.val = win1_21.index t (1 : Fin 2) * 256 + q.val) :
    iblk1 V c 5 t (ix2 p q) = V c main_v15 (ix2 r s) := by
  rw [iblk1_at_5, emb1_5 t p q r s hr hs]

theorem idxw_6 : ∀ t : Fin cfg1.N, win1_6.index t (0 : Fin 2) = 0 ∧ win1_6.index t (1 : Fin 2) = win1_21.index t (1 : Fin 2) :=
  (by decide +kernel : ∀ t : Fin grid1.N, _)
theorem emb1_6 (t : Fin cfg1.N) (k : Fin 2048) (q : Fin 256) (s : Fin 2048) (hs : s.val = win1_21.index t (1 : Fin 2) * 256 + q.val) :
    ((cfg1.win 6).blk t).view.emb (ix2 k q) = (ix2 (GatedCell.lo k) s : S4096x2048.Idx) := by
  obtain ⟨fa, fb⟩ := idxw_6 t
  funext a; apply Fin.ext
  match a with
  | ⟨0, _⟩ => show win1_6.index t (0 : Fin 2) * 2048 + 1 * k.val = (GatedCell.lo k).val; have hk : (GatedCell.lo k).val = k.val := rfl; omega
  | ⟨1, _⟩ => show win1_6.index t (1 : Fin 2) * 256 + 1 * q.val = s.val; omega
theorem blk1_6 (c : Dev nD) (t : Fin cfg1.N) (k : Fin 2048) (q : Fin 256) (s : Fin 2048) (hs : s.val = win1_21.index t (1 : Fin 2) * 256 + q.val) :
    iblk1 V c 6 t (ix2 k q) = V c main_v2 (ix2 (GatedCell.lo k) s) := by
  rw [iblk1_at_6, emb1_6 t k q s hs]

theorem idxw_7 : ∀ t : Fin cfg1.N, win1_7.index t (0 : Fin 2) = 1 ∧ win1_7.index t (1 : Fin 2) = win1_21.index t (1 : Fin 2) :=
  (by decide +kernel : ∀ t : Fin grid1.N, _)
theorem emb1_7 (t : Fin cfg1.N) (k : Fin 2048) (q : Fin 256) (s : Fin 2048) (hs : s.val = win1_21.index t (1 : Fin 2) * 256 + q.val) :
    ((cfg1.win 7).blk t).view.emb (ix2 k q) = (ix2 (GatedCell.hi k) s : S4096x2048.Idx) := by
  obtain ⟨fa, fb⟩ := idxw_7 t
  funext a; apply Fin.ext
  match a with
  | ⟨0, _⟩ => show win1_7.index t (0 : Fin 2) * 2048 + 1 * k.val = (GatedCell.hi k).val; have hk : (GatedCell.hi k).val = 2048 + k.val := rfl; omega
  | ⟨1, _⟩ => show win1_7.index t (1 : Fin 2) * 256 + 1 * q.val = s.val; omega
theorem blk1_7 (c : Dev nD) (t : Fin cfg1.N) (k : Fin 2048) (q : Fin 256) (s : Fin 2048) (hs : s.val = win1_21.index t (1 : Fin 2) * 256 + q.val) :
    iblk1 V c 7 t (ix2 k q) = V c main_v2 (ix2 (GatedCell.hi k) s) := by
  rw [iblk1_at_7, emb1_7 t k q s hs]

theorem idxw_8 : ∀ t : Fin cfg1.N, win1_8.index t (0 : Fin 2) = 0 ∧ win1_8.index t (1 : Fin 2) = win1_21.index t (1 : Fin 2) :=
  (by decide +kernel : ∀ t : Fin grid1.N, _)
theorem emb1_8 (t : Fin cfg1.N) (k : Fin 2048) (q : Fin 256) (s : Fin 2048) (hs : s.val = win1_21.index t (1 : Fin 2) * 256 + q.val) :
    ((cfg1.win 8).blk t).view.emb (ix2 k q) = (ix2 (GatedCell.lo k) s : S4096x2048.Idx) := by
  obtain ⟨fa, fb⟩ := idxw_8 t
  funext a; apply Fin.ext
  match a with
  | ⟨0, _⟩ => show win1_8.index t (0 : Fin 2) * 2048 + 1 * k.val = (GatedCell.lo k).val; have hk : (GatedCell.lo k).val = k.val := rfl; omega
  | ⟨1, _⟩ => show win1_8.index t (1 : Fin 2) * 256 + 1 * q.val = s.val; omega
theorem blk1_8 (c : Dev nD) (t : Fin cfg1.N) (k : Fin 2048) (q : Fin 256) (s : Fin 2048) (hs : s.val = win1_21.index t (1 : Fin 2) * 256 + q.val) :
    iblk1 V c 8 t (ix2 k q) = V c main_v3 (ix2 (GatedCell.lo k) s) := by
  rw [iblk1_at_8, emb1_8 t k q s hs]

theorem idxw_9 : ∀ t : Fin cfg1.N, win1_9.index t (0 : Fin 2) = 1 ∧ win1_9.index t (1 : Fin 2) = win1_21.index t (1 : Fin 2) :=
  (by decide +kernel : ∀ t : Fin grid1.N, _)
theorem emb1_9 (t : Fin cfg1.N) (k : Fin 2048) (q : Fin 256) (s : Fin 2048) (hs : s.val = win1_21.index t (1 : Fin 2) * 256 + q.val) :
    ((cfg1.win 9).blk t).view.emb (ix2 k q) = (ix2 (GatedCell.hi k) s : S4096x2048.Idx) := by
  obtain ⟨fa, fb⟩ := idxw_9 t
  funext a; apply Fin.ext
  match a with
  | ⟨0, _⟩ => show win1_9.index t (0 : Fin 2) * 2048 + 1 * k.val = (GatedCell.hi k).val; have hk : (GatedCell.hi k).val = 2048 + k.val := rfl; omega
  | ⟨1, _⟩ => show win1_9.index t (1 : Fin 2) * 256 + 1 * q.val = s.val; omega
theorem blk1_9 (c : Dev nD) (t : Fin cfg1.N) (k : Fin 2048) (q : Fin 256) (s : Fin 2048) (hs : s.val = win1_21.index t (1 : Fin 2) * 256 + q.val) :
    iblk1 V c 9 t (ix2 k q) = V c main_v3 (ix2 (GatedCell.hi k) s) := by
  rw [iblk1_at_9, emb1_9 t k q s hs]

theorem idxw_10 : ∀ t : Fin cfg1.N, win1_10.index t (0 : Fin 2) = 0 ∧ win1_10.index t (1 : Fin 2) = win1_21.index t (1 : Fin 2) :=
  (by decide +kernel : ∀ t : Fin grid1.N, _)
theorem emb1_10 (t : Fin cfg1.N) (k : Fin 2048) (q : Fin 256) (s : Fin 2048) (hs : s.val = win1_21.index t (1 : Fin 2) * 256 + q.val) :
    ((cfg1.win 10).blk t).view.emb (ix2 k q) = (ix2 (GatedCell.lo k) s : S4096x2048.Idx) := by
  obtain ⟨fa, fb⟩ := idxw_10 t
  funext a; apply Fin.ext
  match a with
  | ⟨0, _⟩ => show win1_10.index t (0 : Fin 2) * 2048 + 1 * k.val = (GatedCell.lo k).val; have hk : (GatedCell.lo k).val = k.val := rfl; omega
  | ⟨1, _⟩ => show win1_10.index t (1 : Fin 2) * 256 + 1 * q.val = s.val; omega
theorem blk1_10 (c : Dev nD) (t : Fin cfg1.N) (k : Fin 2048) (q : Fin 256) (s : Fin 2048) (hs : s.val = win1_21.index t (1 : Fin 2) * 256 + q.val) :
    iblk1 V c 10 t (ix2 k q) = V c main_v4 (ix2 (GatedCell.lo k) s) := by
  rw [iblk1_at_10, emb1_10 t k q s hs]

theorem idxw_11 : ∀ t : Fin cfg1.N, win1_11.index t (0 : Fin 2) = 1 ∧ win1_11.index t (1 : Fin 2) = win1_21.index t (1 : Fin 2) :=
  (by decide +kernel : ∀ t : Fin grid1.N, _)
theorem emb1_11 (t : Fin cfg1.N) (k : Fin 2048) (q : Fin 256) (s : Fin 2048) (hs : s.val = win1_21.index t (1 : Fin 2) * 256 + q.val) :
    ((cfg1.win 11).blk t).view.emb (ix2 k q) = (ix2 (GatedCell.hi k) s : S4096x2048.Idx) := by
  obtain ⟨fa, fb⟩ := idxw_11 t
  funext a; apply Fin.ext
  match a with
  | ⟨0, _⟩ => show win1_11.index t (0 : Fin 2) * 2048 + 1 * k.val = (GatedCell.hi k).val; have hk : (GatedCell.hi k).val = 2048 + k.val := rfl; omega
  | ⟨1, _⟩ => show win1_11.index t (1 : Fin 2) * 256 + 1 * q.val = s.val; omega
theorem blk1_11 (c : Dev nD) (t : Fin cfg1.N) (k : Fin 2048) (q : Fin 256) (s : Fin 2048) (hs : s.val = win1_21.index t (1 : Fin 2) * 256 + q.val) :
    iblk1 V c 11 t (ix2 k q) = V c main_v4 (ix2 (GatedCell.hi k) s) := by
  rw [iblk1_at_11, emb1_11 t k q s hs]

theorem idxw_12 : ∀ t : Fin cfg1.N, win1_12.index t (0 : Fin 2) = 0 ∧ win1_12.index t (1 : Fin 2) = win1_21.index t (1 : Fin 2) :=
  (by decide +kernel : ∀ t : Fin grid1.N, _)
theorem emb1_12 (t : Fin cfg1.N) (k : Fin 2048) (q : Fin 256) (s : Fin 2048) (hs : s.val = win1_21.index t (1 : Fin 2) * 256 + q.val) :
    ((cfg1.win 12).blk t).view.emb (ix2 k q) = (ix2 (GatedCell.lo k) s : S4096x2048.Idx) := by
  obtain ⟨fa, fb⟩ := idxw_12 t
  funext a; apply Fin.ext
  match a with
  | ⟨0, _⟩ => show win1_12.index t (0 : Fin 2) * 2048 + 1 * k.val = (GatedCell.lo k).val; have hk : (GatedCell.lo k).val = k.val := rfl; omega
  | ⟨1, _⟩ => show win1_12.index t (1 : Fin 2) * 256 + 1 * q.val = s.val; omega
theorem blk1_12 (c : Dev nD) (t : Fin cfg1.N) (k : Fin 2048) (q : Fin 256) (s : Fin 2048) (hs : s.val = win1_21.index t (1 : Fin 2) * 256 + q.val) :
    iblk1 V c 12 t (ix2 k q) = V c main_v5 (ix2 (GatedCell.lo k) s) := by
  rw [iblk1_at_12, emb1_12 t k q s hs]

theorem idxw_13 : ∀ t : Fin cfg1.N, win1_13.index t (0 : Fin 2) = 1 ∧ win1_13.index t (1 : Fin 2) = win1_21.index t (1 : Fin 2) :=
  (by decide +kernel : ∀ t : Fin grid1.N, _)
theorem emb1_13 (t : Fin cfg1.N) (k : Fin 2048) (q : Fin 256) (s : Fin 2048) (hs : s.val = win1_21.index t (1 : Fin 2) * 256 + q.val) :
    ((cfg1.win 13).blk t).view.emb (ix2 k q) = (ix2 (GatedCell.hi k) s : S4096x2048.Idx) := by
  obtain ⟨fa, fb⟩ := idxw_13 t
  funext a; apply Fin.ext
  match a with
  | ⟨0, _⟩ => show win1_13.index t (0 : Fin 2) * 2048 + 1 * k.val = (GatedCell.hi k).val; have hk : (GatedCell.hi k).val = 2048 + k.val := rfl; omega
  | ⟨1, _⟩ => show win1_13.index t (1 : Fin 2) * 256 + 1 * q.val = s.val; omega
theorem blk1_13 (c : Dev nD) (t : Fin cfg1.N) (k : Fin 2048) (q : Fin 256) (s : Fin 2048) (hs : s.val = win1_21.index t (1 : Fin 2) * 256 + q.val) :
    iblk1 V c 13 t (ix2 k q) = V c main_v5 (ix2 (GatedCell.hi k) s) := by
  rw [iblk1_at_13, emb1_13 t k q s hs]

theorem idxw_14 : ∀ t : Fin cfg1.N, win1_14.index t (0 : Fin 2) = 0 ∧ win1_14.index t (1 : Fin 2) = win1_21.index t (1 : Fin 2) :=
  (by decide +kernel : ∀ t : Fin grid1.N, _)
theorem emb1_14 (t : Fin cfg1.N) (k : Fin 2048) (q : Fin 256) (s : Fin 2048) (hs : s.val = win1_21.index t (1 : Fin 2) * 256 + q.val) :
    ((cfg1.win 14).blk t).view.emb (ix2 k q) = (ix2 k s : S2048x2048.Idx) := by
  obtain ⟨fa, fb⟩ := idxw_14 t
  funext a; apply Fin.ext
  match a with
  | ⟨0, _⟩ => show win1_14.index t (0 : Fin 2) * 2048 + 1 * k.val = k.val; omega
  | ⟨1, _⟩ => show win1_14.index t (1 : Fin 2) * 256 + 1 * q.val = s.val; omega
theorem blk1_14 (c : Dev nD) (t : Fin cfg1.N) (k : Fin 2048) (q : Fin 256) (s : Fin 2048) (hs : s.val = win1_21.index t (1 : Fin 2) * 256 + q.val) :
    iblk1 V c 14 t (ix2 k q) = V c main_v1 (ix2 k s) := by
  rw [iblk1_at_14, emb1_14 t k q s hs]

theorem idxw_15 : ∀ t : Fin cfg1.N, win1_15.index t (0 : Fin 2) = 0 ∧ win1_15.index t (1 : Fin 2) = win1_21.index t (1 : Fin 2) :=
  (by decide +kernel : ∀ t : Fin grid1.N, _)
theorem emb1_15 (t : Fin cfg1.N) (q : Fin 256) (s : Fin 2048) (hs : s.val = win1_21.index t (1 : Fin 2) * 256 + q.val) :
    ((cfg1.win 15).blk t).view.emb (ix2 (0 : Fin 1) q) = (ix2 (0 : Fin 1) s : S1x2048.Idx) := by
  obtain ⟨fa, fb⟩ := idxw_15 t
  funext a; apply Fin.ext
  match a with
  | ⟨0, _⟩ => show win1_15.index t (0 : Fin 2) * 1 + 1 * 0 = 0; omega
  | ⟨1, _⟩ => show win1_15.index t (1 : Fin 2) * 256 + 1 * q.val = s.val; omega
theorem blk1_15 (c : Dev nD) (t : Fin cfg1.N) (q : Fin 256) (s : Fin 2048) (hs : s.val = win1_21.index t (1 : Fin 2) * 256 + q.val) :
    iblk1 V c 15 t (ix2 (0 : Fin 1) q) = V c main_v10 (ix2 (0 : Fin 1) s) := by
  rw [iblk1_at_15, emb1_15 t q s hs]

theorem idxw_16 : ∀ t : Fin cfg1.N, win1_16.index t (0 : Fin 2) = 0 ∧ win1_16.index t (1 : Fin 2) = win1_21.index t (1 : Fin 2) :=
  (by decide +kernel : ∀ t : Fin grid1.N, _)
theorem emb1_16 (t : Fin cfg1.N) (q : Fin 256) (s : Fin 2048) (hs : s.val = win1_21.index t (1 : Fin 2) * 256 + q.val) :
    ((cfg1.win 16).blk t).view.emb (ix2 (0 : Fin 1) q) = (ix2 (0 : Fin 1) s : S1x2048.Idx) := by
  obtain ⟨fa, fb⟩ := idxw_16 t
  funext a; apply Fin.ext
  match a with
  | ⟨0, _⟩ => show win1_16.index t (0 : Fin 2) * 1 + 1 * 0 = 0; omega
  | ⟨1, _⟩ => show win1_16.index t (1 : Fin 2) * 256 + 1 * q.val = s.val; omega
theorem blk1_16 (c : Dev nD) (t : Fin cfg1.N) (q : Fin 256) (s : Fin 2048) (hs : s.val = win1_21.index t (1 : Fin 2) * 256 + q.val) :
    iblk1 V c 16 t (ix2 (0 : Fin 1) q) = V c main_v11 (ix2 (0 : Fin 1) s) := by
  rw [iblk1_at_16, emb1_16 t q s hs]

theorem idxw_17 : ∀ t : Fin cfg1.N, win1_17.index t (0 : Fin 2) = 0 ∧ win1_17.index t (1 : Fin 2) = win1_21.index t (1 : Fin 2) :=
  (by decide +kernel : ∀ t : Fin grid1.N, _)
theorem emb1_17 (t : Fin cfg1.N) (q : Fin 256) (s : Fin 2048) (hs : s.val = win1_21.index t (1 : Fin 2) * 256 + q.val) :
    ((cfg1.win 17).blk t).view.emb (ix2 (0 : Fin 1) q) = (ix2 (0 : Fin 1) s : S1x2048.Idx) := by
  obtain ⟨fa, fb⟩ := idxw_17 t
  funext a; apply Fin.ext
  match a with
  | ⟨0, _⟩ => show win1_17.index t (0 : Fin 2) * 1 + 1 * 0 = 0; omega
  | ⟨1, _⟩ => show win1_17.index t (1 : Fin 2) * 256 + 1 * q.val = s.val; omega
theorem blk1_17 (c : Dev nD) (t : Fin cfg1.N) (q : Fin 256) (s : Fin 2048) (hs : s.val = win1_21.index t (1 : Fin 2) * 256 + q.val) :
    iblk1 V c 17 t (ix2 (0 : Fin 1) q) = V c main_v12 (ix2 (0 : Fin 1) s) := by
  rw [iblk1_at_17, emb1_17 t q s hs]

theorem idxw_18 : ∀ t : Fin cfg1.N, win1_18.index t (0 : Fin 2) = 0 ∧ win1_18.index t (1 : Fin 2) = win1_21.index t (1 : Fin 2) :=
  (by decide +kernel : ∀ t : Fin grid1.N, _)
theorem emb1_18 (t : Fin cfg1.N) (q : Fin 256) (s : Fin 2048) (hs : s.val = win1_21.index t (1 : Fin 2) * 256 + q.val) :
    ((cfg1.win 18).blk t).view.emb (ix2 (0 : Fin 1) q) = (ix2 (0 : Fin 1) s : S1x2048.Idx) := by
  obtain ⟨fa, fb⟩ := idxw_18 t
  funext a; apply Fin.ext
  match a with
  | ⟨0, _⟩ => show win1_18.index t (0 : Fin 2) * 1 + 1 * 0 = 0; omega
  | ⟨1, _⟩ => show win1_18.index t (1 : Fin 2) * 256 + 1 * q.val = s.val; omega
theorem blk1_18 (c : Dev nD) (t : Fin cfg1.N) (q : Fin 256) (s : Fin 2048) (hs : s.val = win1_21.index t (1 : Fin 2) * 256 + q.val) :
    iblk1 V c 18 t (ix2 (0 : Fin 1) q) = V c main_v13 (ix2 (0 : Fin 1) s) := by
  rw [iblk1_at_18, emb1_18 t q s hs]

theorem idxw_19 : ∀ t : Fin cfg1.N, win1_19.index t (0 : Fin 2) = 0 ∧ win1_19.index t (1 : Fin 2) = win1_21.index t (1 : Fin 2) :=
  (by decide +kernel : ∀ t : Fin grid1.N, _)
theorem emb1_19 (t : Fin cfg1.N) (q : Fin 256) (s : Fin 2048) (hs : s.val = win1_21.index t (1 : Fin 2) * 256 + q.val) :
    ((cfg1.win 19).blk t).view.emb (ix2 (0 : Fin 1) q) = (ix2 (0 : Fin 1) s : S1x2048.Idx) := by
  obtain ⟨fa, fb⟩ := idxw_19 t
  funext a; apply Fin.ext
  match a with
  | ⟨0, _⟩ => show win1_19.index t (0 : Fin 2) * 1 + 1 * 0 = 0; omega
  | ⟨1, _⟩ => show win1_19.index t (1 : Fin 2) * 256 + 1 * q.val = s.val; omega
theorem blk1_19 (c : Dev nD) (t : Fin cfg1.N) (q : Fin 256) (s : Fin 2048) (hs : s.val = win1_21.index t (1 : Fin 2) * 256 + q.val) :
    iblk1 V c 19 t (ix2 (0 : Fin 1) q) = V c main_v9 (ix2 (0 : Fin 1) s) := by
  rw [iblk1_at_19, emb1_19 t q s hs]

theorem idxw_20 : ∀ t : Fin cfg1.N, win1_20.index t (0 : Fin 2) = win1_21.index t (0 : Fin 2) ∧ win1_20.index t (1 : Fin 2) = win1_21.index t (1 : Fin 2) :=
  (by decide +kernel : ∀ t : Fin grid1.N, _)

/-- The body's cell tile at point `t`, entry (p, q), is the whole-array function at the entry (r, s) that the output
    tile's rectangle puts (p, q) at. -/
theorem cell_point (c : Dev nD) (t : Fin cfg1.N) (p : Fin 512) (q : Fin 256) (r : Fin 16384) (s : Fin 2048)
    (hr : r.val = win1_21.index t (0 : Fin 2) * 512 + p.val) (hs : s.val = win1_21.index t (1 : Fin 2) * 256 + q.val) :
    cellPay (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (ix2 p q)
      = cellG (V c main_v14) (V c main_v16) (V c main_v6) (V c main_arg2) (V c main_v7) (V c main_v15) (V c main_v2) (V c main_v3) (V c main_v4) (V c main_v1) (V c main_v10) (V c main_v11) (V c main_v12) (V c main_v9) (ix2 r s) := by
  refine (cellPay_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) p q).trans ?_
  have b0 := blk1_0 V c t
  have b1 := fun k => blk1_1 V c t p k r hr
  have b2 := fun k => blk1_2 V c t p k r hr
  have b3 := blk1_3 V c t p q r s hr hs
  have b4 := fun k => blk1_4 V c t p k r hr
  have b5 := blk1_5 V c t p q r s hr hs
  have b6 := fun k => blk1_6 V c t k q s hs
  have b7 := fun k => blk1_7 V c t k q s hs
  have b8 := fun k => blk1_8 V c t k q s hs
  have b9 := fun k => blk1_9 V c t k q s hs
  have b10 := fun k => blk1_10 V c t k q s hs
  have b11 := fun k => blk1_11 V c t k q s hs
  have b12 := fun k => blk1_12 V c t k q s hs
  have b13 := fun k => blk1_13 V c t k q s hs
  have b14 := fun k => blk1_14 V c t k q s hs
  have b15 := blk1_15 V c t q s hs
  have b16 := blk1_16 V c t q s hs
  have b17 := blk1_17 V c t q s hs
  have b18 := blk1_18 V c t q s hs
  have b19 := blk1_19 V c t q s hs
  unfold gatePre cellG gateG
  simp only [b0, b1, b2, b3, b4, b5, b6, b7, b8, b9, b10, b11, b12, b13, b14, b15, b16, b17, b18, b19]

/-- The same for the hidden tile. -/
theorem hid_point (c : Dev nD) (t : Fin cfg1.N) (p : Fin 512) (q : Fin 256) (r : Fin 16384) (s : Fin 2048)
    (hr : r.val = win1_21.index t (0 : Fin 2) * 512 + p.val) (hs : s.val = win1_21.index t (1 : Fin 2) * 256 + q.val) :
    hidPay (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (ix2 p q)
      = hidG (V c main_v14) (V c main_v16) (V c main_v6) (V c main_arg2) (V c main_v7) (V c main_v15) (V c main_v2) (V c main_v3) (V c main_v4) (V c main_v5) (V c main_v1) (V c main_v10) (V c main_v11) (V c main_v12) (V c main_v13) (V c main_v9) (ix2 r s) := by
  refine (hidPay_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) p q).trans ?_
  rw [cell_point V c t p q r s hr hs]
  have b1 := fun k => blk1_1 V c t p k r hr
  have b2 := fun k => blk1_2 V c t p k r hr
  have b12 := fun k => blk1_12 V c t k q s hs
  have b13 := fun k => blk1_13 V c t k q s hs
  have b18 := blk1_18 V c t q s hs
  unfold gatePre hidG gateG
  simp only [b1, b2, b12, b13, b18]

/-- Where the output tile's rectangle at point `t` puts its entry (p, q) (window 20). -/
theorem emb_out_20 (t : Fin cfg1.N) (p : Fin 512) (q : Fin 256) :
    ∃ (r : Fin 16384) (s : Fin 2048), r.val = win1_21.index t (0 : Fin 2) * 512 + p.val ∧ s.val = win1_21.index t (1 : Fin 2) * 256 + q.val
      ∧ (((cfg1.win 20).blk t).view.emb (ix2 p q) : S16384x2048.Idx) = ix2 r s := by
  obtain ⟨fa, fb⟩ := idxw_20 t
  refine ⟨(((cfg1.win 20).blk t).view.emb (ix2 p q)) 0, (((cfg1.win 20).blk t).view.emb (ix2 p q)) 1, ?_, ?_, eq_ix2 _⟩
  · show win1_20.index t (0 : Fin 2) * 512 + 1 * p.val = _; omega
  · show win1_20.index t (1 : Fin 2) * 256 + 1 * q.val = _; omega

/-- Where the output tile's rectangle at point `t` puts its entry (p, q) (window 21). -/
theorem emb_out_21 (t : Fin cfg1.N) (p : Fin 512) (q : Fin 256) :
    ∃ (r : Fin 16384) (s : Fin 2048), r.val = win1_21.index t (0 : Fin 2) * 512 + p.val ∧ s.val = win1_21.index t (1 : Fin 2) * 256 + q.val
      ∧ (((cfg1.win 21).blk t).view.emb (ix2 p q) : S16384x2048.Idx) = ix2 r s := by
  skip
  refine ⟨(((cfg1.win 21).blk t).view.emb (ix2 p q)) 0, (((cfg1.win 21).blk t).view.emb (ix2 p q)) 1, ?_, ?_, eq_ix2 _⟩
  · show win1_21.index t (0 : Fin 2) * 512 + 1 * p.val = _; omega
  · show win1_21.index t (1 : Fin 2) * 256 + 1 * q.val = _; omega

/-- WHAT POINT `t` WRITES BACK into the cell array is its block of `cellG` of the arrays as the region finds them. -/
theorem flushed1_21_eq (c : Dev nD) (t : Fin cfg1.N) :
    (dat1 V c).flushed 21 t = ((cfg1.win 21).blk t).view.read (Elt Ideal) (cellG (V c main_v14) (V c main_v16) (V c main_v6) (V c main_arg2) (V c main_v7) (V c main_v15) (V c main_v2) (V c main_v3) (V c main_v4) (V c main_v1) (V c main_v10) (V c main_v11) (V c main_v12) (V c main_v9)) := by
  show (cfg1.win 21).cut (grid1.coords t) ((dat1 V c).after 21 t) = _
  rw [after1_21]
  unfold out1_21
  rw [View.canon_unit_zero hz]
  funext j
  obtain ⟨p, q, rfl⟩ : ∃ (p : Fin 512) (q : Fin 256), j = ix2 p q := ⟨j 0, j 1, eq_ix2 j⟩
  obtain ⟨r, s, hr, hs, he⟩ := emb_out_21 t p q
  show cellPay (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (ix2 p q)
    = cellG (V c main_v14) (V c main_v16) (V c main_v6) (V c main_arg2) (V c main_v7) (V c main_v15) (V c main_v2) (V c main_v3) (V c main_v4) (V c main_v1) (V c main_v10) (V c main_v11) (V c main_v12) (V c main_v9) (((cfg1.win 21).blk t).view.emb (ix2 p q))
  rw [he]
  exact cell_point V c t p q r s hr hs

/-- WHAT POINT `t` WRITES BACK into the hidden array is its block of `hidG`. -/
theorem flushed1_20_eq (c : Dev nD) (t : Fin cfg1.N) :
    (dat1 V c).flushed 20 t = ((cfg1.win 20).blk t).view.read (Elt Ideal) (hidG (V c main_v14) (V c main_v16) (V c main_v6) (V c main_arg2) (V c main_v7) (V c main_v15) (V c main_v2) (V c main_v3) (V c main_v4) (V c main_v5) (V c main_v1) (V c main_v10) (V c main_v11) (V c main_v12) (V c main_v13) (V c main_v9)) := by
  show (cfg1.win 20).cut (grid1.coords t) ((dat1 V c).after 20 t) = _
  rw [after1_20]
  unfold out1_20
  rw [View.canon_unit_zero hz]
  funext j
  obtain ⟨p, q, rfl⟩ : ∃ (p : Fin 512) (q : Fin 256), j = ix2 p q := ⟨j 0, j 1, eq_ix2 j⟩
  obtain ⟨r, s, hr, hs, he⟩ := emb_out_20 t p q
  show hidPay (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (ix2 p q)
    = hidG (V c main_v14) (V c main_v16) (V c main_v6) (V c main_arg2) (V c main_v7) (V c main_v15) (V c main_v2) (V c main_v3) (V c main_v4) (V c main_v5) (V c main_v1) (V c main_v10) (V c main_v11) (V c main_v12) (V c main_v13) (V c main_v9) (((cfg1.win 20).blk t).view.emb (ix2 p q))
  rw [he]
  exact hid_point V c t p q r s hr hs

theorem mem_blk1_20 (t : Fin cfg1.N) (i : S16384x2048.Idx) :
    i ∈ ((cfg1.win 20).blk t).view.set ↔ ∀ a : Fin 2, win1_20.index t a * S512x256.size a ≤ (i a).val ∧ (i a).val < win1_20.index t a * S512x256.size a + S512x256.size a := by
  show i ∈ ((View.whole main_v17_0).slice (win1_20.rect t)).set ↔ _
  rw [View.set_slice_whole, Rect.mem_set_unit]
  exact Iff.rfl

/-- Every entry is in some point's tile: entry (r, s) in tile (r / 512, s / 256), point 8 · (r / 512) + s / 256. -/
theorem cover1_20 (i : S16384x2048.Idx) : ∃ t : Fin cfg1.N, (cfg1.win 20).flush t = true ∧ i ∈ ((cfg1.win 20).blk t).view.set := by
  have hi0 : (i 0).val < 16384 := (i 0).isLt
  have hi1 : (i 1).val < 2048 := (i 1).isLt
  let t : Fin cfg1.N := ⟨(i 0).val / 512 * 8 + (i 1).val / 256, by show _ < grid1.N; rw [N_1]; omega⟩
  obtain ⟨fOa, fOb⟩ := idxO t
  obtain ⟨fa, fb⟩ := idxw_20 t
  refine ⟨t, flush1_20 t, ?_⟩
  rw [mem_blk1_20]
  intro a
  have ht : t.val = (i 0).val / 512 * 8 + (i 1).val / 256 := rfl
  match a with
  | ⟨0, _⟩ => show win1_20.index t (0 : Fin 2) * 512 ≤ (i 0).val ∧ (i 0).val < win1_20.index t (0 : Fin 2) * 512 + 512; omega
  | ⟨1, _⟩ => show win1_20.index t (1 : Fin 2) * 256 ≤ (i 1).val ∧ (i 1).val < win1_20.index t (1 : Fin 2) * 256 + 256; omega

theorem mem_blk1_21 (t : Fin cfg1.N) (i : S16384x2048.Idx) :
    i ∈ ((cfg1.win 21).blk t).view.set ↔ ∀ a : Fin 2, win1_21.index t a * S512x256.size a ≤ (i a).val ∧ (i a).val < win1_21.index t a * S512x256.size a + S512x256.size a := by
  show i ∈ ((View.whole main_v17_1).slice (win1_21.rect t)).set ↔ _
  rw [View.set_slice_whole, Rect.mem_set_unit]
  exact Iff.rfl

/-- Every entry is in some point's tile: entry (r, s) in tile (r / 512, s / 256), point 8 · (r / 512) + s / 256. -/
theorem cover1_21 (i : S16384x2048.Idx) : ∃ t : Fin cfg1.N, (cfg1.win 21).flush t = true ∧ i ∈ ((cfg1.win 21).blk t).view.set := by
  have hi0 : (i 0).val < 16384 := (i 0).isLt
  have hi1 : (i 1).val < 2048 := (i 1).isLt
  let t : Fin cfg1.N := ⟨(i 0).val / 512 * 8 + (i 1).val / 256, by show _ < grid1.N; rw [N_1]; omega⟩
  obtain ⟨fOa, fOb⟩ := idxO t
  skip
  refine ⟨t, flush1_21 t, ?_⟩
  rw [mem_blk1_21]
  intro a
  have ht : t.val = (i 0).val / 512 * 8 + (i 1).val / 256 := rfl
  match a with
  | ⟨0, _⟩ => show win1_21.index t (0 : Fin 2) * 512 ≤ (i 0).val ∧ (i 0).val < win1_21.index t (0 : Fin 2) * 512 + 512; omega
  | ⟨1, _⟩ => show win1_21.index t (1 : Fin 2) * 256 ≤ (i 1).val ∧ (i 1).val < win1_21.index t (1 : Fin 2) * 256 + 256; omega

/-- THE ARRAYS after the second region. -/
theorem final1_21 (c : Dev nD) : (dat1 V c).arrAt 21 cfg1.N = cellG (V c main_v14) (V c main_v16) (V c main_v6) (V c main_arg2) (V c main_v7) (V c main_v15) (V c main_v2) (V c main_v3) (V c main_v4) (V c main_v1) (V c main_v10) (V c main_v11) (V c main_v12) (V c main_v9) :=
  (dat1 V c).arrAt_eq_of_cover 21 _ (fun t _ => flushed1_21_eq V c t) cover1_21
theorem final1_20 (c : Dev nD) : (dat1 V c).arrAt 20 cfg1.N = hidG (V c main_v14) (V c main_v16) (V c main_v6) (V c main_arg2) (V c main_v7) (V c main_v15) (V c main_v2) (V c main_v3) (V c main_v4) (V c main_v5) (V c main_v1) (V c main_v10) (V c main_v11) (V c main_v12) (V c main_v13) (V c main_v9) :=
  (dat1 V c).arrAt_eq_of_cover 20 _ (fun t _ => flushed1_20_eq V c t) cover1_20

end Cert.KernelIdeal.HandValue

end
-- ==== Proof.KernelIdealFinal.lean ====
/-
  The run of the idealized kernel, read: the two result arrays as the specification's functions of the argument arrays.

  The second region's inputs are what the host operations and the first region left: the weight matrices, the hidden
  state and the error signal after a change of float format (the identity on extended reals), the bias vectors and
  the scale as one-row arrays, the uncertainty with its trailing unit axis dropped, and the projection the first region
  wrote.  Substituting those into the second region's two functions gives the specification's `hiddenOut` and
  `cellOut`, entry by entry.
-/
import proofs.«149773_j65532611002879_2_alg».proof.Proof.KernelIdealRun
import proofs.«149773_j65532611002879_2_alg».proof.Proof.KernelIdealValue0
import proofs.«149773_j65532611002879_2_alg».proof.Proof.KernelIdealValue1
import proofs.«149773_j65532611002879_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay

open Cert

/-- An [a, b, 1] array with its trailing unit axis dropped reads, at (i, j), the operand at (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

variable (m : (ℓ : Loc nD τ sig) → Buf (Elt Ideal) ℓ)

/-- The argument arrays on core `c`, as arrays of extended reals. -/
abbrev A0 (c : Dev nD) : FVec Ideal S16384x1024 .f32 := m ((c.tc : Thread nD τ).loc main_arg0)
abbrev A1 (c : Dev nD) : FVec Ideal S16384x2048 .f32 := m ((c.tc : Thread nD τ).loc main_arg1)
abbrev A2 (c : Dev nD) : FVec Ideal S16384x2048 .f32 := m ((c.tc : Thread nD τ).loc main_arg2)
abbrev A3 (c : Dev nD) : FVec Ideal S16384x2048 .f32 := m ((c.tc : Thread nD τ).loc main_arg3)
abbrev A4 (c : Dev nD) : FVec Ideal S16384x2048x1 .f32 := m ((c.tc : Thread nD τ).loc main_arg4)
abbrev A5 (c : Dev nD) : FVec Ideal S1024x2048 .f32 := m ((c.tc : Thread nD τ).loc main_arg5)
abbrev A6 (c : Dev nD) : FVec Ideal S2048 .f32 := m ((c.tc : Thread nD τ).loc main_arg6)
abbrev A7 (c : Dev nD) : FVec Ideal S4096x2048 .f32 := m ((c.tc : Thread nD τ).loc main_arg7)
abbrev A8 (c : Dev nD) : FVec Ideal S2048 .f32 := m ((c.tc : Thread nD τ).loc main_arg8)
abbrev A9 (c : Dev nD) : FVec Ideal S4096x2048 .f32 := m ((c.tc : Thread nD τ).loc main_arg9)
abbrev A10 (c : Dev nD) : FVec Ideal S2048 .f32 := m ((c.tc : Thread nD τ).loc main_arg10)
abbrev A11 (c : Dev nD) : FVec Ideal S4096x2048 .f32 := m ((c.tc : Thread nD τ).loc main_arg11)
abbrev A12 (c : Dev nD) : FVec Ideal S2048 .f32 := m ((c.tc : Thread nD τ).loc main_arg12)
abbrev A13 (c : Dev nD) : FVec Ideal S4096x2048 .f32 := m ((c.tc : Thread nD τ).loc main_arg13)
abbrev A14 (c : Dev nD) : FVec Ideal S2048 .f32 := m ((c.tc : Thread nD τ).loc main_arg14)
abbrev A15 (c : Dev nD) : FVec Ideal S2048x2048 .f32 := m ((c.tc : Thread nD τ).loc main_arg15)
abbrev A16 (c : Dev nD) : FVec Ideal S2048 .f32 := m ((c.tc : Thread nD τ).loc main_arg16)
abbrev A17 (c : Dev nD) : FVec Ideal S1 .f32 := m ((c.tc : Thread nD τ).loc main_arg17)

/-! ## What the host operations leave -/

theorem Va1_main_v0 (c : Dev nD) : (Va1 m c main_v0 : S1024x2048.Idx → EReal) = truncf .bf16 (A5 m c) bitsLt_bf16_f32 := by
  show StableHlo.after hostOps0 (fun b => m (c, b)) (Proc.devRef .tc main_v0) = _
  after_results
theorem Va1_main_v1 (c : Dev nD) : (Va1 m c main_v1 : S2048x2048.Idx → EReal) = truncf .bf16 (A15 m c) bitsLt_bf16_f32 := by
  show StableHlo.after hostOps0 (fun b => m (c, b)) (Proc.devRef .tc main_v1) = _
  after_results
theorem Va1_main_v2 (c : Dev nD) : (Va1 m c main_v2 : S4096x2048.Idx → EReal) = truncf .bf16 (A7 m c) bitsLt_bf16_f32 := by
  show StableHlo.after hostOps0 (fun b => m (c, b)) (Proc.devRef .tc main_v2) = _
  after_results
theorem Va1_main_v3 (c : Dev nD) : (Va1 m c main_v3 : S4096x2048.Idx → EReal) = truncf .bf16 (A9 m c) bitsLt_bf16_f32 := by
  show StableHlo.after hostOps0 (fun b => m (c, b)) (Proc.devRef .tc main_v3) = _
  after_results
theorem Va1_main_v4 (c : Dev nD) : (Va1 m c main_v4 : S4096x2048.Idx → EReal) = truncf .bf16 (A11 m c) bitsLt_bf16_f32 := by
  show StableHlo.after hostOps0 (fun b => m (c, b)) (Proc.devRef .tc main_v4) = _
  after_results
theorem Va1_main_v5 (c : Dev nD) : (Va1 m c main_v5 : S4096x2048.Idx → EReal) = truncf .bf16 (A13 m c) bitsLt_bf16_f32 := by
  show StableHlo.after hostOps0 (fun b => m (c, b)) (Proc.devRef .tc main_v5) = _
  after_results
theorem Va1_main_v6 (c : Dev nD) : (Va1 m c main_v6 : S16384x2048.Idx → EReal) = truncf .bf16 (A1 m c) bitsLt_bf16_f32 := by
  show StableHlo.after hostOps0 (fun b => m (c, b)) (Proc.devRef .tc main_v6) = _
  after_results
theorem Va1_main_v7 (c : Dev nD) : (Va1 m c main_v7 : S16384x2048.Idx → EReal) = truncf .bf16 (A3 m c) bitsLt_bf16_f32 := by
  show StableHlo.after hostOps0 (fun b => m (c, b)) (Proc.devRef .tc main_v7) = _
  after_results
theorem Va1_main_v8 (c : Dev nD) : (Va1 m c main_v8 : S1x2048.Idx → EReal) = shapeCast S1x2048 (A6 m c) shapeCasts_S2048_S1x2048 := by
  show StableHlo.after hostOps0 (fun b => m (c, b)) (Proc.devRef .tc main_v8) = _
  after_results
  rfl
theorem Va1_main_v9 (c : Dev nD) : (Va1 m c main_v9 : S1x2048.Idx → EReal) = shapeCast S1x2048 (A16 m c) shapeCasts_S2048_S1x2048 := by
  show StableHlo.after hostOps0 (fun b => m (c, b)) (Proc.devRef .tc main_v9) = _
  after_results
  rfl
theorem Va1_main_v10 (c : Dev nD) : (Va1 m c main_v10 : S1x2048.Idx → EReal) = shapeCast S1x2048 (A8 m c) shapeCasts_S2048_S1x2048 := by
  show StableHlo.after hostOps0 (fun b => m (c, b)) (Proc.devRef .tc main_v10) = _
  after_results
  rfl
theorem Va1_main_v11 (c : Dev nD) : (Va1 m c main_v11 : S1x2048.Idx → EReal) = shapeCast S1x2048 (A10 m c) shapeCasts_S2048_S1x2048 := by
  show StableHlo.after hostOps0 (fun b => m (c, b)) (Proc.devRef .tc main_v11) = _
  after_results
  rfl
theorem Va1_main_v12 (c : Dev nD) : (Va1 m c main_v12 : S1x2048.Idx → EReal) = shapeCast S1x2048 (A12 m c) shapeCasts_S2048_S1x2048 := by
  show StableHlo.after hostOps0 (fun b => m (c, b)) (Proc.devRef .tc main_v12) = _
  after_results
  rfl
theorem Va1_main_v13 (c : Dev nD) : (Va1 m c main_v13 : S1x2048.Idx → EReal) = shapeCast S1x2048 (A14 m c) shapeCasts_S2048_S1x2048 := by
  show StableHlo.after hostOps0 (fun b => m (c, b)) (Proc.devRef .tc main_v13) = _
  after_results
  rfl
theorem Va1_main_v14 (c : Dev nD) : (Va1 m c main_v14 : S1x1.Idx → EReal) = shapeCast S1x1 (A17 m c) shapeCasts_S1_S1x1 := by
  show StableHlo.after hostOps0 (fun b => m (c, b)) (Proc.devRef .tc main_v14) = _
  after_results
  rfl
theorem Va1_main_v15 (c : Dev nD) : (Va1 m c main_v15 : S16384x2048.Idx → EReal) = shapeCast S16384x2048 (A4 m c) shapeCasts_S16384x2048x1_S16384x2048 := by
  show StableHlo.after hostOps0 (fun b => m (c, b)) (Proc.devRef .tc main_v15) = _
  after_results
  rfl

/-- A buffer the host operations do not write holds its launch contents. -/
theorem Va1_arg (c : Dev nD) (r : Ref sig .tc) (h : r ∉ hostOps0_W) : Va1 m c r = m ((c.tc : Thread nD τ).loc r) :=
  (V1_of m c r h).trans rfl

/-! ## What the second region finds -/

/-- The projection the first region wrote. -/
theorem Va2_main_v16 (c : Dev nD) :
    (Va2 m c main_v16 : S16384x2048.Idx → EReal) = (projG (A0 m c) (truncf .bf16 (A5 m c) bitsLt_bf16_f32) (shapeCast S1x2048 (A6 m c) shapeCasts_S2048_S1x2048)) := by
  have h := (Wa2_arr m c 3).trans (final0 (Va1 m) c)
  rw [Va1_arg m c main_arg0 (by decide), Va1_main_v0, Va1_main_v8] at h
  exact h
theorem Va2_main_v14 (c : Dev nD) : (Va2 m c main_v14 : S1x1.Idx → EReal) = (shapeCast S1x1 (A17 m c) shapeCasts_S1_S1x1) := by
  show Wa2 m c (Proc.devRef .tc main_v14) = _
  rw [Wa2_of_ne m c main_v14 (by decide)]
  exact Va1_main_v14 m c
theorem Va2_main_v6 (c : Dev nD) : (Va2 m c main_v6 : S16384x2048.Idx → EReal) = (truncf .bf16 (A1 m c) bitsLt_bf16_f32) := by
  show Wa2 m c (Proc.devRef .tc main_v6) = _
  rw [Wa2_of_ne m c main_v6 (by decide)]
  exact Va1_main_v6 m c
theorem Va2_main_arg2 (c : Dev nD) : (Va2 m c main_arg2 : S16384x2048.Idx → EReal) = (A2 m c) := by
  show Wa2 m c (Proc.devRef .tc main_arg2) = _
  rw [Wa2_of_ne m c main_arg2 (by decide)]
  exact Va1_arg m c main_arg2 (by decide)
theorem Va2_main_v7 (c : Dev nD) : (Va2 m c main_v7 : S16384x2048.Idx → EReal) = (truncf .bf16 (A3 m c) bitsLt_bf16_f32) := by
  show Wa2 m c (Proc.devRef .tc main_v7) = _
  rw [Wa2_of_ne m c main_v7 (by decide)]
  exact Va1_main_v7 m c
theorem Va2_main_v15 (c : Dev nD) : (Va2 m c main_v15 : S16384x2048.Idx → EReal) = (shapeCast S16384x2048 (A4 m c) shapeCasts_S16384x2048x1_S16384x2048) := by
  show Wa2 m c (Proc.devRef .tc main_v15) = _
  rw [Wa2_of_ne m c main_v15 (by decide)]
  exact Va1_main_v15 m c
theorem Va2_main_v2 (c : Dev nD) : (Va2 m c main_v2 : S4096x2048.Idx → EReal) = (truncf .bf16 (A7 m c) bitsLt_bf16_f32) := by
  show Wa2 m c (Proc.devRef .tc main_v2) = _
  rw [Wa2_of_ne m c main_v2 (by decide)]
  exact Va1_main_v2 m c
theorem Va2_main_v3 (c : Dev nD) : (Va2 m c main_v3 : S4096x2048.Idx → EReal) = (truncf .bf16 (A9 m c) bitsLt_bf16_f32) := by
  show Wa2 m c (Proc.devRef .tc main_v3) = _
  rw [Wa2_of_ne m c main_v3 (by decide)]
  exact Va1_main_v3 m c
theorem Va2_main_v4 (c : Dev nD) : (Va2 m c main_v4 : S4096x2048.Idx → EReal) = (truncf .bf16 (A11 m c) bitsLt_bf16_f32) := by
  show Wa2 m c (Proc.devRef .tc main_v4) = _
  rw [Wa2_of_ne m c main_v4 (by decide)]
  exact Va1_main_v4 m c
theorem Va2_main_v5 (c : Dev nD) : (Va2 m c main_v5 : S4096x2048.Idx → EReal) = (truncf .bf16 (A13 m c) bitsLt_bf16_f32) := by
  show Wa2 m c (Proc.devRef .tc main_v5) = _
  rw [Wa2_of_ne m c main_v5 (by decide)]
  exact Va1_main_v5 m c
theorem Va2_main_v1 (c : Dev nD) : (Va2 m c main_v1 : S2048x2048.Idx → EReal) = (truncf .bf16 (A15 m c) bitsLt_bf16_f32) := by
  show Wa2 m c (Proc.devRef .tc main_v1) = _
  rw [Wa2_of_ne m c main_v1 (by decide)]
  exact Va1_main_v1 m c
theorem Va2_main_v10 (c : Dev nD) : (Va2 m c main_v10 : S1x2048.Idx → EReal) = (shapeCast S1x2048 (A8 m c) shapeCasts_S2048_S1x2048) := by
  show Wa2 m c (Proc.devRef .tc main_v10) = _
  rw [Wa2_of_ne m c main_v10 (by decide)]
  exact Va1_main_v10 m c
theorem Va2_main_v11 (c : Dev nD) : (Va2 m c main_v11 : S1x2048.Idx → EReal) = (shapeCast S1x2048 (A10 m c) shapeCasts_S2048_S1x2048) := by
  show Wa2 m c (Proc.devRef .tc main_v11) = _
  rw [Wa2_of_ne m c main_v11 (by decide)]
  exact Va1_main_v11 m c
theorem Va2_main_v12 (c : Dev nD) : (Va2 m c main_v12 : S1x2048.Idx → EReal) = (shapeCast S1x2048 (A12 m c) shapeCasts_S2048_S1x2048) := by
  show Wa2 m c (Proc.devRef .tc main_v12) = _
  rw [Wa2_of_ne m c main_v12 (by decide)]
  exact Va1_main_v12 m c
theorem Va2_main_v13 (c : Dev nD) : (Va2 m c main_v13 : S1x2048.Idx → EReal) = (shapeCast S1x2048 (A14 m c) shapeCasts_S2048_S1x2048) := by
  show Wa2 m c (Proc.devRef .tc main_v13) = _
  rw [Wa2_of_ne m c main_v13 (by decide)]
  exact Va1_main_v13 m c
theorem Va2_main_v9 (c : Dev nD) : (Va2 m c main_v9 : S1x2048.Idx → EReal) = (shapeCast S1x2048 (A16 m c) shapeCasts_S2048_S1x2048) := by
  show Wa2 m c (Proc.devRef .tc main_v9) = _
  rw [Wa2_of_ne m c main_v9 (by decide)]
  exact Va1_main_v9 m c

/-! ## The two functions are the specification's -/

theorem cell_bridge (c : Dev nD) :
    cellG (shapeCast S1x1 (A17 m c) shapeCasts_S1_S1x1) (projG (A0 m c) (truncf .bf16 (A5 m c) bitsLt_bf16_f32) (shapeCast S1x2048 (A6 m c) shapeCasts_S2048_S1x2048)) (truncf .bf16 (A1 m c) bitsLt_bf16_f32) (A2 m c) (truncf .bf16 (A3 m c) bitsLt_bf16_f32) (shapeCast S16384x2048 (A4 m c) shapeCasts_S16384x2048x1_S16384x2048) (truncf .bf16 (A7 m c) bitsLt_bf16_f32) (truncf .bf16 (A9 m c) bitsLt_bf16_f32) (truncf .bf16 (A11 m c) bitsLt_bf16_f32) (truncf .bf16 (A15 m c) bitsLt_bf16_f32) (shapeCast S1x2048 (A8 m c) shapeCasts_S2048_S1x2048) (shapeCast S1x2048 (A10 m c) shapeCasts_S2048_S1x2048) (shapeCast S1x2048 (A12 m c) shapeCasts_S2048_S1x2048) (shapeCast S1x2048 (A16 m c) shapeCasts_S2048_S1x2048)
      = GatedCell.cellOut (A0 m c) (A1 m c) (A2 m c) (A3 m c) (A4 m c) (A5 m c) (A6 m c) (A7 m c) (A8 m c) (A9 m c) (A10 m c) (A11 m c) (A12 m c) (A15 m c) (A16 m c) (A17 m c) := by
  funext i
  obtain ⟨r, s, rfl⟩ : ∃ (r : Fin 16384) (s : Fin 2048), i = ix2 r s := ⟨i 0, i 1, eq_ix2 i⟩
  unfold cellG gateG projG GatedCell.cellOut GatedCell.cellAt GatedCell.gate GatedCell.proj GatedCell.errPre GatedCell.one GatedCell.tenth
  simp only [truncf_apply, shapeCast_a_1a_apply, shapeCast_ab1_ab_apply]

theorem hid_bridge (c : Dev nD) :
    hidG (shapeCast S1x1 (A17 m c) shapeCasts_S1_S1x1) (projG (A0 m c) (truncf .bf16 (A5 m c) bitsLt_bf16_f32) (shapeCast S1x2048 (A6 m c) shapeCasts_S2048_S1x2048)) (truncf .bf16 (A1 m c) bitsLt_bf16_f32) (A2 m c) (truncf .bf16 (A3 m c) bitsLt_bf16_f32) (shapeCast S16384x2048 (A4 m c) shapeCasts_S16384x2048x1_S16384x2048) (truncf .bf16 (A7 m c) bitsLt_bf16_f32) (truncf .bf16 (A9 m c) bitsLt_bf16_f32) (truncf .bf16 (A11 m c) bitsLt_bf16_f32) (truncf .bf16 (A13 m c) bitsLt_bf16_f32) (truncf .bf16 (A15 m c) bitsLt_bf16_f32) (shapeCast S1x2048 (A8 m c) shapeCasts_S2048_S1x2048) (shapeCast S1x2048 (A10 m c) shapeCasts_S2048_S1x2048) (shapeCast S1x2048 (A12 m c) shapeCasts_S2048_S1x2048) (shapeCast S1x2048 (A14 m c) shapeCasts_S2048_S1x2048) (shapeCast S1x2048 (A16 m c) shapeCasts_S2048_S1x2048)
      = GatedCell.hiddenOut (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) := by
  funext i
  obtain ⟨r, s, rfl⟩ : ∃ (r : Fin 16384) (s : Fin 2048), i = ix2 r s := ⟨i 0, i 1, eq_ix2 i⟩
  have hc := congrFun (cell_bridge m c) (ix2 r s)
  unfold hidG GatedCell.hiddenOut
  rw [hc]
  unfold GatedCell.cellOut gateG projG GatedCell.gate GatedCell.proj
  simp only [truncf_apply, shapeCast_a_1a_apply]

/-! ## The run -/

set_option maxHeartbeats 8000000 in
/-- Every weakly fair execution of the idealized kernel terminates with the new hidden state and the new cell state at
    the specification's functions of the arguments, and the arguments unchanged. -/
theorem run_spec (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17_0) = GatedCell.hiddenOut (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c)
      ∧ r.2.mem ((c.tc : Thread nD τ).loc main_v17_1) = GatedCell.cellOut (A0 m c) (A1 m c) (A2 m c) (A3 m c) (A4 m c) (A5 m c) (A6 m c) (A7 m c) (A8 m c) (A9 m c) (A10 m c) (A11 m c) (A12 m c) (A15 m c) (A16 m c) (A17 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v17_0 (by decide))).trans ((Wa3_out0 m c).trans ((final1_20 (Va2 m) c).trans (by
        rw [Va2_main_v14 m c, Va2_main_v16 m c, Va2_main_v6 m c, Va2_main_arg2 m c, Va2_main_v7 m c, Va2_main_v15 m c, Va2_main_v2 m c, Va2_main_v3 m c, Va2_main_v4 m c, Va2_main_v5 m c, Va2_main_v1 m c, Va2_main_v10 m c, Va2_main_v11 m c, Va2_main_v12 m c, Va2_main_v13 m c, Va2_main_v9 m c]
        exact hid_bridge m c))),
      (h c _ (mem_uc main_v17_1 (by decide))).trans ((Wa3_out1 m c).trans ((final1_21 (Va2 m) c).trans (by
        rw [Va2_main_v14 m c, Va2_main_v16 m c, Va2_main_v6 m c, Va2_main_arg2 m c, Va2_main_v7 m c, Va2_main_v15 m c, Va2_main_v2 m c, Va2_main_v3 m c, Va2_main_v4 m c, Va2_main_v1 m c, Va2_main_v10 m c, Va2_main_v11 m c, Va2_main_v12 m c, Va2_main_v9 m c]
        exact cell_bridge m c))),
      (h c _ (mem_uc main_arg0 (by decide))).trans (Wa3_main_arg0 m c),
      (h c _ (mem_uc main_arg1 (by decide))).trans (Wa3_kept m c main_arg1 (by decide) (by decide) (by decide)),
      (h c _ (mem_uc main_arg2 (by decide))).trans (Wa3_kept m c main_arg2 (by decide) (by decide) (by decide)),
      (h c _ (mem_uc main_arg3 (by decide))).trans (Wa3_kept m c main_arg3 (by decide) (by decide) (by decide)),
      (h c _ (mem_uc main_arg4 (by decide))).trans (Wa3_kept m c main_arg4 (by decide) (by decide) (by decide)),
      (h c _ (mem_uc main_arg5 (by decide))).trans (Wa3_kept m c main_arg5 (by decide) (by decide) (by decide)),
      (h c _ (mem_uc main_arg6 (by decide))).trans (Wa3_kept m c main_arg6 (by decide) (by decide) (by decide)),
      (h c _ (mem_uc main_arg7 (by decide))).trans (Wa3_kept m c main_arg7 (by decide) (by decide) (by decide)),
      (h c _ (mem_uc main_arg8 (by decide))).trans (Wa3_kept m c main_arg8 (by decide) (by decide) (by decide)),
      (h c _ (mem_uc main_arg9 (by decide))).trans (Wa3_kept m c main_arg9 (by decide) (by decide) (by decide)),
      (h c _ (mem_uc main_arg10 (by decide))).trans (Wa3_kept m c main_arg10 (by decide) (by decide) (by decide)),
      (h c _ (mem_uc main_arg11 (by decide))).trans (Wa3_kept m c main_arg11 (by decide) (by decide) (by decide)),
      (h c _ (mem_uc main_arg12 (by decide))).trans (Wa3_kept m c main_arg12 (by decide) (by decide) (by decide)),
      (h c _ (mem_uc main_arg13 (by decide))).trans (Wa3_kept m c main_arg13 (by decide) (by decide) (by decide)),
      (h c _ (mem_uc main_arg14 (by decide))).trans (Wa3_kept m c main_arg14 (by decide) (by decide) (by decide)),
      (h c _ (mem_uc main_arg15 (by decide))).trans (Wa3_kept m c main_arg15 (by decide) (by decide) (by decide)),
      (h c _ (mem_uc main_arg16 (by decide))).trans (Wa3_kept m c main_arg16 (by decide) (by decide) (by decide)),
      (h c _ (mem_uc main_arg17 (by decide))).trans (Wa3_kept m c main_arg17 (by decide) (by decide) (by decide))⟩)
    (run_all m ρ)

end Cert.KernelIdeal.HandValue

end
-- ==== Proof.RefCat.lean ====
/-
  The reference's three joins read at an index.  The row [proj[p,·], hid[p,·]] read at a column of its first or second
  half; the four gates' weight matrices joined along their columns, and the four bias rows joined end to end, read at
  column g·H + q of gate g.
-/
import proofs.«149773_j65532611002879_2_alg».proof.Proof.Gen.ReferenceIdeal
import proofs.«149773_j65532611002879_2_alg».proof.Proof.Spec
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx Cert.GatedCell

variable {α : Type}

/-- Column g·H + q of the joined gates, g = 0, 1, 2, 3. -/
def c0 (q : Fin 2048) : Fin 8192 := ⟨q.val, by omega⟩
def c1 (q : Fin 2048) : Fin 8192 := ⟨2048 + q.val, by omega⟩
def c2 (q : Fin 2048) : Fin 8192 := ⟨4096 + q.val, by omega⟩
def c3 (q : Fin 2048) : Fin 8192 := ⟨6144 + q.val, by omega⟩

/-- The joined row at a column of its first half is the first operand. -/
theorem row_lo (a b : S16384x2048.Idx → α) (h : Shape.Concatenates [S16384x2048, S16384x2048] S16384x4096 1)
    (p : Fin 16384) (k : Fin 2048) :
    concatenate S16384x4096 1 [⟨S16384x2048, a⟩, ⟨S16384x2048, b⟩] h (ix2 p (lo k)) = a (ix2 p k) :=
  concatenate_pair_apply_left (t := S16384x4096) (s₁ := S16384x2048) (s₂ := S16384x2048) 1 a b h (ix2 p (lo k)) rfl (ix2 p k)
    (fun d => by
      match d with
      | ⟨0, _⟩ => rfl
      | ⟨1, _⟩ => rfl)

/-- The joined row at a column of its second half is the second operand. -/
theorem row_hi (a b : S16384x2048.Idx → α) (h : Shape.Concatenates [S16384x2048, S16384x2048] S16384x4096 1)
    (p : Fin 16384) (k : Fin 2048) :
    concatenate S16384x4096 1 [⟨S16384x2048, a⟩, ⟨S16384x2048, b⟩] h (ix2 p (hi k)) = b (ix2 p k) :=
  concatenate_pair_apply_right (t := S16384x4096) (s₁ := S16384x2048) (s₂ := S16384x2048) 1 a b h (ix2 p (hi k)) rfl rfl (ix2 p k)
    (fun d hd => by
      match d with
      | ⟨0, _⟩ => rfl
      | ⟨1, _⟩ => exact absurd rfl hd)
    (by show k.val + 2048 = 2048 + k.val; omega)

section Weights
variable (w0 w1 w2 w3 : S4096x2048.Idx → α)
  (h : Shape.Concatenates [S4096x2048, S4096x2048, S4096x2048, S4096x2048] S4096x8192 1) (k : Fin 4096) (q : Fin 2048)

theorem wcat0 : concatenate S4096x8192 1 [⟨S4096x2048, w0⟩, ⟨S4096x2048, w1⟩, ⟨S4096x2048, w2⟩, ⟨S4096x2048, w3⟩] h
      (ix2 k (c0 q)) = w0 (ix2 k q) :=
  concatenate_apply_piece (t := S4096x8192) 1 [⟨S4096x2048, w0⟩, ⟨S4096x2048, w1⟩, ⟨S4096x2048, w2⟩, ⟨S4096x2048, w3⟩] h
    (ix2 k (c0 q)) 0 (by simp) S4096x2048 w0 rfl rfl 0 rfl (ix2 k q)
    (fun d hd => by
      match d with
      | ⟨0, _⟩ => rfl
      | ⟨1, _⟩ => exact absurd rfl hd)
    (by show 0 + q.val = q.val; omega)

theorem wcat1 : concatenate S4096x8192 1 [⟨S4096x2048, w0⟩, ⟨S4096x2048, w1⟩, ⟨S4096x2048, w2⟩, ⟨S4096x2048, w3⟩] h
      (ix2 k (c1 q)) = w1 (ix2 k q) :=
  concatenate_apply_piece (t := S4096x8192) 1 [⟨S4096x2048, w0⟩, ⟨S4096x2048, w1⟩, ⟨S4096x2048, w2⟩, ⟨S4096x2048, w3⟩] h
    (ix2 k (c1 q)) 1 (by simp) S4096x2048 w1 rfl rfl 2048 rfl (ix2 k q)
    (fun d hd => by
      match d with
      | ⟨0, _⟩ => rfl
      | ⟨1, _⟩ => exact absurd rfl hd)
    rfl

theorem wcat2 : concatenate S4096x8192 1 [⟨S4096x2048, w0⟩, ⟨S4096x2048, w1⟩, ⟨S4096x2048, w2⟩, ⟨S4096x2048, w3⟩] h
      (ix2 k (c2 q)) = w2 (ix2 k q) :=
  concatenate_apply_piece (t := S4096x8192) 1 [⟨S4096x2048, w0⟩, ⟨S4096x2048, w1⟩, ⟨S4096x2048, w2⟩, ⟨S4096x2048, w3⟩] h
    (ix2 k (c2 q)) 2 (by simp) S4096x2048 w2 rfl rfl 4096 rfl (ix2 k q)
    (fun d hd => by
      match d with
      | ⟨0, _⟩ => rfl
      | ⟨1, _⟩ => exact absurd rfl hd)
    rfl

theorem wcat3 : concatenate S4096x8192 1 [⟨S4096x2048, w0⟩, ⟨S4096x2048, w1⟩, ⟨S4096x2048, w2⟩, ⟨S4096x2048, w3⟩] h
      (ix2 k (c3 q)) = w3 (ix2 k q) :=
  concatenate_apply_piece (t := S4096x8192) 1 [⟨S4096x2048, w0⟩, ⟨S4096x2048, w1⟩, ⟨S4096x2048, w2⟩, ⟨S4096x2048, w3⟩] h
    (ix2 k (c3 q)) 3 (by simp) S4096x2048 w3 rfl rfl 6144 rfl (ix2 k q)
    (fun d hd => by
      match d with
      | ⟨0, _⟩ => rfl
      | ⟨1, _⟩ => exact absurd rfl hd)
    rfl

end Weights

section Biases
variable (b0 b1 b2 b3 : S2048.Idx → α) (h : Shape.Concatenates [S2048, S2048, S2048, S2048] S8192 0) (q : Fin 2048)

theorem bcat0 : concatenate S8192 0 [⟨S2048, b0⟩, ⟨S2048, b1⟩, ⟨S2048, b2⟩, ⟨S2048, b3⟩] h (ix1 (c0 q)) = b0 (ix1 q) :=
  concatenate_apply_piece (t := S8192) 0 [⟨S2048, b0⟩, ⟨S2048, b1⟩, ⟨S2048, b2⟩, ⟨S2048, b3⟩] h
    (ix1 (c0 q)) 0 (by simp) S2048 b0 rfl rfl 0 rfl (ix1 q)
    (fun d hd => by
      match d with
      | ⟨0, _⟩ => exact absurd rfl hd)
    (by show 0 + q.val = q.val; omega)

theorem bcat1 : concatenate S8192 0 [⟨S2048, b0⟩, ⟨S2048, b1⟩, ⟨S2048, b2⟩, ⟨S2048, b3⟩] h (ix1 (c1 q)) = b1 (ix1 q) :=
  concatenate_apply_piece (t := S8192) 0 [⟨S2048, b0⟩, ⟨S2048, b1⟩, ⟨S2048, b2⟩, ⟨S2048, b3⟩] h
    (ix1 (c1 q)) 1 (by simp) S2048 b1 rfl rfl 2048 rfl (ix1 q)
    (fun d hd => by
      match d with
      | ⟨0, _⟩ => exact absurd rfl hd)
    rfl

theorem bcat2 : concatenate S8192 0 [⟨S2048, b0⟩, ⟨S2048, b1⟩, ⟨S2048, b2⟩, ⟨S2048, b3⟩] h (ix1 (c2 q)) = b2 (ix1 q) :=
  concatenate_apply_piece (t := S8192) 0 [⟨S2048, b0⟩, ⟨S2048, b1⟩, ⟨S2048, b2⟩, ⟨S2048, b3⟩] h
    (ix1 (c2 q)) 2 (by simp) S2048 b2 rfl rfl 4096 rfl (ix1 q)
    (fun d hd => by
      match d with
      | ⟨0, _⟩ => exact absurd rfl hd)
    rfl

theorem bcat3 : concatenate S8192 0 [⟨S2048, b0⟩, ⟨S2048, b1⟩, ⟨S2048, b2⟩, ⟨S2048, b3⟩] h (ix1 (c3 q)) = b3 (ix1 q) :=
  concatenate_apply_piece (t := S8192) 0 [⟨S2048, b0⟩, ⟨S2048, b1⟩, ⟨S2048, b2⟩, ⟨S2048, b3⟩] h
    (ix1 (c3 q)) 3 (by simp) S2048 b3 rfl rfl 6144 rfl (ix1 q)
    (fun d hd => by
      match d with
      | ⟨0, _⟩ => exact absurd rfl hd)
    rfl

end Biases

end Cert.ReferenceIdeal.RefValue

end
-- ==== Proof.RefAlg.lean ====
/-
  The fused product read as a gate.  A row of length 2·H whose first half is the projection and whose second half is the
  hidden state, against a column that on the upper rows and on the lower rows is a gate's weight column, plus that gate's
  bias: the sum over the 2·H rows splits into its two halves.
-/
import proofs.«149773_j65532611002879_2_alg».proof.Proof.Spec

noncomputable section

open scoped BigOperators

namespace Cert.ReferenceIdeal.RefValue

open Idealize.ShloMosaic Idealize.ShloMosaic.ValueIdx Cert.GatedCell

/-- A fused pre-activation is the gate's, once the joined operands are read at the two halves. -/
theorem gate_of_halves (pr : Fin 16384 → Fin 2048 → EReal) (hid : FVec Ideal SBxH .f32) (W : FVec Ideal S2HxH .f32)
    (b : FVec Ideal SH .f32) (p : Fin 16384) (q : Fin 2048)
    (A : Fin 4096 → EReal) (C : Fin 4096 → EReal) (β : EReal)
    (hAlo : ∀ k, A (lo k) = pr p k) (hAhi : ∀ k, A (hi k) = hid (ix2 p k))
    (hClo : ∀ k, C (lo k) = W (ix2 (lo k) q)) (hChi : ∀ k, C (hi k) = W (ix2 (hi k) q))
    (hβ : β = b (ix1 q)) :
    (∑ k : Fin 4096, A k * C k) + β = gate pr hid W b p q := by
  rw [sum_lo_hi (fun k => A k * C k), hβ]
  simp only [hAlo, hAhi, hClo, hChi]
  rfl

end Cert.ReferenceIdeal.RefValue

end
-- ==== Proof.RefPre.lean ====
/-
  The reference's pre-activations read at an index: the input projection, the four gates' pre-activations out of the one
  fused product (column g·H + q of the joined weights is gate g's column q), and the damping term's pre-activation.
-/
import proofs.«149773_j65532611002879_2_alg».proof.Proof.Gen.ReferenceIdeal.Read
import proofs.«149773_j65532611002879_2_alg».proof.Proof.RefCat
import proofs.«149773_j65532611002879_2_alg».proof.Proof.RefAlg

noncomputable section

open scoped BigOperators

namespace Cert.ReferenceIdeal.RefValue

open Cert.ReferenceIdeal Cert.ReferenceIdeal.Gen Cert.ReferenceIdeal.Read Idealize.ShloMosaic Idealize.ShloMosaic.ValueIdx
  Cert.GatedCell

/-! ### The generated index maps at coordinates -/

theorem lidx0 (p : Fin 16384) (q : Fin 2048) (k : Fin 1024) : lidx_main_v0 (ix2 p q) k = ix2 p k := by
  funext a; match a with | ⟨0, _⟩ => rfl | ⟨1, _⟩ => rfl
theorem ridx0 (p : Fin 16384) (q : Fin 2048) (k : Fin 1024) : ridx_main_v0 (ix2 p q) k = ix2 k q := by
  funext a; match a with | ⟨0, _⟩ => rfl | ⟨1, _⟩ => rfl
theorem idx12 (p : Fin 16384) (q : Fin 2048) : idx_main_v1 (idx_main_v2 (ix2 p q)) = ix1 q := by
  funext a; match a with | ⟨0, _⟩ => rfl
theorem lidx7 (p : Fin 16384) (c : Fin 8192) (k : Fin 4096) : lidx_main_v7 (ix2 p c) k = ix2 p k := by
  funext a; match a with | ⟨0, _⟩ => rfl | ⟨1, _⟩ => rfl
theorem ridx7 (p : Fin 16384) (c : Fin 8192) (k : Fin 4096) : ridx_main_v7 (ix2 p c) k = ix2 k c := by
  funext a; match a with | ⟨0, _⟩ => rfl | ⟨1, _⟩ => rfl
theorem idx89 (p : Fin 16384) (c : Fin 8192) : idx_main_v8 (idx_main_v9 (ix2 p c)) = ix1 c := by
  funext a; match a with | ⟨0, _⟩ => rfl
theorem idx11 (p : Fin 16384) (q : Fin 2048) : idx_main_v11 (ix2 p q) = ix2 p (c0 q) := by
  funext a; match a with | ⟨0, _⟩ => rfl | ⟨1, _⟩ => rfl
theorem idx12' (p : Fin 16384) (q : Fin 2048) : idx_main_v12 (ix2 p q) = ix2 p (c1 q) := by
  funext a; match a with | ⟨0, _⟩ => rfl | ⟨1, _⟩ => rfl
theorem idx13 (p : Fin 16384) (q : Fin 2048) : idx_main_v13 (ix2 p q) = ix2 p (c2 q) := by
  funext a; match a with | ⟨0, _⟩ => rfl | ⟨1, _⟩ => rfl
theorem idx14 (p : Fin 16384) (q : Fin 2048) : idx_main_v14 (ix2 p q) = ix2 p (c3 q) := by
  funext a; match a with | ⟨0, _⟩ => rfl | ⟨1, _⟩ => rfl
theorem lidx34 (p : Fin 16384) (q : Fin 2048) (k : Fin 2048) : lidx_main_v34 (ix2 p q) k = ix2 p k := by
  funext a; match a with | ⟨0, _⟩ => rfl | ⟨1, _⟩ => rfl
theorem ridx34 (p : Fin 16384) (q : Fin 2048) (k : Fin 2048) : ridx_main_v34 (ix2 p q) k = ix2 k q := by
  funext a; match a with | ⟨0, _⟩ => rfl | ⟨1, _⟩ => rfl
theorem idx3536 (p : Fin 16384) (q : Fin 2048) : idx_main_v35 (idx_main_v36 (ix2 p q)) = ix1 q := by
  funext a; match a with | ⟨0, _⟩ => rfl

variable (x0 : FVec Ideal S16384x1024 .f32) (x1 x2 x3 : FVec Ideal S16384x2048 .f32) (x4 : FVec Ideal S16384x2048x1 .f32)
  (x5 : FVec Ideal S1024x2048 .f32) (x6 : FVec Ideal S2048 .f32) (x7 : FVec Ideal S4096x2048 .f32) (x8 : FVec Ideal S2048 .f32)
  (x9 : FVec Ideal S4096x2048 .f32) (x10 : FVec Ideal S2048 .f32) (x11 : FVec Ideal S4096x2048 .f32) (x12 : FVec Ideal S2048 .f32)
  (x13 : FVec Ideal S4096x2048 .f32) (x14 : FVec Ideal S2048 .f32) (x15 : FVec Ideal S2048x2048 .f32) (x16 : FVec Ideal S2048 .f32)
  (x17 : FVec Ideal S1 .f32)

/-! ### The input projection -/

theorem proj_read (p : Fin 16384) (k : Fin 2048) :
    val_main_v3 (F := Ideal) x0 x5 x6 (ix2 p k) = proj x0 x5 x6 p k := by
  rw [val_main_v3_apply, val_main_v0_apply, val_main_v2_apply, val_main_v1_apply, idx12 p k]
  refine congrArg₂ (· + ·) (Finset.sum_congr rfl fun k' _ => ?_) rfl
  rw [lidx0, ridx0]

/-! ### A gate's pre-activation out of the fused product -/

theorem pre_read (W : FVec Ideal S4096x2048 .f32) (b : FVec Ideal S2048 .f32) (p : Fin 16384) (q : Fin 2048) (c : Fin 8192)
    (hW : ∀ k : Fin 4096, val_main_v5 (F := Ideal) x7 x9 x11 x13 (ix2 k c) = W (ix2 k q))
    (hb : val_main_v6 (F := Ideal) x8 x10 x12 x14 (ix1 c) = b (ix1 q)) :
    val_main_v10 (F := Ideal) x0 x1 x5 x6 x7 x8 x9 x10 x11 x12 x13 x14 (ix2 p c) = gate (proj x0 x5 x6) x1 W b p q := by
  rw [val_main_v10_apply, val_main_v7_apply, val_main_v9_apply, val_main_v8_apply, idx89 p c]
  exact gate_of_halves (proj x0 x5 x6) x1 W b p q
    (fun k => val_main_v4 (F := Ideal) x0 x1 x5 x6 (lidx_main_v7 (ix2 p c) k))
    (fun k => val_main_v5 (F := Ideal) x7 x9 x11 x13 (ridx_main_v7 (ix2 p c) k)) _
    (fun k => by rw [lidx7]; unfold val_main_v4; exact (row_lo _ _ _ p k).trans (proj_read x0 x5 x6 p k))
    (fun k => by rw [lidx7]; unfold val_main_v4; exact row_hi _ _ _ p k)
    (fun k => by rw [ridx7]; exact hW (lo k)) (fun k => by rw [ridx7]; exact hW (hi k)) hb

theorem pre_f (p : Fin 16384) (q : Fin 2048) :
    val_main_v10 (F := Ideal) x0 x1 x5 x6 x7 x8 x9 x10 x11 x12 x13 x14 (ix2 p (c0 q)) = gate (proj x0 x5 x6) x1 x7 x8 p q :=
  pre_read x0 x1 x5 x6 x7 x8 x9 x10 x11 x12 x13 x14 x7 x8 p q (c0 q)
    (fun k => by unfold val_main_v5; exact wcat0 _ _ _ _ _ k q) (by unfold val_main_v6; exact bcat0 _ _ _ _ _ q)

theorem pre_i (p : Fin 16384) (q : Fin 2048) :
    val_main_v10 (F := Ideal) x0 x1 x5 x6 x7 x8 x9 x10 x11 x12 x13 x14 (ix2 p (c1 q)) = gate (proj x0 x5 x6) x1 x9 x10 p q :=
  pre_read x0 x1 x5 x6 x7 x8 x9 x10 x11 x12 x13 x14 x9 x10 p q (c1 q)
    (fun k => by unfold val_main_v5; exact wcat1 _ _ _ _ _ k q) (by unfold val_main_v6; exact bcat1 _ _ _ _ _ q)

theorem pre_c (p : Fin 16384) (q : Fin 2048) :
    val_main_v10 (F := Ideal) x0 x1 x5 x6 x7 x8 x9 x10 x11 x12 x13 x14 (ix2 p (c2 q)) = gate (proj x0 x5 x6) x1 x11 x12 p q :=
  pre_read x0 x1 x5 x6 x7 x8 x9 x10 x11 x12 x13 x14 x11 x12 p q (c2 q)
    (fun k => by unfold val_main_v5; exact wcat2 _ _ _ _ _ k q) (by unfold val_main_v6; exact bcat2 _ _ _ _ _ q)

theorem pre_o (p : Fin 16384) (q : Fin 2048) :
    val_main_v10 (F := Ideal) x0 x1 x5 x6 x7 x8 x9 x10 x11 x12 x13 x14 (ix2 p (c3 q)) = gate (proj x0 x5 x6) x1 x13 x14 p q :=
  pre_read x0 x1 x5 x6 x7 x8 x9 x10 x11 x12 x13 x14 x13 x14 p q (c3 q)
    (fun k => by unfold val_main_v5; exact wcat3 _ _ _ _ _ k q) (by unfold val_main_v6; exact bcat3 _ _ _ _ _ q)

/-! ### The damping term's pre-activation -/

theorem err_read (p : Fin 16384) (q : Fin 2048) :
    val_main_v37 (F := Ideal) x3 x15 x16 (ix2 p q) = errPre x3 x15 x16 p q := by
  rw [val_main_v37_apply, val_main_v34_apply, val_main_v36_apply, val_main_v35_apply, idx3536 p q]
  refine congrArg₂ (· + ·) (Finset.sum_congr rfl fun k' _ => ?_) rfl
  rw [lidx34, ridx34]

end Cert.ReferenceIdeal.RefValue

end
-- ==== Proof.RefConst.lean ====
/-
  The word of 1.0 denotes the real number 1, and the reference's spelling of the logistic function, 1 / (1 + e^(−z)) with
  that word for both ones, is the logistic function.
-/
import Idealize.ShloMosaic.PureOps.Ideal

noncomputable section

namespace Cert.ReferenceIdeal.RefValue

open Idealize.ShloMosaic

/-- The 32-bit word 0x3F800000 (sign 0, exponent 127, significand 0) denotes 1. -/
theorem ofBits_one : Ideal.ofBits .f32 0x3F800000#32 = 1 := by
  simp [Ideal.ofBits, Ideal.ieee, -EReal.coe_mul]; norm_num

/-- 1 / (1 + e^(−z)), the ones spelt as the word of 1.0, is the logistic function of z. -/
theorem logistic_spelt (z : EReal) :
    Ideal.div (Ideal.ofBits .f32 0x3F800000#32) (Ideal.ofBits .f32 0x3F800000#32 + Ideal.exp (-z)) = Ideal.logistic z := by
  rw [ofBits_one]; rfl

end Cert.ReferenceIdeal.RefValue

end
-- ==== Proof.RefOut.lean ====
/-
  The reference's two results read at an index are the specification's: the gates are the logistic function (the
  candidate the hyperbolic tangent) of their pre-activations, the uncertainty is the rank-3 argument at (p, q, 0), the time
  scale the one-element argument, and the arithmetic is spelt in the specification's order.
-/
import proofs.«149773_j65532611002879_2_alg».proof.Proof.RefPre
import proofs.«149773_j65532611002879_2_alg».proof.Proof.RefConst

noncomputable section

open scoped BigOperators

namespace Cert.ReferenceIdeal.RefValue

open Cert.ReferenceIdeal Cert.ReferenceIdeal.Gen Cert.ReferenceIdeal.Read Idealize.ShloMosaic Idealize.ShloMosaic.ValueIdx
  Cert.GatedCell

variable (x0 : FVec Ideal S16384x1024 .f32) (x1 x2 x3 : FVec Ideal S16384x2048 .f32) (x4 : FVec Ideal S16384x2048x1 .f32)
  (x5 : FVec Ideal S1024x2048 .f32) (x6 : FVec Ideal S2048 .f32) (x7 : FVec Ideal S4096x2048 .f32) (x8 : FVec Ideal S2048 .f32)
  (x9 : FVec Ideal S4096x2048 .f32) (x10 : FVec Ideal S2048 .f32) (x11 : FVec Ideal S4096x2048 .f32) (x12 : FVec Ideal S2048 .f32)
  (x13 : FVec Ideal S4096x2048 .f32) (x14 : FVec Ideal S2048 .f32) (x15 : FVec Ideal S2048x2048 .f32) (x16 : FVec Ideal S2048 .f32)
  (x17 : FVec Ideal S1 .f32)

/-- The rank-3 uncertainty viewed as a matrix: entry (p, q) is entry (p, q, 0). -/
theorem u_read (p : Fin 16384) (q : Fin 2048) : val_main_v44 (F := Ideal) x4 (ix2 p q) = x4 (ix3 p q 0) := by
  rw [val_main_v44_apply]
  congr 1
  funext a
  match a with
  | ⟨0, _⟩ => exact Fin.ext (by show (p.val * 2048 + q.val) / 2048 = p.val; have := q.isLt; omega)
  | ⟨1, _⟩ => exact Fin.ext (by show (p.val * 2048 + q.val) / 1 % 2048 = q.val; have := q.isLt; omega)
  | ⟨2, _⟩ => rfl

/-- The one-element time scale broadcast to the matrix. -/
theorem ts_read (i : S16384x2048.Idx) : val_main_v58 (F := Ideal) x17 i = x17 (ix1 0) := by
  rw [val_main_v58_apply, val_main_v57_apply]
  congr 1
  funext a
  match a with
  | ⟨0, _⟩ => rfl

/-- The forget gate. -/
theorem sig_f (p : Fin 16384) (q : Fin 2048) :
    val_main_v20 (F := Ideal) x0 x1 x5 x6 x7 x8 x9 x10 x11 x12 x13 x14 (ix2 p q) = Ideal.logistic (gate (proj x0 x5 x6) x1 x7 x8 p q) := by
  rw [val_main_v20_apply, val_main_v19_apply, val_main_cst_0_apply, val_main_v18_apply, val_main_v17_apply, val_main_cst_apply,
    val_main_v16_apply, val_main_v15_apply, val_main_v11_apply, idx11, pre_f]
  exact logistic_spelt _

/-- The input gate. -/
theorem sig_i (p : Fin 16384) (q : Fin 2048) :
    val_main_v26 (F := Ideal) x0 x1 x5 x6 x7 x8 x9 x10 x11 x12 x13 x14 (ix2 p q) = Ideal.logistic (gate (proj x0 x5 x6) x1 x9 x10 p q) := by
  rw [val_main_v26_apply, val_main_v25_apply, val_main_cst_2_apply, val_main_v24_apply, val_main_v23_apply, val_main_cst_1_apply,
    val_main_v22_apply, val_main_v21_apply, val_main_v12_apply, idx12', pre_i]
  exact logistic_spelt _

/-- The candidate. -/
theorem tanh_c (p : Fin 16384) (q : Fin 2048) :
    val_main_v27 (F := Ideal) x0 x1 x5 x6 x7 x8 x9 x10 x11 x12 x13 x14 (ix2 p q) = Ideal.tanh (gate (proj x0 x5 x6) x1 x11 x12 p q) := by
  rw [val_main_v27_apply, val_main_v13_apply, idx13, pre_c]
  rfl

/-- The output gate. -/
theorem sig_o (p : Fin 16384) (q : Fin 2048) :
    val_main_v33 (F := Ideal) x0 x1 x5 x6 x7 x8 x9 x10 x11 x12 x13 x14 (ix2 p q) = Ideal.logistic (gate (proj x0 x5 x6) x1 x13 x14 p q) := by
  rw [val_main_v33_apply, val_main_v32_apply, val_main_cst_4_apply, val_main_v31_apply, val_main_v30_apply, val_main_cst_3_apply,
    val_main_v29_apply, val_main_v28_apply, val_main_v14_apply, idx14, pre_o]
  exact logistic_spelt _

/-- The damping term. -/
theorem sig_a (p : Fin 16384) (q : Fin 2048) :
    val_main_v43 (F := Ideal) x3 x15 x16 (ix2 p q) = Ideal.logistic (errPre x3 x15 x16 p q) := by
  rw [val_main_v43_apply, val_main_v42_apply, val_main_cst_6_apply, val_main_v41_apply, val_main_v40_apply, val_main_cst_5_apply,
    val_main_v39_apply, val_main_v38_apply, err_read]
  exact logistic_spelt _

/-- The forget gate scaled down by the uncertainty. -/
theorem mf_read (p : Fin 16384) (q : Fin 2048) :
    val_main_v52 (F := Ideal) x0 x1 x4 x5 x6 x7 x8 x9 x10 x11 x12 x13 x14 (ix2 p q)
      = Ideal.logistic (gate (proj x0 x5 x6) x1 x7 x8 p q) * (one - x4 (ix3 p q 0) * tenth) := by
  rw [val_main_v52_apply, sig_f, val_main_v51_apply, val_main_v50_apply, val_main_cst_9_apply, val_main_v49_apply, u_read,
    val_main_v48_apply, val_main_cst_8_apply]
  rfl

/-- The input gate scaled up by the uncertainty. -/
theorem mi_read (p : Fin 16384) (q : Fin 2048) :
    val_main_v47 (F := Ideal) x0 x1 x4 x5 x6 x7 x8 x9 x10 x11 x12 x13 x14 (ix2 p q)
      = Ideal.logistic (gate (proj x0 x5 x6) x1 x9 x10 p q) * (one + x4 (ix3 p q 0)) := by
  rw [val_main_v47_apply, sig_i, val_main_v46_apply, val_main_v45_apply, val_main_cst_7_apply, u_read]
  rfl

/-- The new cell state at (p, q). -/
theorem cell_read (p : Fin 16384) (q : Fin 2048) :
    val_main_v59 (F := Ideal) x0 x1 x2 x3 x4 x5 x6 x7 x8 x9 x10 x11 x12 x13 x14 x15 x16 x17 (ix2 p q)
      = cellAt x0 x1 x2 x3 x4 x5 x6 x7 x8 x9 x10 x11 x12 x15 x16 x17 p q := by
  rw [val_main_v59_apply, val_main_v56_apply, val_main_v53_apply, mf_read, val_main_v55_apply, val_main_v54_apply, mi_read,
    tanh_c, sig_a, ts_read]
  rfl

/-- The new hidden state at (p, q). -/
theorem hid_read (p : Fin 16384) (q : Fin 2048) :
    val_main_v61 (F := Ideal) x0 x1 x2 x3 x4 x5 x6 x7 x8 x9 x10 x11 x12 x13 x14 x15 x16 x17 (ix2 p q)
      = Ideal.logistic (gate (proj x0 x5 x6) x1 x13 x14 p q)
        * Ideal.tanh (cellAt x0 x1 x2 x3 x4 x5 x6 x7 x8 x9 x10 x11 x12 x15 x16 x17 p q) := by
  rw [val_main_v61_apply, sig_o, val_main_v60_apply, cell_read]
  rfl

/-- The reference's new cell state is the specification's, as arrays. -/
theorem cell_eq : val_main_v59 (F := Ideal) x0 x1 x2 x3 x4 x5 x6 x7 x8 x9 x10 x11 x12 x13 x14 x15 x16 x17 = cellOut x0 x1 x2 x3 x4 x5 x6 x7 x8 x9 x10 x11 x12 x15 x16 x17 := by
  funext i
  obtain ⟨p, q, rfl⟩ : ∃ p q, i = ix2 p q := ⟨i 0, i 1, eq_ix2 i⟩
  exact cell_read x0 x1 x2 x3 x4 x5 x6 x7 x8 x9 x10 x11 x12 x13 x14 x15 x16 x17 p q

/-- The reference's new hidden state is the specification's, as arrays. -/
theorem hid_eq : val_main_v61 (F := Ideal) x0 x1 x2 x3 x4 x5 x6 x7 x8 x9 x10 x11 x12 x13 x14 x15 x16 x17 = hiddenOut x0 x1 x2 x3 x4 x5 x6 x7 x8 x9 x10 x11 x12 x13 x14 x15 x16 x17 := by
  funext i
  obtain ⟨p, q, rfl⟩ : ∃ p q, i = ix2 p q := ⟨i 0, i 1, eq_ix2 i⟩
  exact hid_read x0 x1 x2 x3 x4 x5 x6 x7 x8 x9 x10 x11 x12 x13 x14 x15 x16 x17 p q

end Cert.ReferenceIdeal.RefValue

end
-- ==== Proof.RefRun.lean ====
/-
  The reference's run ends with its two results at the specification's arrays of the arguments' launch contents, the
  arguments unchanged: the generated run's composed terms are the last two stages, and those are the specification's
  functions index by index.
-/
import proofs.«149773_j65532611002879_2_alg».proof.Proof.RefOut

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- Every weakly fair execution of the reference terminates with the new hidden state and the new cell state of the
    specification, as functions of the arguments' launch contents, and the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v61) = Cert.GatedCell.hiddenOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v59) = Cert.GatedCell.cellOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run Cert.ReferenceIdeal.defs _ _).mono
    (fun _ h c => ⟨((h c).1.trans (Cert.ReferenceIdeal.Read.val_main_v61_eq m c)).trans (hid_eq ..),
      ((h c).2.1.trans (Cert.ReferenceIdeal.Read.val_main_v59_eq m c)).trans (cell_eq ..), (h c).2.2⟩)
    (Cert.ReferenceIdeal.Value.run (F := Ideal) m ρ)

end Cert.ReferenceIdeal.RefValue

end
-- ==== Proof.lean ====
/-
  The certificate of a gated recurrent cell update: a kernel in two regions (the input projection; the four gates, an
  attention-like damping term and the cell update, tile by tile) against the plain array program that forms one
  [row, 2·H] array [proj, hid], one [2·H, 4·H] weight matrix and one product, and slices the four gates out of it.

  On the extended reals both compute, entry by entry, the functions `GatedCell.hiddenOut` and `GatedCell.cellOut` of
  Proof/Spec.lean.  The only law between the two arrangements is that a sum over the 2·H rows of a gate's weight
  matrix is the sum over its upper H rows plus the sum over its lower H rows — commutativity and associativity of
  addition, which hold at the infinities too, so the precondition (finite inputs) is never opened.  A change of float
  format is the identity on extended reals, the logistic function is one function however it is spelt, and the two
  literals are the same 32-bit words on both sides.

  The kernel's run is followed region by region: the buffers' contents at each boundary, each region's proof data and
  body (by symbolic execution), a gate's weight matrix dealt between the two windows that read it; each output array is
  then one function of what the region found (its tiles cover it), and substituting the host operations and the first
  region's result gives the specification.  The reference's run is read back operation by operation.  The three
  frames are those runs with the results dropped; the idealization rewrote nothing, so `preserves` is trivial.
-/
import proofs.«149773_j65532611002879_2_alg».proof.Defs
import proofs.«149773_j65532611002879_2_alg».proof.Proof.Gen.Kernel
import proofs.«149773_j65532611002879_2_alg».proof.Proof.Gen.KernelIdeal
import proofs.«149773_j65532611002879_2_alg».proof.Proof.Gen.ReferenceIdeal
import proofs.«149773_j65532611002879_2_alg».proof.Proof.Gen.ReferenceIdeal.Run
import proofs.«149773_j65532611002879_2_alg».proof.Proof.Gen.ReferenceIdeal.Read
import proofs.«149773_j65532611002879_2_alg».proof.Proof.Gen.Pre_finite_inputs
import proofs.«149773_j65532611002879_2_alg».proof.Proof.KernelRun
import proofs.«149773_j65532611002879_2_alg».proof.Proof.KernelIdealRun
import proofs.«149773_j65532611002879_2_alg».proof.Proof.KernelIdealFinal
import proofs.«149773_j65532611002879_2_alg».proof.Proof.RefRun
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- Both idealized programs end with the specification's two arrays of arguments that agree. -/
theorem algebraic : Cert.algebraic_KernelIdeal_ReferenceIdeal := by
  intro m ρ m' ρ' _ hagree
  refine ⟨fun c => GatedCell.hiddenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => GatedCell.cellOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.HandValue.run_spec m ρ, ?_⟩
  refine (θ_run Cert.ReferenceIdeal.defs _ _).mono (fun _ h c => ⟨(h c).1.trans ?_, (h c).2.1.trans ?_, (h c).2.2⟩)
    (Cert.ReferenceIdeal.RefValue.run_spec m' ρ')
  · obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
  · obtain ⟨e0, e1, e2, e3, e4, e5, e6, e7, e8, e9, e10, e11, e12, e13, e14, e15, e16, e17⟩ := hagree c
    rw [e0, e1, e2, e3, e4, e5, e6, e7, e8, e9, e10, e11, e12, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
